-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S8192x128 : Shape := ⟨2, ![8192, 128]⟩
abbrev S2048x128 : Shape := ⟨2, ![2048, 128]⟩
abbrev S2048 : Shape := ⟨1, ![2048]⟩
abbrev S2048x1 : Shape := ⟨2, ![2048, 1]⟩
abbrev S8192x1 : Shape := ⟨2, ![8192, 1]⟩
abbrev S512x128 : Shape := ⟨2, ![512, 128]⟩
abbrev S512x1 : Shape := ⟨2, ![512, 1]⟩
abbrev S512x512 : Shape := ⟨2, ![512, 512]⟩
abbrev S512 : Shape := ⟨1, ![512]⟩
abbrev S_ : Shape := ⟨0, ![]⟩

abbrev nBuf : Space → Nat
  | .hbm => 10
  | .vmem => 13
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S8192x128, .bf16⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .bf16⟩
  | .local _ .vmem, ⟨3, _⟩ => ⟨S2048x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 16], ![false, false]⟩

def k1_cond3 (i : grid1.Coords) : BitVec 1 :=
  let arg1 : BitVec 32 := BitVec.ofNat 32 (i 1).val
  let c15_i32 : BitVec 32 := 15#32
  let v56 : BitVec 1 := Scalar.cmpi .eq arg1 c15_i32
  let v57 : BitVec 32 := Scalar.extui v56
  let c0_i32_24 : BitVec 32 := 0#32
  let v58 : BitVec 1 := Scalar.cmpi .ne v57 c0_i32_24
  v58

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  concatenates_S4096x128_S4096x128_S8192x128_d0 : Shape.Concatenates [S4096x128, S4096x128] S8192x128 0
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  broadcasts_S2048x1_S2048x128 : S2048x1.Broadcasts S2048x128
  bitsLt_bf16_f32 : FTy.bits .bf16 < FTy.bits .f32
  packedbf16_S2048x128_S2048x128_0_0 : (Rect.unit (s := S2048x128) ![0, 0] S2048x128.size inb_S2048x128_S2048x128_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  reducesTo_S8192x1_S_d0_1 : S8192x1.ReducesTo [0, 1] S_
  h_S_ : 0 < S_.numel
  dot_S512x128_S512x128_S512x512_1_1_0_0_n_n_wf : DotDims.WF S512x128 S512x128 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .bf16 = 32 ∨ (Rect.block (s := S8192x128) S2048x128.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x128.size a
  hwx1_0 : ∀ i : grid1.Coords, EltTy.bits .bf16 = 32 ∨ (Rect.block (s := S8192x128) S512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S8192x128.size a
  hwx1_1 : ∀ i : grid1.Coords, EltTy.bits .bf16 = 32 ∨ (Rect.block (s := S8192x128) S512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond3 i == 1#1) | ⟨_ + 3, h⟩ => absurd h (Nat.not_lt.2 (Nat.le_add_left _ _))

class Facts : Prop extends Facts₀ where

variable [Facts]
-- ==== ReferenceIdeal.lean ====
abbrev S4096x128 : Shape := ⟨2, ![4096, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S4096 : Shape := ⟨1, ![4096]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 76
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S8192, .i32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S8192x1, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1, .f32⟩
  | .hbm, ⟨46, _⟩ => ⟨S8192x8192, .f32⟩
  | .hbm, ⟨47, _⟩ => ⟨S8192x8192, .f32⟩
  | .hbm, ⟨48, _⟩ => ⟨S8192x1, .i32⟩
  | .hbm, ⟨49, _⟩ => ⟨S_, .i32⟩
  | .hbm, ⟨50, _⟩ => ⟨S8192x1, .i32⟩
  | .hbm, ⟨51, _⟩ => ⟨S8192x1, .i1⟩
  | .hbm, ⟨52, _⟩ => ⟨S_, .i32⟩
  | .hbm, ⟨53, _⟩ => ⟨S8192x1, .i32⟩
  | .hbm, ⟨54, _⟩ => ⟨S8192x1, .i32⟩
  | .hbm, ⟨55, _⟩ => ⟨S8192x1, .i32⟩
  | .hbm, ⟨56, _⟩ => ⟨S8192x1x1, .i32⟩
  | .hbm, ⟨57, _⟩ => ⟨S1, .i32⟩
  | .hbm, ⟨58, _⟩ => ⟨S_, .i32⟩
  | .hbm, ⟨59, _⟩ => ⟨S8192x1x1, .i32⟩
  | .hbm, ⟨60, _⟩ => ⟨S8192x1x1, .i1⟩
  | .hbm, ⟨61, _⟩ => ⟨S1x1x1, .i32⟩
  | .hbm, ⟨62, _⟩ => ⟨S8192x1x1, .i32⟩
  | .hbm, ⟨63, _⟩ => ⟨S8192x1x1, .i1⟩
  | .hbm, ⟨64, _⟩ => ⟨S8192x1x1, .i1⟩
  | .hbm, ⟨65, _⟩ => ⟨S_, .i1⟩
  | .hbm, ⟨66, _⟩ => ⟨S8192x1, .i1⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call2_cst : Ref sig .tc := ⟨.hbm, 33, rfl⟩
abbrev main_call2_v0 : Ref sig .tc := ⟨.hbm, 34, rfl⟩
abbrev main_call2_cst_0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_cst_1 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_v20 : Ref sig .tc := ⟨.hbm, 47, rfl⟩
abbrev main_v21 : Ref sig .tc := ⟨.hbm, 48, rfl⟩
abbrev main_call3_c : Ref sig .tc := ⟨.hbm, 49, rfl⟩
abbrev main_call3_v0 : Ref sig .tc := ⟨.hbm, 50, rfl⟩
abbrev main_call3_v1 : Ref sig .tc := ⟨.hbm, 51, rfl⟩
abbrev main_call3_c_0 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_c_1 : Ref sig .tc := ⟨.hbm, 57, rfl⟩
abbrev main_call3_c_2 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_3 : Ref sig .tc := ⟨.hbm, 65, rfl⟩
abbrev main_call3_v12 : Ref sig .tc := ⟨.hbm, 66, rfl⟩
abbrev main_call3_v13 : Ref sig .tc := ⟨.hbm, 67, rfl⟩
abbrev main_call3_cst : Ref sig .tc := ⟨.hbm, 68, rfl⟩
abbrev main_call3_v14 : Ref sig .tc := ⟨.hbm, 69, rfl⟩
abbrev main_v22 : Ref sig .tc := ⟨.hbm, 70, rfl⟩
abbrev main_cst_3 : Ref sig .tc := ⟨.hbm, 71, rfl⟩
abbrev main_v23 : Ref sig .tc := ⟨.hbm, 72, rfl⟩
abbrev main_cst_4 : Ref sig .tc := ⟨.hbm, 73, rfl⟩
abbrev main_v24 : Ref sig .tc := ⟨.hbm, 74, rfl⟩
abbrev main_v25 : Ref sig .tc := ⟨.hbm, 75, rfl⟩

abbrev nD : Nat := 1
abbrev τ : Topo := Topo.v7x

variable {F : FTy → Type} [FloatOps F]

class Facts₀ : Prop where
  concatenates_S4096x128_S4096x128_S8192x128_d0 : Shape.Concatenates [S4096x128, S4096x128] S8192x128 0
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S8192x8192 : S_.BroadcastsInDim S8192x8192 (![] : Fin 0 → Fin S8192x8192.rank)
  bcast_S_S4096 : S_.BroadcastsInDim S4096 (![] : Fin 0 → Fin S4096.rank)
  concatenates_S4096_S4096_S8192_d0 : Shape.Concatenates [S4096, S4096] S8192 0
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  dot_S8192x128_S8192x128_S8192x8192_1_1_0_0_n_n_wf : DotDims.WF S8192x128 S8192x128 S8192x8192 [1] [1] [0] [0] [] []
  gather_S8192x8192_S8192x1x1_S8192x1_n_1_0_0_1_2_11_wf : GatherDims.WF S8192x8192 S8192x1x1 S8192x1 [] [1] [0] [1] [0] 2 ![1, 1]

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.KRegion0.lean ====
/-
  The first kernel region: every block of 2048 rows is loaded whole, each row divided by its floored Euclidean
  length, and the block stored whole.  Stated at the contents `V` the region finds in the arrays: the block a
  point reads, what the point leaves in the output's staging buffer (one store of the whole block), the body's
  triple, and the proof data of the pipeline (inputs stay, the output holds the stored block, nothing is owed).
-/
import proofs.«129541_j23081154249195_1_alg».proof.Proof.Gen.Kernel.Launch
import proofs.«129541_j23081154249195_1_alg».proof.Proof.Gen.Kernel.Skeleton
import proofs.«129541_j23081154249195_1_alg».proof.Proof.Gen.Kernel.Points
import proofs.«129541_j23081154249195_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x128 := Rect.unit (s := S2048x128) ![0, 0] S2048x128.size inb_S2048x128_S2048x128_0_0

/-- The output's staging buffer after the body: its one store, of the whole block. -/
def out0_1 (x0 : Vec F S2048x128 .f32) : Vec F S2048x128 .bf16 :=
  View.canon [⟨r0_0, k0_pay1 (View.ld x0 r0_0)⟩]

theorem cover0_1 (p0 : Vec F S2048x128 .bf16) (y : S2048x128.Idx) :
    ∃ pc ∈ ([⟨r0_0, p0⟩] : List (View.Piece (Elt F) S2048x128 .bf16)), y ∈ pc.1.set :=
  View.cover_of_tiled [⟨r0_0, p0⟩] S2048x128.size (by rfl) y

set_option maxHeartbeats 1000000 in
/-- The body on whole staging buffers: the input kept, the output at `out0_1` of the input. -/
theorem sound_kernel0 (c : Dev nD) (E : Set ℕ) (i : grid0.Coords) (arg1 : Memref sig .tc .vmem S2048x128 .f32) (harg1 : arg1.IsWhole) (arg2 : Memref sig .tc .vmem S2048x128 .bf16) (harg2 : arg2.IsWhole)
    (x0 : Vec F S2048x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first pipeline at entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1a.lean ====
/-
  The second kernel region, first part: what its statements are written over.  The grid is 16 × 16; point
  `t` is row tile `t / 16` and column tile `t % 16`.  Three conditions steer the body: the first column tile
  (the three running statistics are reset), the column tile that holds the row tile's partner columns (the
  partner scores are kept), and the last column tile (the result is written).  They are decided here over the
  256 points, together with where the output window is idle and the blocks the two input windows hold.
-/
import proofs.«129541_j23081154249195_1_alg».proof.Proof.Gen.Kernel.Launch
import proofs.«129541_j23081154249195_1_alg».proof.Proof.Gen.Kernel.Skeleton
import proofs.«129541_j23081154249195_1_alg».proof.Proof.Gen.Kernel.Points
import proofs.«129541_j23081154249195_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row window's staging buffer holds its block at every point (refetched only when the row tile changes). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-- The first column tile. -/
abbrev cond1_0 (i : grid1.Coords) : Prop := (Scalar.cmpi .ne (Scalar.extui (Scalar.cmpi .eq (BitVec.ofNat 32 (i 1).val) 0#32)) 0#32) = 1#1
/-- The column tile of the partner columns. -/
abbrev cond1_1 (i : grid1.Coords) : Prop := (Scalar.cmpi .ne (Scalar.extui (Scalar.cmpi .eq (BitVec.ofNat 32 (i 1).val) (Scalar.select (Scalar.cmpi .slt (BitVec.ofNat 32 (i 0).val) 8#32) (Scalar.addi (BitVec.ofNat 32 (i 0).val) 8#32) (Scalar.subi (BitVec.ofNat 32 (i 0).val) 8#32)))) 0#32) = 1#1
/-- The last column tile. -/
abbrev cond1_2 (i : grid1.Coords) : Prop := k1_cond3 i = 1#1

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = (t.val / 16 + 8) % 16 :=
  (by decide +kernel : ∀ t : Fin grid1.N, cond1_1 (grid1.coords t) ↔ t.val % 16 = (t.val / 16 + 8) % 16)
theorem hcond1_2 : ∀ t : Fin cfg1.N, cond1_2 (grid1.coords t) ↔ t.val % 16 = 15 :=
  (by decide +kernel : ∀ t : Fin grid1.N, cond1_2 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_2 (grid1.coords t) → cfg1.idle 2 (grid1.coords t) = true := by decide +kernel
theorem noFlush1_2 : ∀ t : Fin cfg1.N, ¬cond1_2 (grid1.coords t) → (cfg1.win 2).flush t = false := by decide +kernel
theorem liveAt1_2 : ∀ t : Fin cfg1.N, cond1_2 (grid1.coords t) → cfg1.idle 2 (grid1.coords t) = false := by decide +kernel

/-- Each window's current staging memref at point `t`, and the three scratch buffers. -/
abbrev ms1_0 (t : Fin cfg1.N) : Memref sig .tc .vmem S512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev scM1_0 : Memref sig .tc .vmem S512x1 .f32 := Memref.whole cc1_scratch0
abbrev scM1_1 : Memref sig .tc .vmem S512x1 .f32 := Memref.whole cc1_scratch1
abbrev scM1_2 : Memref sig .tc .vmem S512x1 .f32 := Memref.whole cc1_scratch2

/-- The scoped buffers the region does not stage (the first region's staging buffers and the three scratch
    buffers), each owned at some contents, and the generator register: what the region's invariant starts from. -/
theorem PhiA1_eq (c : Dev nD) :
    (Pipeline.ΦA spec1 c : sProp 𝕄)
      = iprop(iprop((∃ d, owns (c : Thread nD τ) (Memref.whole cc0_stg0_0 : Memref sig .tc .vmem S2048x128 .f32) fullShare d)
          ∗ (∃ d, owns (c : Thread nD τ) (Memref.whole cc0_stg0_1 : Memref sig .tc .vmem S2048x128 .f32) fullShare d)
          ∗ (∃ d, owns (c : Thread nD τ) (Memref.whole cc0_stg1_0 : Memref sig .tc .vmem S2048x128 .bf16) fullShare d)
          ∗ (∃ d, owns (c : Thread nD τ) (Memref.whole cc0_stg1_1 : Memref sig .tc .vmem S2048x128 .bf16) fullShare d)
          ∗ (∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.KRegion1b.lean ====
/-
  The second kernel region, second part: the body as one triple.  On whole staging buffers holding a row block
  `x0`, a column block `x1`, and any contents `d4` of the output buffer and `s5`, `s6`, `s7` of the three
  scratch buffers (running maximum, running sum, partner scores), the body leaves the two blocks as they were and

  * the running maximum at the larger of the old one (reset to −∞ in the first column tile) and the tile's row
    maximum (`n5`),
  * the running sum rescaled to the new maximum plus the tile's sum of exponentials (`n6`),
  * the partner scores at the tile's local diagonal in the partner's column tile, else as they were, reset to
    zero in the first column tile (`n7`),
  * the output at partner score − (maximum + log sum) in the last column tile, else untouched (`o4`).

  Every load and store moves a whole buffer, so each buffer's final contents are the payload of the last store into
  it, and each load reads the payload of the last store before it.
-/
import proofs.«129541_j23081154249195_1_alg».proof.Proof.KRegion1a
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access. -/
theorem hz2 : (![0, 0] : Fin 2 → Nat) = fun _ => 0 := by funext a; fin_cases a <;> rfl

/-- A whole-buffer load after stores the newest of which was a whole-buffer store reads that store's payload. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  have hcov : ∀ y, ∃ p ∈ ((⟨Rect.unit (fun _ => 0) S.size inb, w⟩ : View.Piece Val S e) :: L), y ∈ p.1.set :=
    fun y => ⟨⟨Rect.unit (fun _ => 0) S.size inb, w⟩, List.mem_cons_self, View.mem_set_unit_zero rfl inb y⟩
  rw [View.readCov_eq_canon_ld v _ _ hcov, View.canon_cons_unit_zero rfl, View.ld_unit_zero rfl]

/-- What stores the newest of which was a whole-buffer store leave: that store's payload. -/
theorem read_writes_cons_whole {Val : EltTy → Type} [∀ e, Nonempty (Val e)] {S : Shape} {e : EltTy} {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  have hcov : ∀ y, ∃ p ∈ ((⟨Rect.unit off S.size inb, w⟩ : View.Piece Val S e) :: L), y ∈ p.1.set :=
    fun y => ⟨⟨Rect.unit off S.size inb, w⟩, List.mem_cons_self, View.mem_set_unit_zero h inb y⟩
  rw [View.read_writes_eq_canon v f _ hcov, View.canon_cons_unit_zero h]

/-- The three statistics as the tile's arithmetic finds them: reset in the first column tile. -/
def m0 (i : grid1.Coords) (s5 : Vec F S512x1 .f32) : Vec F S512x1 .f32 := if cond1_0 i then k1_pay5 (F := F) else s5
def l0 (i : grid1.Coords) (s6 : Vec F S512x1 .f32) : Vec F S512x1 .f32 := if cond1_0 i then k1_pay6 (F := F) else s6
def p0 (i : grid1.Coords) (s7 : Vec F S512x1 .f32) : Vec F S512x1 .f32 := if cond1_0 i then k1_pay7 (F := F) else s7
/-- The partner scores, the running maximum, the running sum and the output after the body. -/
def n7 (i : grid1.Coords) (x0 x1 : Vec F S512x128 .bf16) (s7 : Vec F S512x1 .f32) : Vec F S512x1 .f32 :=
  if cond1_1 i then k1_pay9 i x0 x1 else p0 i s7
def n5 (i : grid1.Coords) (x0 x1 : Vec F S512x128 .bf16) (s5 : Vec F S512x1 .f32) : Vec F S512x1 .f32 :=
  k1_pay3 (k1_pay10 i x0 x1) (m0 i s5)
def n6 (i : grid1.Coords) (x0 x1 : Vec F S512x128 .bf16) (s5 s6 : Vec F S512x1 .f32) : Vec F S512x1 .f32 :=
  k1_pay2 (k1_pay8 i x0 x1) (k1_pay10 i x0 x1) (m0 i s5) (m0 i s5) (l0 i s6)
def r4 (i : grid1.Coords) (x0 x1 : Vec F S512x128 .bf16) (s5 s6 s7 : Vec F S512x1 .f32) : Vec F S512x1 .f32 :=
  k1_pay4 (n5 i x0 x1 s5) (n6 i x0 x1 s5 s6) (n7 i x0 x1 s7)
def o4 (i : grid1.Coords) (x0 x1 : Vec F S512x128 .bf16) (d4 s5 s6 s7 : Vec F S512x1 .f32) : Vec F S512x1 .f32 :=
  if cond1_2 i then r4 i x0 x1 s5 s6 s7 else d4

/-- A buffer whose contents read as `X` is owned at `X`. -/
theorem owns_of_read {s : Shape} {e : EltTy} (c : Dev nD) (arg : Memref sig .tc .vmem s e) (f : arg.view.ty.Contents (Elt F)) (X : Vec F s e)
    (h : arg.view.read (Elt F) f = X) :
    (arg.view.loc (c : Thread nD τ) ↦[arg.view.set]{fullShare} f : sProp 𝕄) ⊢ owns (c : Thread nD τ) arg fullShare X := by
  unfold owns
  iintro H; iexists f; isplitr
  · ipureintro; exact h
  iexact H

end Cert.Kernel.Hand

end
-- ==== Proof.KR1CaseFFF.lean ====
/-
  One combination of the three conditions of the second region's body, run through from the first load to the
  last store.
-/
import proofs.«129541_j23081154249195_1_alg».proof.Proof.KRegion1b

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body's triple when the first-column-tile, partner-tile and last-column-tile conditions are false, false, false. -/
theorem sound_kernel1_FFF (c : Dev nD) (E : Set ℕ) (i : grid1.Coords)
    (arg2 : Memref sig .tc .vmem S512x128 .bf16) (harg2 : arg2.IsWhole) (arg3 : Memref sig .tc .vmem S512x128 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : ¬cond1_0 i) (hc1 : ¬cond1_1 i) (hc2 : ¬cond1_2 i)
    (x0 x1 : Vec F S512x128 .bf16) (d4 s5 s6 s7 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1
            ∗ owns (c : Thread nD τ) arg4 fullShare (o4 i x0 x1 d4 s5 s6 s7)
            ∗ owns (c : Thread nD τ) arg5 fullShare (n5 i x0 x1 s5) ∗ owns (c : Thread nD τ) arg6 fullShare (n6 i x0 x1 s5 s6)
            ∗ owns (c : Thread nD τ) arg7 fullShare (n7 i x0 x1 s7)) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf4
  obtain rfl := harg5.eq_unread hf5; obtain rfl := harg6.eq_unread hf6; obtain rfl := harg7.eq_unread hf7
  all_goals
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr
      swap; · iexact H4
      ipureintro
      sl_unfold_words
      simp only [o4, r4, n5, n6, n7, m0, l0, p0, if_neg hc0, if_neg hc1, if_neg hc2]
      first
        | exact harg4.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H5]
    · iexists _; isplitr
      swap; · iexact H5
      ipureintro
      sl_unfold_words
      simp only [o4, r4, n5, n6, n7, m0, l0, p0, if_neg hc0, if_neg hc1, if_neg hc2]
      first
        | exact harg5.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H6]
    · iexists _; isplitr
      swap; · iexact H6
      ipureintro
      sl_unfold_words
      simp only [o4, r4, n5, n6, n7, m0, l0, p0, if_neg hc0, if_neg hc1, if_neg hc2]
      first
        | exact harg6.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    · iexists _; isplitr
      swap; · iexact H7
      ipureintro
      sl_unfold_words
      simp only [o4, r4, n5, n6, n7, m0, l0, p0, if_neg hc0, if_neg hc1, if_neg hc2]
      first
        | exact harg7.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])

end Cert.Kernel.Hand

end
-- ==== Proof.KR1CaseFFT.lean ====
/-
  One combination of the three conditions of the second region's body, run through from the first load to the
  last store.
-/
import proofs.«129541_j23081154249195_1_alg».proof.Proof.KRegion1b

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body's triple when the first-column-tile, partner-tile and last-column-tile conditions are false, false, true. -/
theorem sound_kernel1_FFT (c : Dev nD) (E : Set ℕ) (i : grid1.Coords)
    (arg2 : Memref sig .tc .vmem S512x128 .bf16) (harg2 : arg2.IsWhole) (arg3 : Memref sig .tc .vmem S512x128 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : ¬cond1_0 i) (hc1 : ¬cond1_1 i) (hc2 : cond1_2 i)
    (x0 x1 : Vec F S512x128 .bf16) (d4 s5 s6 s7 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1
            ∗ owns (c : Thread nD τ) arg4 fullShare (o4 i x0 x1 d4 s5 s6 s7)
            ∗ owns (c : Thread nD τ) arg5 fullShare (n5 i x0 x1 s5) ∗ owns (c : Thread nD τ) arg6 fullShare (n6 i x0 x1 s5 s6)
            ∗ owns (c : Thread nD τ) arg7 fullShare (n7 i x0 x1 s7)) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf4
  obtain rfl := harg5.eq_unread hf5; obtain rfl := harg6.eq_unread hf6; obtain rfl := harg7.eq_unread hf7
  all_goals
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr
      swap; · iexact H4
      ipureintro
      sl_unfold_words
      simp only [o4, r4, n5, n6, n7, m0, l0, p0, if_neg hc0, if_neg hc1, if_pos hc2]
      first
        | exact harg4.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H5]
    · iexists _; isplitr
      swap; · iexact H5
      ipureintro
      sl_unfold_words
      simp only [o4, r4, n5, n6, n7, m0, l0, p0, if_neg hc0, if_neg hc1, if_pos hc2]
      first
        | exact harg5.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H6]
    · iexists _; isplitr
      swap; · iexact H6
      ipureintro
      sl_unfold_words
      simp only [o4, r4, n5, n6, n7, m0, l0, p0, if_neg hc0, if_neg hc1, if_pos hc2]
      first
        | exact harg6.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    · iexists _; isplitr
      swap; · iexact H7
      ipureintro
      sl_unfold_words
      simp only [o4, r4, n5, n6, n7, m0, l0, p0, if_neg hc0, if_neg hc1, if_pos hc2]
      first
        | exact harg7.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])

end Cert.Kernel.Hand

end
-- ==== Proof.KR1CaseFTF.lean ====
/-
  One combination of the three conditions of the second region's body, run through from the first load to the
  last store.
-/
import proofs.«129541_j23081154249195_1_alg».proof.Proof.KRegion1b

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body's triple when the first-column-tile, partner-tile and last-column-tile conditions are false, true, false. -/
theorem sound_kernel1_FTF (c : Dev nD) (E : Set ℕ) (i : grid1.Coords)
    (arg2 : Memref sig .tc .vmem S512x128 .bf16) (harg2 : arg2.IsWhole) (arg3 : Memref sig .tc .vmem S512x128 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : ¬cond1_0 i) (hc1 : cond1_1 i) (hc2 : ¬cond1_2 i)
    (x0 x1 : Vec F S512x128 .bf16) (d4 s5 s6 s7 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1
            ∗ owns (c : Thread nD τ) arg4 fullShare (o4 i x0 x1 d4 s5 s6 s7)
            ∗ owns (c : Thread nD τ) arg5 fullShare (n5 i x0 x1 s5) ∗ owns (c : Thread nD τ) arg6 fullShare (n6 i x0 x1 s5 s6)
            ∗ owns (c : Thread nD τ) arg7 fullShare (n7 i x0 x1 s7)) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf4
  obtain rfl := harg5.eq_unread hf5; obtain rfl := harg6.eq_unread hf6; obtain rfl := harg7.eq_unread hf7
  all_goals
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr
      swap; · iexact H4
      ipureintro
      sl_unfold_words
      simp only [o4, r4, n5, n6, n7, m0, l0, p0, if_neg hc0, if_pos hc1, if_neg hc2]
      first
        | exact harg4.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H5]
    · iexists _; isplitr
      swap; · iexact H5
      ipureintro
      sl_unfold_words
      simp only [o4, r4, n5, n6, n7, m0, l0, p0, if_neg hc0, if_pos hc1, if_neg hc2]
      first
        | exact harg5.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H6]
    · iexists _; isplitr
      swap; · iexact H6
      ipureintro
      sl_unfold_words
      simp only [o4, r4, n5, n6, n7, m0, l0, p0, if_neg hc0, if_pos hc1, if_neg hc2]
      first
        | exact harg6.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    · iexists _; isplitr
      swap; · iexact H7
      ipureintro
      sl_unfold_words
      simp only [o4, r4, n5, n6, n7, m0, l0, p0, if_neg hc0, if_pos hc1, if_neg hc2]
      first
        | exact harg7.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])

end Cert.Kernel.Hand

end
-- ==== Proof.KR1CaseFTT.lean ====
/-
  One combination of the three conditions of the second region's body, run through from the first load to the
  last store.
-/
import proofs.«129541_j23081154249195_1_alg».proof.Proof.KRegion1b

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body's triple when the first-column-tile, partner-tile and last-column-tile conditions are false, true, true. -/
theorem sound_kernel1_FTT (c : Dev nD) (E : Set ℕ) (i : grid1.Coords)
    (arg2 : Memref sig .tc .vmem S512x128 .bf16) (harg2 : arg2.IsWhole) (arg3 : Memref sig .tc .vmem S512x128 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : ¬cond1_0 i) (hc1 : cond1_1 i) (hc2 : cond1_2 i)
    (x0 x1 : Vec F S512x128 .bf16) (d4 s5 s6 s7 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1
            ∗ owns (c : Thread nD τ) arg4 fullShare (o4 i x0 x1 d4 s5 s6 s7)
            ∗ owns (c : Thread nD τ) arg5 fullShare (n5 i x0 x1 s5) ∗ owns (c : Thread nD τ) arg6 fullShare (n6 i x0 x1 s5 s6)
            ∗ owns (c : Thread nD τ) arg7 fullShare (n7 i x0 x1 s7)) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf4
  obtain rfl := harg5.eq_unread hf5; obtain rfl := harg6.eq_unread hf6; obtain rfl := harg7.eq_unread hf7
  all_goals
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr
      swap; · iexact H4
      ipureintro
      sl_unfold_words
      simp only [o4, r4, n5, n6, n7, m0, l0, p0, if_neg hc0, if_pos hc1, if_pos hc2]
      first
        | exact harg4.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H5]
    · iexists _; isplitr
      swap; · iexact H5
      ipureintro
      sl_unfold_words
      simp only [o4, r4, n5, n6, n7, m0, l0, p0, if_neg hc0, if_pos hc1, if_pos hc2]
      first
        | exact harg5.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H6]
    · iexists _; isplitr
      swap; · iexact H6
      ipureintro
      sl_unfold_words
      simp only [o4, r4, n5, n6, n7, m0, l0, p0, if_neg hc0, if_pos hc1, if_pos hc2]
      first
        | exact harg6.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    · iexists _; isplitr
      swap; · iexact H7
      ipureintro
      sl_unfold_words
      simp only [o4, r4, n5, n6, n7, m0, l0, p0, if_neg hc0, if_pos hc1, if_pos hc2]
      first
        | exact harg7.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])

end Cert.Kernel.Hand

end
-- ==== Proof.KR1CaseTFF.lean ====
/-
  One combination of the three conditions of the second region's body, run through from the first load to the
  last store.
-/
import proofs.«129541_j23081154249195_1_alg».proof.Proof.KRegion1b

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body's triple when the first-column-tile, partner-tile and last-column-tile conditions are true, false, false. -/
theorem sound_kernel1_TFF (c : Dev nD) (E : Set ℕ) (i : grid1.Coords)
    (arg2 : Memref sig .tc .vmem S512x128 .bf16) (harg2 : arg2.IsWhole) (arg3 : Memref sig .tc .vmem S512x128 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : cond1_0 i) (hc1 : ¬cond1_1 i) (hc2 : ¬cond1_2 i)
    (x0 x1 : Vec F S512x128 .bf16) (d4 s5 s6 s7 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1
            ∗ owns (c : Thread nD τ) arg4 fullShare (o4 i x0 x1 d4 s5 s6 s7)
            ∗ owns (c : Thread nD τ) arg5 fullShare (n5 i x0 x1 s5) ∗ owns (c : Thread nD τ) arg6 fullShare (n6 i x0 x1 s5 s6)
            ∗ owns (c : Thread nD τ) arg7 fullShare (n7 i x0 x1 s7)) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf4
  obtain rfl := harg5.eq_unread hf5; obtain rfl := harg6.eq_unread hf6; obtain rfl := harg7.eq_unread hf7
  all_goals
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr
      swap; · iexact H4
      ipureintro
      sl_unfold_words
      simp only [o4, r4, n5, n6, n7, m0, l0, p0, if_pos hc0, if_neg hc1, if_neg hc2]
      first
        | exact harg4.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H5]
    · iexists _; isplitr
      swap; · iexact H5
      ipureintro
      sl_unfold_words
      simp only [o4, r4, n5, n6, n7, m0, l0, p0, if_pos hc0, if_neg hc1, if_neg hc2]
      first
        | exact harg5.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H6]
    · iexists _; isplitr
      swap; · iexact H6
      ipureintro
      sl_unfold_words
      simp only [o4, r4, n5, n6, n7, m0, l0, p0, if_pos hc0, if_neg hc1, if_neg hc2]
      first
        | exact harg6.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    · iexists _; isplitr
      swap; · iexact H7
      ipureintro
      sl_unfold_words
      simp only [o4, r4, n5, n6, n7, m0, l0, p0, if_pos hc0, if_neg hc1, if_neg hc2]
      first
        | exact harg7.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])

end Cert.Kernel.Hand

end
-- ==== Proof.KR1CaseTFT.lean ====
/-
  One combination of the three conditions of the second region's body, run through from the first load to the
  last store.
-/
import proofs.«129541_j23081154249195_1_alg».proof.Proof.KRegion1b

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body's triple when the first-column-tile, partner-tile and last-column-tile conditions are true, false, true. -/
theorem sound_kernel1_TFT (c : Dev nD) (E : Set ℕ) (i : grid1.Coords)
    (arg2 : Memref sig .tc .vmem S512x128 .bf16) (harg2 : arg2.IsWhole) (arg3 : Memref sig .tc .vmem S512x128 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : cond1_0 i) (hc1 : ¬cond1_1 i) (hc2 : cond1_2 i)
    (x0 x1 : Vec F S512x128 .bf16) (d4 s5 s6 s7 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1
            ∗ owns (c : Thread nD τ) arg4 fullShare (o4 i x0 x1 d4 s5 s6 s7)
            ∗ owns (c : Thread nD τ) arg5 fullShare (n5 i x0 x1 s5) ∗ owns (c : Thread nD τ) arg6 fullShare (n6 i x0 x1 s5 s6)
            ∗ owns (c : Thread nD τ) arg7 fullShare (n7 i x0 x1 s7)) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf4
  obtain rfl := harg5.eq_unread hf5; obtain rfl := harg6.eq_unread hf6; obtain rfl := harg7.eq_unread hf7
  all_goals
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr
      swap; · iexact H4
      ipureintro
      sl_unfold_words
      simp only [o4, r4, n5, n6, n7, m0, l0, p0, if_pos hc0, if_neg hc1, if_pos hc2]
      first
        | exact harg4.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H5]
    · iexists _; isplitr
      swap; · iexact H5
      ipureintro
      sl_unfold_words
      simp only [o4, r4, n5, n6, n7, m0, l0, p0, if_pos hc0, if_neg hc1, if_pos hc2]
      first
        | exact harg5.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H6]
    · iexists _; isplitr
      swap; · iexact H6
      ipureintro
      sl_unfold_words
      simp only [o4, r4, n5, n6, n7, m0, l0, p0, if_pos hc0, if_neg hc1, if_pos hc2]
      first
        | exact harg6.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    · iexists _; isplitr
      swap; · iexact H7
      ipureintro
      sl_unfold_words
      simp only [o4, r4, n5, n6, n7, m0, l0, p0, if_pos hc0, if_neg hc1, if_pos hc2]
      first
        | exact harg7.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])

end Cert.Kernel.Hand

end
-- ==== Proof.KR1CaseTTF.lean ====
/-
  One combination of the three conditions of the second region's body, run through from the first load to the
  last store.
-/
import proofs.«129541_j23081154249195_1_alg».proof.Proof.KRegion1b

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body's triple when the first-column-tile, partner-tile and last-column-tile conditions are true, true, false. -/
theorem sound_kernel1_TTF (c : Dev nD) (E : Set ℕ) (i : grid1.Coords)
    (arg2 : Memref sig .tc .vmem S512x128 .bf16) (harg2 : arg2.IsWhole) (arg3 : Memref sig .tc .vmem S512x128 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : cond1_0 i) (hc1 : cond1_1 i) (hc2 : ¬cond1_2 i)
    (x0 x1 : Vec F S512x128 .bf16) (d4 s5 s6 s7 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1
            ∗ owns (c : Thread nD τ) arg4 fullShare (o4 i x0 x1 d4 s5 s6 s7)
            ∗ owns (c : Thread nD τ) arg5 fullShare (n5 i x0 x1 s5) ∗ owns (c : Thread nD τ) arg6 fullShare (n6 i x0 x1 s5 s6)
            ∗ owns (c : Thread nD τ) arg7 fullShare (n7 i x0 x1 s7)) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf4
  obtain rfl := harg5.eq_unread hf5; obtain rfl := harg6.eq_unread hf6; obtain rfl := harg7.eq_unread hf7
  all_goals
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr
      swap; · iexact H4
      ipureintro
      sl_unfold_words
      simp only [o4, r4, n5, n6, n7, m0, l0, p0, if_pos hc0, if_pos hc1, if_neg hc2]
      first
        | exact harg4.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H5]
    · iexists _; isplitr
      swap; · iexact H5
      ipureintro
      sl_unfold_words
      simp only [o4, r4, n5, n6, n7, m0, l0, p0, if_pos hc0, if_pos hc1, if_neg hc2]
      first
        | exact harg5.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H6]
    · iexists _; isplitr
      swap; · iexact H6
      ipureintro
      sl_unfold_words
      simp only [o4, r4, n5, n6, n7, m0, l0, p0, if_pos hc0, if_pos hc1, if_neg hc2]
      first
        | exact harg6.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    · iexists _; isplitr
      swap; · iexact H7
      ipureintro
      sl_unfold_words
      simp only [o4, r4, n5, n6, n7, m0, l0, p0, if_pos hc0, if_pos hc1, if_neg hc2]
      first
        | exact harg7.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])

end Cert.Kernel.Hand

end
-- ==== Proof.KR1CaseTTT.lean ====
/-
  One combination of the three conditions of the second region's body, run through from the first load to the
  last store.
-/
import proofs.«129541_j23081154249195_1_alg».proof.Proof.KRegion1b

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body's triple when the first-column-tile, partner-tile and last-column-tile conditions are true, true, true. -/
theorem sound_kernel1_TTT (c : Dev nD) (E : Set ℕ) (i : grid1.Coords)
    (arg2 : Memref sig .tc .vmem S512x128 .bf16) (harg2 : arg2.IsWhole) (arg3 : Memref sig .tc .vmem S512x128 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : cond1_0 i) (hc1 : cond1_1 i) (hc2 : cond1_2 i)
    (x0 x1 : Vec F S512x128 .bf16) (d4 s5 s6 s7 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1
            ∗ owns (c : Thread nD τ) arg4 fullShare (o4 i x0 x1 d4 s5 s6 s7)
            ∗ owns (c : Thread nD τ) arg5 fullShare (n5 i x0 x1 s5) ∗ owns (c : Thread nD τ) arg6 fullShare (n6 i x0 x1 s5 s6)
            ∗ owns (c : Thread nD τ) arg7 fullShare (n7 i x0 x1 s7)) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf4
  obtain rfl := harg5.eq_unread hf5; obtain rfl := harg6.eq_unread hf6; obtain rfl := harg7.eq_unread hf7
  all_goals
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr
      swap; · iexact H4
      ipureintro
      sl_unfold_words
      simp only [o4, r4, n5, n6, n7, m0, l0, p0, if_pos hc0, if_pos hc1, if_pos hc2]
      first
        | exact harg4.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H5]
    · iexists _; isplitr
      swap; · iexact H5
      ipureintro
      sl_unfold_words
      simp only [o4, r4, n5, n6, n7, m0, l0, p0, if_pos hc0, if_pos hc1, if_pos hc2]
      first
        | exact harg5.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H6]
    · iexists _; isplitr
      swap; · iexact H6
      ipureintro
      sl_unfold_words
      simp only [o4, r4, n5, n6, n7, m0, l0, p0, if_pos hc0, if_pos hc1, if_pos hc2]
      first
        | exact harg6.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    · iexists _; isplitr
      swap; · iexact H7
      ipureintro
      sl_unfold_words
      simp only [o4, r4, n5, n6, n7, m0, l0, p0, if_pos hc0, if_pos hc1, if_pos hc2]
      first
        | exact harg7.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])

end Cert.Kernel.Hand

end
-- ==== Proof.KRegion1bb.lean ====
/-
  The body's triple of the second region in every combination of its three conditions, from the eight runs.
-/
import proofs.«129541_j23081154249195_1_alg».proof.Proof.KR1CaseFFF
import proofs.«129541_j23081154249195_1_alg».proof.Proof.KR1CaseFFT
import proofs.«129541_j23081154249195_1_alg».proof.Proof.KR1CaseFTF
import proofs.«129541_j23081154249195_1_alg».proof.Proof.KR1CaseFTT
import proofs.«129541_j23081154249195_1_alg».proof.Proof.KR1CaseTFF
import proofs.«129541_j23081154249195_1_alg».proof.Proof.KR1CaseTFT
import proofs.«129541_j23081154249195_1_alg».proof.Proof.KR1CaseTTF
import proofs.«129541_j23081154249195_1_alg».proof.Proof.KR1CaseTTT

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's triple, whatever the three conditions. -/
theorem sound_kernel1 (c : Dev nD) (E : Set ℕ) (i : grid1.Coords)
    (arg2 : Memref sig .tc .vmem S512x128 .bf16) (harg2 : arg2.IsWhole) (arg3 : Memref sig .tc .vmem S512x128 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (x0 x1 : Vec F S512x128 .bf16) (d4 s5 s6 s7 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1
            ∗ owns (c : Thread nD τ) arg4 fullShare (o4 i x0 x1 d4 s5 s6 s7)
            ∗ owns (c : Thread nD τ) arg5 fullShare (n5 i x0 x1 s5) ∗ owns (c : Thread nD τ) arg6 fullShare (n6 i x0 x1 s5 s6)
            ∗ owns (c : Thread nD τ) arg7 fullShare (n7 i x0 x1 s7)) -∗ K ⟨⟩))
      ⊢ wp frame (wpE (defs₀ (F := F)) Variants.none c none) E (cc1__flash_kernel i arg2 harg2 arg3 harg3 arg4 harg4 arg5 harg5 arg6 harg6 arg7 harg7) K := by
  by_cases hc0 : cond1_0 i <;> by_cases hc1 : cond1_1 i <;> by_cases hc2 : cond1_2 i
  · exact sound_kernel1_TTT c E i arg2 harg2 arg3 harg3 arg4 harg4 arg5 harg5 arg6 harg6 arg7 harg7 hc0 hc1 hc2 x0 x1 d4 s5 s6 s7 K
  · exact sound_kernel1_TTF c E i arg2 harg2 arg3 harg3 arg4 harg4 arg5 harg5 arg6 harg6 arg7 harg7 hc0 hc1 hc2 x0 x1 d4 s5 s6 s7 K
  · exact sound_kernel1_TFT c E i arg2 harg2 arg3 harg3 arg4 harg4 arg5 harg5 arg6 harg6 arg7 harg7 hc0 hc1 hc2 x0 x1 d4 s5 s6 s7 K
  · exact sound_kernel1_TFF c E i arg2 harg2 arg3 harg3 arg4 harg4 arg5 harg5 arg6 harg6 arg7 harg7 hc0 hc1 hc2 x0 x1 d4 s5 s6 s7 K
  · exact sound_kernel1_FTT c E i arg2 harg2 arg3 harg3 arg4 harg4 arg5 harg5 arg6 harg6 arg7 harg7 hc0 hc1 hc2 x0 x1 d4 s5 s6 s7 K
  · exact sound_kernel1_FTF c E i arg2 harg2 arg3 harg3 arg4 harg4 arg5 harg5 arg6 harg6 arg7 harg7 hc0 hc1 hc2 x0 x1 d4 s5 s6 s7 K
  · exact sound_kernel1_FFT c E i arg2 harg2 arg3 harg3 arg4 harg4 arg5 harg5 arg6 harg6 arg7 harg7 hc0 hc1 hc2 x0 x1 d4 s5 s6 s7 K
  · exact sound_kernel1_FFF c E i arg2 harg2 arg3 harg3 arg4 harg4 arg5 harg5 arg6 harg6 arg7 harg7 hc0 hc1 hc2 x0 x1 d4 s5 s6 s7 K

end Cert.Kernel.Hand

end
-- ==== Proof.KRegion1c.lean ====
/-
  The second kernel region, third part: the running statistics point by point, the region's invariant, the proof
  data of the pipeline and the body obligation.  After point `n` the three scratch buffers hold the statistics of
  the column tiles read so far in the current row tile (`stAt`); the output buffer is written in the last column
  tile only and is idle elsewhere; the two input windows read the same array.
-/
import proofs.«129541_j23081154249195_1_alg».proof.Proof.KRegion1bb

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- In the first column tile the statistics do not depend on what the scratch buffers held. -/
theorem n5_reset (i : grid1.Coords) (h : cond1_0 i) (x0 x1 : Vec F S512x128 .bf16) (s s' : Vec F S512x1 .f32) : n5 i x0 x1 s = n5 i x0 x1 s' := by
  simp only [n5, m0, if_pos h]
theorem n6_reset (i : grid1.Coords) (h : cond1_0 i) (x0 x1 : Vec F S512x128 .bf16) (s s' u u' : Vec F S512x1 .f32) : n6 i x0 x1 s u = n6 i x0 x1 s' u' := by
  simp only [n6, m0, l0, if_pos h]
theorem n7_reset (i : grid1.Coords) (h : cond1_0 i) (x0 x1 : Vec F S512x128 .bf16) (s s' : Vec F S512x1 .f32) : n7 i x0 x1 s = n7 i x0 x1 s' := by
  simp only [n7, p0, if_pos h]

/-- The statistics (maximum, sum, partner scores) in the scratch buffers after position `n`. -/
def stAt (c : Dev nD) : (n : ℕ) → n < cfg1.N → Vec F S512x1 .f32 × Vec F S512x1 .f32 × Vec F S512x1 .f32
  | 0, hn => (n5 (grid1.coords ⟨0, hn⟩) (iblk1 V c 0 ⟨0, hn⟩) (iblk1 V c 1 ⟨0, hn⟩) (k1_pay5 (F := F)),
      n6 (grid1.coords ⟨0, hn⟩) (iblk1 V c 0 ⟨0, hn⟩) (iblk1 V c 1 ⟨0, hn⟩) (k1_pay5 (F := F)) (k1_pay6 (F := F)),
      n7 (grid1.coords ⟨0, hn⟩) (iblk1 V c 0 ⟨0, hn⟩) (iblk1 V c 1 ⟨0, hn⟩) (k1_pay7 (F := F)))
  | n + 1, hn =>
    (n5 (grid1.coords ⟨n + 1, hn⟩) (iblk1 V c 0 ⟨n + 1, hn⟩) (iblk1 V c 1 ⟨n + 1, hn⟩) (stAt c n (Nat.lt_of_succ_lt hn)).1,
      n6 (grid1.coords ⟨n + 1, hn⟩) (iblk1 V c 0 ⟨n + 1, hn⟩) (iblk1 V c 1 ⟨n + 1, hn⟩) (stAt c n (Nat.lt_of_succ_lt hn)).1 (stAt c n (Nat.lt_of_succ_lt hn)).2.1,
      n7 (grid1.coords ⟨n + 1, hn⟩) (iblk1 V c 0 ⟨n + 1, hn⟩) (iblk1 V c 1 ⟨n + 1, hn⟩) (stAt c n (Nat.lt_of_succ_lt hn)).2.2)

theorem stAt_zero (c : Dev nD) (t : Fin cfg1.N) (hz : t.val = 0) :
    stAt V c t.val t.isLt = (n5 (grid1.coords t) (iblk1 V c 0 t) (iblk1 V c 1 t) (k1_pay5 (F := F)),
      n6 (grid1.coords t) (iblk1 V c 0 t) (iblk1 V c 1 t) (k1_pay5 (F := F)) (k1_pay6 (F := F)),
      n7 (grid1.coords t) (iblk1 V c 0 t) (iblk1 V c 1 t) (k1_pay7 (F := F))) := by
  obtain ⟨n, hn⟩ := t
  cases n with
  | zero => rfl
  | succ n => exact absurd hz (Nat.succ_ne_zero n)

theorem stAt_pos (c : Dev nD) (t : Fin cfg1.N) (hz : t.val ≠ 0) :
    stAt V c t.val t.isLt = (n5 (grid1.coords t) (iblk1 V c 0 t) (iblk1 V c 1 t) (stAt V c (t.val - 1) (Nat.lt_of_le_of_lt (Nat.sub_le _ _) t.isLt)).1,
      n6 (grid1.coords t) (iblk1 V c 0 t) (iblk1 V c 1 t) (stAt V c (t.val - 1) (Nat.lt_of_le_of_lt (Nat.sub_le _ _) t.isLt)).1 (stAt V c (t.val - 1) (Nat.lt_of_le_of_lt (Nat.sub_le _ _) t.isLt)).2.1,
      n7 (grid1.coords t) (iblk1 V c 0 t) (iblk1 V c 1 t) (stAt V c (t.val - 1) (Nat.lt_of_le_of_lt (Nat.sub_le _ _) t.isLt)).2.2) := by
  obtain ⟨n, hn⟩ := t
  cases n with
  | zero => exact absurd rfl hz
  | succ n => rfl

/-- The region's invariant before position `n`: before the first point every scoped buffer the region does not
    stage at anything; afterwards the three scratch buffers at the statistics the point before left. -/
def PhiS (c : Dev nD) : (n : ℕ) → n ≤ cfg1.N → sProp 𝕄
  | 0, _ => Pipeline.ΦA spec1 c
  | n + 1, hn => iprop(iprop((∃ d, owns (c : Thread nD τ) (Memref.whole cc0_stg0_0 : Memref sig .tc .vmem S2048x128 .f32) fullShare d)
          ∗ (∃ d, owns (c : Thread nD τ) (Memref.whole cc0_stg0_1 : Memref sig .tc .vmem S2048x128 .f32) fullShare d)
          ∗ (∃ d, owns (c : Thread nD τ) (Memref.whole cc0_stg1_0 : Memref sig .tc .vmem S2048x128 .bf16) fullShare d)
          ∗ (∃ d, owns (c : Thread nD τ) (Memref.whole cc0_stg1_1 : Memref sig .tc .vmem S2048x128 .bf16) fullShare d)
          ∗ owns (c : Thread nD τ) scM1_0 fullShare (stAt V c n hn).1 ∗ owns (c : Thread nD τ) scM1_1 fullShare (stAt V c n hn).2.1
          ∗ owns (c : Thread nD τ) scM1_2 fullShare (stAt V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ d, owns (c : Thread nD τ) (Memref.whole cc0_stg0_0 : Memref sig .tc .vmem S2048x128 .f32) fullShare d)
          ∗ (∃ d, owns (c : Thread nD τ) (Memref.whole cc0_stg0_1 : Memref sig .tc .vmem S2048x128 .f32) fullShare d)
          ∗ (∃ d, owns (c : Thread nD τ) (Memref.whole cc0_stg1_0 : Memref sig .tc .vmem S2048x128 .bf16) fullShare d)
          ∗ (∃ d, owns (c : Thread nD τ) (Memref.whole cc0_stg1_1 : Memref sig .tc .vmem S2048x128 .bf16) fullShare d)
          ∗ owns (c : Thread nD τ) scM1_0 fullShare (stAt V c n hn).1 ∗ owns (c : Thread nD τ) scM1_1 fullShare (stAt V c n hn).2.1
          ∗ owns (c : Thread nD τ) scM1_2 fullShare (stAt V c n hn).2.2) ∗ (∃ r, prngReg c r)) := rfl

theorem PhiS_pos (c : Dev nD) (n : ℕ) (h : n ≤ cfg1.N) (hz : n ≠ 0) :
    PhiS V c n h = iprop(iprop((∃ d, owns (c : Thread nD τ) (Memref.whole cc0_stg0_0 : Memref sig .tc .vmem S2048x128 .f32) fullShare d)
          ∗ (∃ d, owns (c : Thread nD τ) (Memref.whole cc0_stg0_1 : Memref sig .tc .vmem S2048x128 .f32) fullShare d)
          ∗ (∃ d, owns (c : Thread nD τ) (Memref.whole cc0_stg1_0 : Memref sig .tc .vmem S2048x128 .bf16) fullShare d)
          ∗ (∃ d, owns (c : Thread nD τ) (Memref.whole cc0_stg1_1 : Memref sig .tc .vmem S2048x128 .bf16) fullShare d)
          ∗ owns (c : Thread nD τ) scM1_0 fullShare (stAt V c (n - 1) (by omega)).1 ∗ owns (c : Thread nD τ) scM1_1 fullShare (stAt V c (n - 1) (by omega)).2.1
          ∗ owns (c : Thread nD τ) scM1_2 fullShare (stAt V c (n - 1) (by omega)).2.2) ∗ (∃ r, prngReg c r)) := by
  cases n with
  | zero => exact absurd rfl hz
  | succ n => rfl

/-- The proof data of the second pipeline at entry contents `V`: the row and column windows read one array, each at
    half of it; the output window holds partner score − (maximum + log sum) of the statistics after the point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay4 (stAt V c t.val t.isLt).1 (stAt V c t.val t.isLt).2.1 (stAt V c t.val t.isLt).2.2
  Φ t := PhiS V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay4 (stAt V c t.val t.isLt).1 (stAt V c t.val t.isLt).2.1 (stAt V c t.val t.isLt).2.2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 256 := lt_of_lt_of_eq t.isLt (show cfg1.N = 256 from N_1)
  by_cases h2 : cond1_2 (grid1.coords t)
  · have hz : t.val ≠ 0 := by have := (hcond1_2 t).mp h2; omega
    rw [show (dat1 V c).leavesExact 2 t = owns (c : Thread nD τ) (ms1_2 t) fullShare ((dat1 V c).after 2 t) from by
      unfold Dat.leavesExact; rw [liveAt1_2 t h2], after1_2]
    rw [stAt_pos V c t hz, PhiS_castSucc V c t, PhiS_pos V c _ _ hz]
    iintro ⟨⟨⟨HA, HB, HC, HD, HS0, HS1, HS2⟩, Hg⟩, Ho, ⟨%d0, H0⟩, ⟨%d1, H1⟩, ⟨%d2, H2⟩⟩
    iapply (sound_kernel1 c Set.univ (grid1.coords t) _ _ _ _ _ _ _ _ _ _ _ _ (iblk1 V c 0 t) (iblk1 V c 1 t) _ _ _ _ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    simp only [o4, if_pos h2, r4]
    isplitl [HA HB HC HD HS0 HS1 HS2 Hg]
    · isplitr [Hg]
      · isplitl [HA]; · iexact HA
        isplitl [HB]; · iexact HB
        isplitl [HC]; · iexact HC
        isplitl [HD]; · iexact HD
        isplitl [HS0]; · iexact HS0
        isplitl [HS1]; · iexact HS1
        iexact HS2
      iexact Hg
    isplitl [Ho]; · iexact Ho
    isplitl [H0]; · iexact H0
    isplitl [H1]; · iexact H1
    iexact H2
  · rw [Dat.leavesExact_idle (dat1 V c) 2 t (idleAt1_2 t h2) (noFlush1_2 t h2)]
    by_cases hz : t.val = 0
    · have h0 : cond1_0 (grid1.coords t) := (hcond1_0 t).mpr (by omega)
      rw [stAt_zero V c t hz, PhiS_castSucc V c t, PhiS_zero V c _ _ hz, PhiA1_eq]
      iintro ⟨⟨⟨HA, HB, HC, HD, ⟨%e0, HS0⟩, ⟨%e1, HS1⟩, ⟨%e2, HS2⟩⟩, Hg⟩, Ho, ⟨%d0, H0⟩, ⟨%d1, H1⟩, ⟨%d2, H2⟩⟩
      iapply (sound_kernel1 c Set.univ (grid1.coords t) _ _ _ _ _ _ _ _ _ _ _ _ (iblk1 V c 0 t) (iblk1 V c 1 t) _ _ _ _ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      simp only [o4, if_neg h2]
      rw [n5_reset _ h0 _ _ e0 (k1_pay5 (F := F)), n6_reset _ h0 _ _ e0 (k1_pay5 (F := F)) e1 (k1_pay6 (F := F)), n7_reset _ h0 _ _ e2 (k1_pay7 (F := F))]
      isplitl [HA HB HC HD HS0 HS1 HS2 Hg]
      · isplitr [Hg]
        · isplitl [HA]; · iexact HA
          isplitl [HB]; · iexact HB
          isplitl [HC]; · iexact HC
          isplitl [HD]; · iexact HD
          isplitl [HS0]; · iexact HS0
          isplitl [HS1]; · iexact HS1
          iexact HS2
        iexact Hg
      isplitl [Ho]; · iexact Ho
      isplitl [H0]; · iexact H0
      isplitl [H1]; · iexact H1
      iexists _; iexact H2
    · rw [stAt_pos V c t hz, PhiS_castSucc V c t, PhiS_pos V c _ _ hz]
      iintro ⟨⟨⟨HA, HB, HC, HD, HS0, HS1, HS2⟩, Hg⟩, Ho, ⟨%d0, H0⟩, ⟨%d1, H1⟩, ⟨%d2, H2⟩⟩
      iapply (sound_kernel1 c Set.univ (grid1.coords t) _ _ _ _ _ _ _ _ _ _ _ _ (iblk1 V c 0 t) (iblk1 V c 1 t) _ _ _ _ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      simp only [o4, if_neg h2]
      isplitl [HA HB HC HD HS0 HS1 HS2 Hg]
      · isplitr [Hg]
        · isplitl [HA]; · iexact HA
          isplitl [HB]; · iexact HB
          isplitl [HC]; · iexact HC
          isplitl [HD]; · iexact HD
          isplitl [HS0]; · iexact HS0
          isplitl [HS1]; · iexact HS1
          iexact HS2
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives back the scoped buffers, their contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_eq]
  iintro ⟨⟨HA, HB, HC, HD, HS0, HS1, HS2⟩, Hg⟩
  isplitr [Hg]
  · isplitl [HA]; · iexact HA
    isplitl [HB]; · iexact HB
    isplitl [HC]; · iexact HC
    isplitl [HD]; · iexact HD
    isplitl [HS0]; · iexists _; iexact HS0
    isplitl [HS1]; · iexists _; iexact HS1
    iexists _; iexact HS2
  iexact Hg

end Region1

end Cert.Kernel.Hand

end
-- ==== Proof.KFrame.lean ====
/-
  The whole program as four segments — the host's concatenation, the first kernel region, the second kernel
  region, the host's mean and negation — with the contents of every unscoped buffer named at each boundary:
  `W0` at launch, `W1` after the concatenation, `W2` with the first region's output array at what its
  write-backs leave, `W3` with the second region's output array likewise, `W4` after the host's last lines.
  The second region reads ONE array through two windows: on entry that array's buffer is split into two halves,
  one per window, and joined again on exit (an input window never writes its array).  The run ends with every
  unscoped buffer at `W4`; the arguments are read back through the boundaries to their launch contents.
-/
import proofs.«129541_j23081154249195_1_alg».proof.Proof.KRegion0
import proofs.«129541_j23081154249195_1_alg».proof.Proof.KRegion1c

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region: its output array at what the write-backs leave, everything else as entered. -/
def W3 (c : Dev nD) : Valuation τ sig (Elt F) :=
  Function.update (W2 m ρ c) (Proc.devRef .tc main_v2) ((dat1 (V2 m ρ) c).arrAt 2 cfg1.N)
abbrev V3 : (c : Dev nD) → (b : Ref sig .tc) → Buf (Elt F) ((c : Thread nD τ).loc b) := fun c b => W3 m ρ c b
theorem W3_main_v2 (c : Dev nD) : W3 m ρ c (Proc.devRef .tc main_v2) = (dat1 (V2 m ρ) c).arrAt 2 cfg1.N := by
  unfold W3; exact Function.update_self ..
theorem W3_of_ne (c : Dev nD) (b : Ref sig .tc) (hb : b ≠ main_v2) : W3 m ρ c (Proc.devRef .tc b) = W2 m ρ c (Proc.devRef .tc b) := by
  unfold W3; exact Function.update_of_ne (StableHlo.devRef_ne_of_ne hb) ..
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The first region as a segment -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment: one array behind two windows -/

/-- The unscoped buffers are the second region's two arrays and the rest. -/
theorem ub_split1 (c : Dev nD) (V : (b : Ref sig .tc) → Buf (Elt F) ((c : Thread nD τ).loc b)) :
    (unscopedBufs (Ix := Unit) (Name := ℕ) (U := UR sig nD τ) (Lvl := ℕ) c V : sProp 𝕄)
      = iprop(iprop((((c : Thread nD τ).loc main_v1) ↦{fullShare} V main_v1) ∗ (((c : Thread nD τ).loc main_v2) ↦{fullShare} V main_v2))
          ∗ Pipeline.unscopedRest (Ix := Unit) (Name := ℕ) (U := UR sig nD τ) (Lvl := ℕ) spec1 c V) := by
  classical
  have hA : Finset.univ.image (Pipeline.arrRef spec1) ⊆ Finset.univ.filter fun b : Ref sig .tc => ¬ b.isScoped := by decide
  unfold unscopedBufs Pipeline.unscopedRest
  rw [bigSep_sdiff_split hA, bigSep_eq_bigSepL_of_eq [main_v1, main_v2] (by decide) (by decide)]
  rfl

/-- The second region's arrays at contents `Fw`: the shared input array at its two halves, the output array whole. -/
theorem arrays1_eq (c : Dev nD) (Fw : (w : Fin cfg1.W) → Buf (Elt F) ((cfg1.win w).arr.view.loc (c : Thread nD τ))) :
    ((pdats m ρ 1 c).arrays Fw : sProp 𝕄)
      = iprop((((c : Thread nD τ).loc main_v1) ↦{fullShare.left} Fw 0) ∗ (((c : Thread nD τ).loc main_v1) ↦{fullShare.right} Fw 1)
          ∗ (((c : Thread nD τ).loc main_v2) ↦{fullShare} Fw 2)) := by
  have harr : ∀ w, ((Pipeline.pin (pcfgs (F := F)) adm 1).win w).arr.IsWhole := arr_whole1
  have h : ((pdats m ρ 1 c).arrays Fw : sProp 𝕄)
      = bigSep Finset.univ fun w : Fin (Pipeline.pin (pcfgs (F := F)) adm 1).W =>
          (((Pipeline.pin (pcfgs (F := F)) adm 1).win w).arr.view.loc (c : Thread nD τ) ↦[Finset.univ]{(pdats m ρ 1 c).share w} Fw w : sProp 𝕄) := by
    unfold Dat.arrays
    exact bigSep_congr fun w _ => by rw [(harr w).set_eq_univ]
  rw [h, bigSep_W1]
  rfl

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (StableHlo.held (c : Thread nD τ) (Pipeline.ucRefs τ sig) (W2 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (V2 m ρ c)) := by
      rw [← Pipeline.unscopedBufs_held c (W2 m ρ c), ub_split1 c (V2 m ρ c), arrays1_eq]
      iintro ⟨⟨H1, H2⟩, Hrest⟩
      ihave Hs := (pointsTo_share (PosShare.mem_left_op_right fullShare)).1 $$ H1
      icases Hs with ⟨Hl, Hr⟩
      isplitr [Hrest]
      · isplitl [Hl]; · iexact Hl
        isplitl [Hr]; · iexact Hr
        iexact H2
      iexact Hrest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V2 m ρ c))
        ⊢ (StableHlo.held (c : Thread nD τ) (Pipeline.ucRefs τ sig) (W3 m ρ c) : sProp 𝕄) := by
      rw [← Pipeline.unscopedBufs_held c (W3 m ρ c), ub_split1 c (V3 m ρ c), arrays1_eq]
      rw [show (pdats m ρ 1 c).arrAt 0 cfg1.N = V2 m ρ c main_v1 from ((dat1 (V2 m ρ) c).arrAt_in 0 rfl _).trans (A_eq1 (V2 m ρ) c 0),
        show (pdats m ρ 1 c).arrAt 1 cfg1.N = V2 m ρ c main_v1 from ((dat1 (V2 m ρ) c).arrAt_in 1 rfl _).trans (A_eq1 (V2 m ρ) c 1)]
      rw [show V3 m ρ c main_v1 = V2 m ρ c main_v1 from W3_of_ne m ρ c main_v1 (by decide),
        show V3 m ρ c main_v2 = (pdats m ρ 1 c).arrAt 2 cfg1.N from W3_main_v2 m ρ c]
      have hrest : (Pipeline.unscopedRest (Ix := Unit) (Name := ℕ) (U := UR sig nD τ) (Lvl := ℕ) spec1 c (V3 m ρ c) : sProp 𝕄)
          = Pipeline.unscopedRest (Ix := Unit) (Name := ℕ) (U := UR sig nD τ) (Lvl := ℕ) spec1 c (V2 m ρ c) := by
        unfold Pipeline.unscopedRest
        exact bigSep_congr fun b hb => by
          rw [show V3 m ρ c b = V2 m ρ c b from W3_of_ne m ρ c b fun e =>
            (Finset.mem_sdiff.mp hb).2 (Finset.mem_image.mpr ⟨2, Finset.mem_univ _, e.symm ▸ rfl⟩)]
      rw [hrest]
      iintro ⟨⟨Hl, Hr, H2⟩, Hrest⟩
      isplitr [Hrest]
      · isplitl [Hl Hr]
        · iapply (pointsTo_share (PosShare.mem_left_op_right fullShare)).2
          isplitl [Hl] <;> iassumption
        iexact H2
      iexact Hrest
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: every weakly fair execution of @main terminates, nothing faulting, with every unscoped buffer of every
    core at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      (show iprop(StableHlo.held (c : Thread nD τ) (Pipeline.ucRefs τ sig) (W4 m ρ c) ∗ R c)
          ⊢ iprop(Tₙ m ρ c ∗ ∃ W, owes (c : Thread nD τ) (0 : CellTallies nD τ sig Unit) W) from by
        iintro ⟨Hh, ⟨Hp, HO⟩⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_arg (c : Dev nD) (b : Ref sig .tc) (h2 : b ∉ hostOps2_W) (hv2 : b ≠ main_v2) (h0 : ∀ w, Pipeline.arrRef spec0 w ≠ b) (h1 : b ∉ hostOps0_W) :
    W4 m ρ c (Proc.devRef .tc b) = m ((c : Thread nD τ).loc b) :=
  calc W4 m ρ c (Proc.devRef .tc b)
    _ = W3 m ρ c (Proc.devRef .tc b) := StableHlo.after_of_writes_sub hostOps2 _ hostOps2_writes h2
    _ = W2 m ρ c (Proc.devRef .tc b) := W3_of_ne m ρ c b hv2
    _ = W1 m ρ c (Proc.devRef .tc b) := W2_of_ne m ρ c b h0
    _ = W0 m ρ c (Proc.devRef .tc b) := StableHlo.after_of_writes_sub hostOps0 _ hostOps0_writes h1
    _ = m ((c : Thread nD τ).loc b) := rfl

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_arg m ρ c main_arg0 (by decide) (by decide) (by decide) (by decide)),
     (h c _ (mem_uc main_arg1 (by decide))).trans (W4_arg m ρ c main_arg1 (by decide) (by decide) (by decide) (by decide))⟩)
    (run_all m ρ)

end Cert.Kernel.Hand

end
-- ==== Proof.KiRegion0.lean ====
/-
  The first kernel region: every block of 2048 rows is loaded whole, each row divided by its floored Euclidean
  length, and the block stored whole.  Stated at the contents `V` the region finds in the arrays: the block a
  point reads, what the point leaves in the output's staging buffer (one store of the whole block), the body's
  triple, and the proof data of the pipeline (inputs stay, the output holds the stored block, nothing is owed).
-/
import proofs.«129541_j23081154249195_1_alg».proof.Proof.Gen.KernelIdeal.Launch
import proofs.«129541_j23081154249195_1_alg».proof.Proof.Gen.KernelIdeal.Skeleton
import proofs.«129541_j23081154249195_1_alg».proof.Proof.Gen.KernelIdeal.Points
import proofs.«129541_j23081154249195_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x128 := Rect.unit (s := S2048x128) ![0, 0] S2048x128.size inb_S2048x128_S2048x128_0_0

/-- The output's staging buffer after the body: its one store, of the whole block. -/
def out0_1 (x0 : Vec F S2048x128 .f32) : Vec F S2048x128 .bf16 :=
  View.canon [⟨r0_0, k0_pay1 (View.ld x0 r0_0)⟩]

theorem cover0_1 (p0 : Vec F S2048x128 .bf16) (y : S2048x128.Idx) :
    ∃ pc ∈ ([⟨r0_0, p0⟩] : List (View.Piece (Elt F) S2048x128 .bf16)), y ∈ pc.1.set :=
  View.cover_of_tiled [⟨r0_0, p0⟩] S2048x128.size (by rfl) y

set_option maxHeartbeats 1000000 in
/-- The body on whole staging buffers: the input kept, the output at `out0_1` of the input. -/
theorem sound_kernel0 (c : Dev nD) (E : Set ℕ) (i : grid0.Coords) (arg1 : Memref sig .tc .vmem S2048x128 .f32) (harg1 : arg1.IsWhole) (arg2 : Memref sig .tc .vmem S2048x128 .bf16) (harg2 : arg2.IsWhole)
    (x0 : Vec F S2048x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first pipeline at entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KiRegion1a.lean ====
/-
  The second kernel region, first part: what its statements are written over.  The grid is 16 × 16; point
  `t` is row tile `t / 16` and column tile `t % 16`.  Three conditions steer the body: the first column tile
  (the three running statistics are reset), the column tile that holds the row tile's partner columns (the
  partner scores are kept), and the last column tile (the result is written).  They are decided here over the
  256 points, together with where the output window is idle and the blocks the two input windows hold.
-/
import proofs.«129541_j23081154249195_1_alg».proof.Proof.Gen.KernelIdeal.Launch
import proofs.«129541_j23081154249195_1_alg».proof.Proof.Gen.KernelIdeal.Skeleton
import proofs.«129541_j23081154249195_1_alg».proof.Proof.Gen.KernelIdeal.Points
import proofs.«129541_j23081154249195_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row window's staging buffer holds its block at every point (refetched only when the row tile changes). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-- The first column tile. -/
abbrev cond1_0 (i : grid1.Coords) : Prop := (Scalar.cmpi .ne (Scalar.extui (Scalar.cmpi .eq (BitVec.ofNat 32 (i 1).val) 0#32)) 0#32) = 1#1
/-- The column tile of the partner columns. -/
abbrev cond1_1 (i : grid1.Coords) : Prop := (Scalar.cmpi .ne (Scalar.extui (Scalar.cmpi .eq (BitVec.ofNat 32 (i 1).val) (Scalar.select (Scalar.cmpi .slt (BitVec.ofNat 32 (i 0).val) 8#32) (Scalar.addi (BitVec.ofNat 32 (i 0).val) 8#32) (Scalar.subi (BitVec.ofNat 32 (i 0).val) 8#32)))) 0#32) = 1#1
/-- The last column tile. -/
abbrev cond1_2 (i : grid1.Coords) : Prop := k1_cond3 i = 1#1

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = (t.val / 16 + 8) % 16 :=
  (by decide +kernel : ∀ t : Fin grid1.N, cond1_1 (grid1.coords t) ↔ t.val % 16 = (t.val / 16 + 8) % 16)
theorem hcond1_2 : ∀ t : Fin cfg1.N, cond1_2 (grid1.coords t) ↔ t.val % 16 = 15 :=
  (by decide +kernel : ∀ t : Fin grid1.N, cond1_2 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_2 (grid1.coords t) → cfg1.idle 2 (grid1.coords t) = true := by decide +kernel
theorem noFlush1_2 : ∀ t : Fin cfg1.N, ¬cond1_2 (grid1.coords t) → (cfg1.win 2).flush t = false := by decide +kernel
theorem liveAt1_2 : ∀ t : Fin cfg1.N, cond1_2 (grid1.coords t) → cfg1.idle 2 (grid1.coords t) = false := by decide +kernel

/-- Each window's current staging memref at point `t`, and the three scratch buffers. -/
abbrev ms1_0 (t : Fin cfg1.N) : Memref sig .tc .vmem S512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev scM1_0 : Memref sig .tc .vmem S512x1 .f32 := Memref.whole cc1_scratch0
abbrev scM1_1 : Memref sig .tc .vmem S512x1 .f32 := Memref.whole cc1_scratch1
abbrev scM1_2 : Memref sig .tc .vmem S512x1 .f32 := Memref.whole cc1_scratch2

/-- The scoped buffers the region does not stage (the first region's staging buffers and the three scratch
    buffers), each owned at some contents, and the generator register: what the region's invariant starts from. -/
theorem PhiA1_eq (c : Dev nD) :
    (Pipeline.ΦA spec1 c : sProp 𝕄)
      = iprop(iprop((∃ d, owns (c : Thread nD τ) (Memref.whole cc0_stg0_0 : Memref sig .tc .vmem S2048x128 .f32) fullShare d)
          ∗ (∃ d, owns (c : Thread nD τ) (Memref.whole cc0_stg0_1 : Memref sig .tc .vmem S2048x128 .f32) fullShare d)
          ∗ (∃ d, owns (c : Thread nD τ) (Memref.whole cc0_stg1_0 : Memref sig .tc .vmem S2048x128 .bf16) fullShare d)
          ∗ (∃ d, owns (c : Thread nD τ) (Memref.whole cc0_stg1_1 : Memref sig .tc .vmem S2048x128 .bf16) fullShare d)
          ∗ (∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.KiRegion1b.lean ====
/-
  The second kernel region, second part: the body as one triple.  On whole staging buffers holding a row block
  `x0`, a column block `x1`, and any contents `d4` of the output buffer and `s5`, `s6`, `s7` of the three
  scratch buffers (running maximum, running sum, partner scores), the body leaves the two blocks as they were and

  * the running maximum at the larger of the old one (reset to −∞ in the first column tile) and the tile's row
    maximum (`n5`),
  * the running sum rescaled to the new maximum plus the tile's sum of exponentials (`n6`),
  * the partner scores at the tile's local diagonal in the partner's column tile, else as they were, reset to
    zero in the first column tile (`n7`),
  * the output at partner score − (maximum + log sum) in the last column tile, else untouched (`o4`).

  Every load and store moves a whole buffer, so each buffer's final contents are the payload of the last store into
  it, and each load reads the payload of the last store before it.
-/
import proofs.«129541_j23081154249195_1_alg».proof.Proof.KiRegion1a
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a whole-buffer access. -/
theorem hz2 : (![0, 0] : Fin 2 → Nat) = fun _ => 0 := by funext a; fin_cases a <;> rfl

/-- A whole-buffer load after stores the newest of which was a whole-buffer store reads that store's payload. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  have hcov : ∀ y, ∃ p ∈ ((⟨Rect.unit (fun _ => 0) S.size inb, w⟩ : View.Piece Val S e) :: L), y ∈ p.1.set :=
    fun y => ⟨⟨Rect.unit (fun _ => 0) S.size inb, w⟩, List.mem_cons_self, View.mem_set_unit_zero rfl inb y⟩
  rw [View.readCov_eq_canon_ld v _ _ hcov, View.canon_cons_unit_zero rfl, View.ld_unit_zero rfl]

/-- What stores the newest of which was a whole-buffer store leave: that store's payload. -/
theorem read_writes_cons_whole {Val : EltTy → Type} [∀ e, Nonempty (Val e)] {S : Shape} {e : EltTy} {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  have hcov : ∀ y, ∃ p ∈ ((⟨Rect.unit off S.size inb, w⟩ : View.Piece Val S e) :: L), y ∈ p.1.set :=
    fun y => ⟨⟨Rect.unit off S.size inb, w⟩, List.mem_cons_self, View.mem_set_unit_zero h inb y⟩
  rw [View.read_writes_eq_canon v f _ hcov, View.canon_cons_unit_zero h]

/-- The three statistics as the tile's arithmetic finds them: reset in the first column tile. -/
def m0 (i : grid1.Coords) (s5 : Vec F S512x1 .f32) : Vec F S512x1 .f32 := if cond1_0 i then k1_pay5 (F := F) else s5
def l0 (i : grid1.Coords) (s6 : Vec F S512x1 .f32) : Vec F S512x1 .f32 := if cond1_0 i then k1_pay6 (F := F) else s6
def p0 (i : grid1.Coords) (s7 : Vec F S512x1 .f32) : Vec F S512x1 .f32 := if cond1_0 i then k1_pay7 (F := F) else s7
/-- The partner scores, the running maximum, the running sum and the output after the body. -/
def n7 (i : grid1.Coords) (x0 x1 : Vec F S512x128 .bf16) (s7 : Vec F S512x1 .f32) : Vec F S512x1 .f32 :=
  if cond1_1 i then k1_pay9 i x0 x1 else p0 i s7
def n5 (i : grid1.Coords) (x0 x1 : Vec F S512x128 .bf16) (s5 : Vec F S512x1 .f32) : Vec F S512x1 .f32 :=
  k1_pay3 (k1_pay10 i x0 x1) (m0 i s5)
def n6 (i : grid1.Coords) (x0 x1 : Vec F S512x128 .bf16) (s5 s6 : Vec F S512x1 .f32) : Vec F S512x1 .f32 :=
  k1_pay2 (k1_pay8 i x0 x1) (k1_pay10 i x0 x1) (m0 i s5) (m0 i s5) (l0 i s6)
def r4 (i : grid1.Coords) (x0 x1 : Vec F S512x128 .bf16) (s5 s6 s7 : Vec F S512x1 .f32) : Vec F S512x1 .f32 :=
  k1_pay4 (n5 i x0 x1 s5) (n6 i x0 x1 s5 s6) (n7 i x0 x1 s7)
def o4 (i : grid1.Coords) (x0 x1 : Vec F S512x128 .bf16) (d4 s5 s6 s7 : Vec F S512x1 .f32) : Vec F S512x1 .f32 :=
  if cond1_2 i then r4 i x0 x1 s5 s6 s7 else d4

/-- A buffer whose contents read as `X` is owned at `X`. -/
theorem owns_of_read {s : Shape} {e : EltTy} (c : Dev nD) (arg : Memref sig .tc .vmem s e) (f : arg.view.ty.Contents (Elt F)) (X : Vec F s e)
    (h : arg.view.read (Elt F) f = X) :
    (arg.view.loc (c : Thread nD τ) ↦[arg.view.set]{fullShare} f : sProp 𝕄) ⊢ owns (c : Thread nD τ) arg fullShare X := by
  unfold owns
  iintro H; iexists f; isplitr
  · ipureintro; exact h
  iexact H

end Cert.KernelIdeal.Hand

end
-- ==== Proof.KiR1CaseFFF.lean ====
/-
  One combination of the three conditions of the second region's body, run through from the first load to the
  last store.
-/
import proofs.«129541_j23081154249195_1_alg».proof.Proof.KiRegion1b

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The body's triple when the first-column-tile, partner-tile and last-column-tile conditions are false, false, false. -/
theorem sound_kernel1_FFF (c : Dev nD) (E : Set ℕ) (i : grid1.Coords)
    (arg2 : Memref sig .tc .vmem S512x128 .bf16) (harg2 : arg2.IsWhole) (arg3 : Memref sig .tc .vmem S512x128 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : ¬cond1_0 i) (hc1 : ¬cond1_1 i) (hc2 : ¬cond1_2 i)
    (x0 x1 : Vec F S512x128 .bf16) (d4 s5 s6 s7 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1
            ∗ owns (c : Thread nD τ) arg4 fullShare (o4 i x0 x1 d4 s5 s6 s7)
            ∗ owns (c : Thread nD τ) arg5 fullShare (n5 i x0 x1 s5) ∗ owns (c : Thread nD τ) arg6 fullShare (n6 i x0 x1 s5 s6)
            ∗ owns (c : Thread nD τ) arg7 fullShare (n7 i x0 x1 s7)) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf4
  obtain rfl := harg5.eq_unread hf5; obtain rfl := harg6.eq_unread hf6; obtain rfl := harg7.eq_unread hf7
  all_goals
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr
      swap; · iexact H4
      ipureintro
      sl_unfold_words
      simp only [o4, r4, n5, n6, n7, m0, l0, p0, if_neg hc0, if_neg hc1, if_neg hc2]
      first
        | exact harg4.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H5]
    · iexists _; isplitr
      swap; · iexact H5
      ipureintro
      sl_unfold_words
      simp only [o4, r4, n5, n6, n7, m0, l0, p0, if_neg hc0, if_neg hc1, if_neg hc2]
      first
        | exact harg5.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H6]
    · iexists _; isplitr
      swap; · iexact H6
      ipureintro
      sl_unfold_words
      simp only [o4, r4, n5, n6, n7, m0, l0, p0, if_neg hc0, if_neg hc1, if_neg hc2]
      first
        | exact harg6.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    · iexists _; isplitr
      swap; · iexact H7
      ipureintro
      sl_unfold_words
      simp only [o4, r4, n5, n6, n7, m0, l0, p0, if_neg hc0, if_neg hc1, if_neg hc2]
      first
        | exact harg7.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])

end Cert.KernelIdeal.Hand

end
-- ==== Proof.KiR1CaseFFT.lean ====
/-
  One combination of the three conditions of the second region's body, run through from the first load to the
  last store.
-/
import proofs.«129541_j23081154249195_1_alg».proof.Proof.KiRegion1b

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The body's triple when the first-column-tile, partner-tile and last-column-tile conditions are false, false, true. -/
theorem sound_kernel1_FFT (c : Dev nD) (E : Set ℕ) (i : grid1.Coords)
    (arg2 : Memref sig .tc .vmem S512x128 .bf16) (harg2 : arg2.IsWhole) (arg3 : Memref sig .tc .vmem S512x128 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : ¬cond1_0 i) (hc1 : ¬cond1_1 i) (hc2 : cond1_2 i)
    (x0 x1 : Vec F S512x128 .bf16) (d4 s5 s6 s7 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1
            ∗ owns (c : Thread nD τ) arg4 fullShare (o4 i x0 x1 d4 s5 s6 s7)
            ∗ owns (c : Thread nD τ) arg5 fullShare (n5 i x0 x1 s5) ∗ owns (c : Thread nD τ) arg6 fullShare (n6 i x0 x1 s5 s6)
            ∗ owns (c : Thread nD τ) arg7 fullShare (n7 i x0 x1 s7)) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf4
  obtain rfl := harg5.eq_unread hf5; obtain rfl := harg6.eq_unread hf6; obtain rfl := harg7.eq_unread hf7
  all_goals
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr
      swap; · iexact H4
      ipureintro
      sl_unfold_words
      simp only [o4, r4, n5, n6, n7, m0, l0, p0, if_neg hc0, if_neg hc1, if_pos hc2]
      first
        | exact harg4.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H5]
    · iexists _; isplitr
      swap; · iexact H5
      ipureintro
      sl_unfold_words
      simp only [o4, r4, n5, n6, n7, m0, l0, p0, if_neg hc0, if_neg hc1, if_pos hc2]
      first
        | exact harg5.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H6]
    · iexists _; isplitr
      swap; · iexact H6
      ipureintro
      sl_unfold_words
      simp only [o4, r4, n5, n6, n7, m0, l0, p0, if_neg hc0, if_neg hc1, if_pos hc2]
      first
        | exact harg6.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    · iexists _; isplitr
      swap; · iexact H7
      ipureintro
      sl_unfold_words
      simp only [o4, r4, n5, n6, n7, m0, l0, p0, if_neg hc0, if_neg hc1, if_pos hc2]
      first
        | exact harg7.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])

end Cert.KernelIdeal.Hand

end
-- ==== Proof.KiR1CaseFTF.lean ====
/-
  One combination of the three conditions of the second region's body, run through from the first load to the
  last store.
-/
import proofs.«129541_j23081154249195_1_alg».proof.Proof.KiRegion1b

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The body's triple when the first-column-tile, partner-tile and last-column-tile conditions are false, true, false. -/
theorem sound_kernel1_FTF (c : Dev nD) (E : Set ℕ) (i : grid1.Coords)
    (arg2 : Memref sig .tc .vmem S512x128 .bf16) (harg2 : arg2.IsWhole) (arg3 : Memref sig .tc .vmem S512x128 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : ¬cond1_0 i) (hc1 : cond1_1 i) (hc2 : ¬cond1_2 i)
    (x0 x1 : Vec F S512x128 .bf16) (d4 s5 s6 s7 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1
            ∗ owns (c : Thread nD τ) arg4 fullShare (o4 i x0 x1 d4 s5 s6 s7)
            ∗ owns (c : Thread nD τ) arg5 fullShare (n5 i x0 x1 s5) ∗ owns (c : Thread nD τ) arg6 fullShare (n6 i x0 x1 s5 s6)
            ∗ owns (c : Thread nD τ) arg7 fullShare (n7 i x0 x1 s7)) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf4
  obtain rfl := harg5.eq_unread hf5; obtain rfl := harg6.eq_unread hf6; obtain rfl := harg7.eq_unread hf7
  all_goals
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr
      swap; · iexact H4
      ipureintro
      sl_unfold_words
      simp only [o4, r4, n5, n6, n7, m0, l0, p0, if_neg hc0, if_pos hc1, if_neg hc2]
      first
        | exact harg4.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H5]
    · iexists _; isplitr
      swap; · iexact H5
      ipureintro
      sl_unfold_words
      simp only [o4, r4, n5, n6, n7, m0, l0, p0, if_neg hc0, if_pos hc1, if_neg hc2]
      first
        | exact harg5.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H6]
    · iexists _; isplitr
      swap; · iexact H6
      ipureintro
      sl_unfold_words
      simp only [o4, r4, n5, n6, n7, m0, l0, p0, if_neg hc0, if_pos hc1, if_neg hc2]
      first
        | exact harg6.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    · iexists _; isplitr
      swap; · iexact H7
      ipureintro
      sl_unfold_words
      simp only [o4, r4, n5, n6, n7, m0, l0, p0, if_neg hc0, if_pos hc1, if_neg hc2]
      first
        | exact harg7.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])

end Cert.KernelIdeal.Hand

end
-- ==== Proof.KiR1CaseFTT.lean ====
/-
  One combination of the three conditions of the second region's body, run through from the first load to the
  last store.
-/
import proofs.«129541_j23081154249195_1_alg».proof.Proof.KiRegion1b

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The body's triple when the first-column-tile, partner-tile and last-column-tile conditions are false, true, true. -/
theorem sound_kernel1_FTT (c : Dev nD) (E : Set ℕ) (i : grid1.Coords)
    (arg2 : Memref sig .tc .vmem S512x128 .bf16) (harg2 : arg2.IsWhole) (arg3 : Memref sig .tc .vmem S512x128 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : ¬cond1_0 i) (hc1 : cond1_1 i) (hc2 : cond1_2 i)
    (x0 x1 : Vec F S512x128 .bf16) (d4 s5 s6 s7 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1
            ∗ owns (c : Thread nD τ) arg4 fullShare (o4 i x0 x1 d4 s5 s6 s7)
            ∗ owns (c : Thread nD τ) arg5 fullShare (n5 i x0 x1 s5) ∗ owns (c : Thread nD τ) arg6 fullShare (n6 i x0 x1 s5 s6)
            ∗ owns (c : Thread nD τ) arg7 fullShare (n7 i x0 x1 s7)) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf4
  obtain rfl := harg5.eq_unread hf5; obtain rfl := harg6.eq_unread hf6; obtain rfl := harg7.eq_unread hf7
  all_goals
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr
      swap; · iexact H4
      ipureintro
      sl_unfold_words
      simp only [o4, r4, n5, n6, n7, m0, l0, p0, if_neg hc0, if_pos hc1, if_pos hc2]
      first
        | exact harg4.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H5]
    · iexists _; isplitr
      swap; · iexact H5
      ipureintro
      sl_unfold_words
      simp only [o4, r4, n5, n6, n7, m0, l0, p0, if_neg hc0, if_pos hc1, if_pos hc2]
      first
        | exact harg5.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H6]
    · iexists _; isplitr
      swap; · iexact H6
      ipureintro
      sl_unfold_words
      simp only [o4, r4, n5, n6, n7, m0, l0, p0, if_neg hc0, if_pos hc1, if_pos hc2]
      first
        | exact harg6.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    · iexists _; isplitr
      swap; · iexact H7
      ipureintro
      sl_unfold_words
      simp only [o4, r4, n5, n6, n7, m0, l0, p0, if_neg hc0, if_pos hc1, if_pos hc2]
      first
        | exact harg7.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])

end Cert.KernelIdeal.Hand

end
-- ==== Proof.KiR1CaseTFF.lean ====
/-
  One combination of the three conditions of the second region's body, run through from the first load to the
  last store.
-/
import proofs.«129541_j23081154249195_1_alg».proof.Proof.KiRegion1b

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The body's triple when the first-column-tile, partner-tile and last-column-tile conditions are true, false, false. -/
theorem sound_kernel1_TFF (c : Dev nD) (E : Set ℕ) (i : grid1.Coords)
    (arg2 : Memref sig .tc .vmem S512x128 .bf16) (harg2 : arg2.IsWhole) (arg3 : Memref sig .tc .vmem S512x128 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : cond1_0 i) (hc1 : ¬cond1_1 i) (hc2 : ¬cond1_2 i)
    (x0 x1 : Vec F S512x128 .bf16) (d4 s5 s6 s7 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1
            ∗ owns (c : Thread nD τ) arg4 fullShare (o4 i x0 x1 d4 s5 s6 s7)
            ∗ owns (c : Thread nD τ) arg5 fullShare (n5 i x0 x1 s5) ∗ owns (c : Thread nD τ) arg6 fullShare (n6 i x0 x1 s5 s6)
            ∗ owns (c : Thread nD τ) arg7 fullShare (n7 i x0 x1 s7)) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf4
  obtain rfl := harg5.eq_unread hf5; obtain rfl := harg6.eq_unread hf6; obtain rfl := harg7.eq_unread hf7
  all_goals
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr
      swap; · iexact H4
      ipureintro
      sl_unfold_words
      simp only [o4, r4, n5, n6, n7, m0, l0, p0, if_pos hc0, if_neg hc1, if_neg hc2]
      first
        | exact harg4.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H5]
    · iexists _; isplitr
      swap; · iexact H5
      ipureintro
      sl_unfold_words
      simp only [o4, r4, n5, n6, n7, m0, l0, p0, if_pos hc0, if_neg hc1, if_neg hc2]
      first
        | exact harg5.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H6]
    · iexists _; isplitr
      swap; · iexact H6
      ipureintro
      sl_unfold_words
      simp only [o4, r4, n5, n6, n7, m0, l0, p0, if_pos hc0, if_neg hc1, if_neg hc2]
      first
        | exact harg6.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    · iexists _; isplitr
      swap; · iexact H7
      ipureintro
      sl_unfold_words
      simp only [o4, r4, n5, n6, n7, m0, l0, p0, if_pos hc0, if_neg hc1, if_neg hc2]
      first
        | exact harg7.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])

end Cert.KernelIdeal.Hand

end
-- ==== Proof.KiR1CaseTFT.lean ====
/-
  One combination of the three conditions of the second region's body, run through from the first load to the
  last store.
-/
import proofs.«129541_j23081154249195_1_alg».proof.Proof.KiRegion1b

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The body's triple when the first-column-tile, partner-tile and last-column-tile conditions are true, false, true. -/
theorem sound_kernel1_TFT (c : Dev nD) (E : Set ℕ) (i : grid1.Coords)
    (arg2 : Memref sig .tc .vmem S512x128 .bf16) (harg2 : arg2.IsWhole) (arg3 : Memref sig .tc .vmem S512x128 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : cond1_0 i) (hc1 : ¬cond1_1 i) (hc2 : cond1_2 i)
    (x0 x1 : Vec F S512x128 .bf16) (d4 s5 s6 s7 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1
            ∗ owns (c : Thread nD τ) arg4 fullShare (o4 i x0 x1 d4 s5 s6 s7)
            ∗ owns (c : Thread nD τ) arg5 fullShare (n5 i x0 x1 s5) ∗ owns (c : Thread nD τ) arg6 fullShare (n6 i x0 x1 s5 s6)
            ∗ owns (c : Thread nD τ) arg7 fullShare (n7 i x0 x1 s7)) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf4
  obtain rfl := harg5.eq_unread hf5; obtain rfl := harg6.eq_unread hf6; obtain rfl := harg7.eq_unread hf7
  all_goals
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr
      swap; · iexact H4
      ipureintro
      sl_unfold_words
      simp only [o4, r4, n5, n6, n7, m0, l0, p0, if_pos hc0, if_neg hc1, if_pos hc2]
      first
        | exact harg4.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H5]
    · iexists _; isplitr
      swap; · iexact H5
      ipureintro
      sl_unfold_words
      simp only [o4, r4, n5, n6, n7, m0, l0, p0, if_pos hc0, if_neg hc1, if_pos hc2]
      first
        | exact harg5.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H6]
    · iexists _; isplitr
      swap; · iexact H6
      ipureintro
      sl_unfold_words
      simp only [o4, r4, n5, n6, n7, m0, l0, p0, if_pos hc0, if_neg hc1, if_pos hc2]
      first
        | exact harg6.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    · iexists _; isplitr
      swap; · iexact H7
      ipureintro
      sl_unfold_words
      simp only [o4, r4, n5, n6, n7, m0, l0, p0, if_pos hc0, if_neg hc1, if_pos hc2]
      first
        | exact harg7.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])

end Cert.KernelIdeal.Hand

end
-- ==== Proof.KiR1CaseTTF.lean ====
/-
  One combination of the three conditions of the second region's body, run through from the first load to the
  last store.
-/
import proofs.«129541_j23081154249195_1_alg».proof.Proof.KiRegion1b

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The body's triple when the first-column-tile, partner-tile and last-column-tile conditions are true, true, false. -/
theorem sound_kernel1_TTF (c : Dev nD) (E : Set ℕ) (i : grid1.Coords)
    (arg2 : Memref sig .tc .vmem S512x128 .bf16) (harg2 : arg2.IsWhole) (arg3 : Memref sig .tc .vmem S512x128 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : cond1_0 i) (hc1 : cond1_1 i) (hc2 : ¬cond1_2 i)
    (x0 x1 : Vec F S512x128 .bf16) (d4 s5 s6 s7 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1
            ∗ owns (c : Thread nD τ) arg4 fullShare (o4 i x0 x1 d4 s5 s6 s7)
            ∗ owns (c : Thread nD τ) arg5 fullShare (n5 i x0 x1 s5) ∗ owns (c : Thread nD τ) arg6 fullShare (n6 i x0 x1 s5 s6)
            ∗ owns (c : Thread nD τ) arg7 fullShare (n7 i x0 x1 s7)) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf4
  obtain rfl := harg5.eq_unread hf5; obtain rfl := harg6.eq_unread hf6; obtain rfl := harg7.eq_unread hf7
  all_goals
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr
      swap; · iexact H4
      ipureintro
      sl_unfold_words
      simp only [o4, r4, n5, n6, n7, m0, l0, p0, if_pos hc0, if_pos hc1, if_neg hc2]
      first
        | exact harg4.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H5]
    · iexists _; isplitr
      swap; · iexact H5
      ipureintro
      sl_unfold_words
      simp only [o4, r4, n5, n6, n7, m0, l0, p0, if_pos hc0, if_pos hc1, if_neg hc2]
      first
        | exact harg5.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H6]
    · iexists _; isplitr
      swap; · iexact H6
      ipureintro
      sl_unfold_words
      simp only [o4, r4, n5, n6, n7, m0, l0, p0, if_pos hc0, if_pos hc1, if_neg hc2]
      first
        | exact harg6.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    · iexists _; isplitr
      swap; · iexact H7
      ipureintro
      sl_unfold_words
      simp only [o4, r4, n5, n6, n7, m0, l0, p0, if_pos hc0, if_pos hc1, if_neg hc2]
      first
        | exact harg7.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])

end Cert.KernelIdeal.Hand

end
-- ==== Proof.KiR1CaseTTT.lean ====
/-
  One combination of the three conditions of the second region's body, run through from the first load to the
  last store.
-/
import proofs.«129541_j23081154249195_1_alg».proof.Proof.KiRegion1b

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The body's triple when the first-column-tile, partner-tile and last-column-tile conditions are true, true, true. -/
theorem sound_kernel1_TTT (c : Dev nD) (E : Set ℕ) (i : grid1.Coords)
    (arg2 : Memref sig .tc .vmem S512x128 .bf16) (harg2 : arg2.IsWhole) (arg3 : Memref sig .tc .vmem S512x128 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : cond1_0 i) (hc1 : cond1_1 i) (hc2 : cond1_2 i)
    (x0 x1 : Vec F S512x128 .bf16) (d4 s5 s6 s7 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1
            ∗ owns (c : Thread nD τ) arg4 fullShare (o4 i x0 x1 d4 s5 s6 s7)
            ∗ owns (c : Thread nD τ) arg5 fullShare (n5 i x0 x1 s5) ∗ owns (c : Thread nD τ) arg6 fullShare (n6 i x0 x1 s5 s6)
            ∗ owns (c : Thread nD τ) arg7 fullShare (n7 i x0 x1 s7)) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf4
  obtain rfl := harg5.eq_unread hf5; obtain rfl := harg6.eq_unread hf6; obtain rfl := harg7.eq_unread hf7
  all_goals
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr
      swap; · iexact H4
      ipureintro
      sl_unfold_words
      simp only [o4, r4, n5, n6, n7, m0, l0, p0, if_pos hc0, if_pos hc1, if_pos hc2]
      first
        | exact harg4.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H5]
    · iexists _; isplitr
      swap; · iexact H5
      ipureintro
      sl_unfold_words
      simp only [o4, r4, n5, n6, n7, m0, l0, p0, if_pos hc0, if_pos hc1, if_pos hc2]
      first
        | exact harg5.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    isplitl [H6]
    · iexists _; isplitr
      swap; · iexact H6
      ipureintro
      sl_unfold_words
      simp only [o4, r4, n5, n6, n7, m0, l0, p0, if_pos hc0, if_pos hc1, if_pos hc2]
      first
        | exact harg6.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])
    · iexists _; isplitr
      swap; · iexact H7
      ipureintro
      sl_unfold_words
      simp only [o4, r4, n5, n6, n7, m0, l0, p0, if_pos hc0, if_pos hc1, if_pos hc2]
      first
        | exact harg7.read_unread _
        | (rw [read_writes_cons_whole _ _ hz2] <;>
           simp only [View.readAt_eq_ld, harg2.read_unread, harg3.read_unread, harg4.read_unread, harg5.read_unread, harg6.read_unread, harg7.read_unread,
             View.ld_unit_zero (S := S512x128) hz2, View.ld_unit_zero (S := S512x1) hz2, readCov_cons_whole (S := S512x1) _ hz2])

end Cert.KernelIdeal.Hand

end
-- ==== Proof.KiRegion1bb.lean ====
/-
  The body's triple of the second region in every combination of its three conditions, from the eight runs.
-/
import proofs.«129541_j23081154249195_1_alg».proof.Proof.KiR1CaseFFF
import proofs.«129541_j23081154249195_1_alg».proof.Proof.KiR1CaseFFT
import proofs.«129541_j23081154249195_1_alg».proof.Proof.KiR1CaseFTF
import proofs.«129541_j23081154249195_1_alg».proof.Proof.KiR1CaseFTT
import proofs.«129541_j23081154249195_1_alg».proof.Proof.KiR1CaseTFF
import proofs.«129541_j23081154249195_1_alg».proof.Proof.KiR1CaseTFT
import proofs.«129541_j23081154249195_1_alg».proof.Proof.KiR1CaseTTF
import proofs.«129541_j23081154249195_1_alg».proof.Proof.KiR1CaseTTT

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's triple, whatever the three conditions. -/
theorem sound_kernel1 (c : Dev nD) (E : Set ℕ) (i : grid1.Coords)
    (arg2 : Memref sig .tc .vmem S512x128 .bf16) (harg2 : arg2.IsWhole) (arg3 : Memref sig .tc .vmem S512x128 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (x0 x1 : Vec F S512x128 .bf16) (d4 s5 s6 s7 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1
            ∗ owns (c : Thread nD τ) arg4 fullShare (o4 i x0 x1 d4 s5 s6 s7)
            ∗ owns (c : Thread nD τ) arg5 fullShare (n5 i x0 x1 s5) ∗ owns (c : Thread nD τ) arg6 fullShare (n6 i x0 x1 s5 s6)
            ∗ owns (c : Thread nD τ) arg7 fullShare (n7 i x0 x1 s7)) -∗ K ⟨⟩))
      ⊢ wp frame (wpE (defs₀ (F := F)) Variants.none c none) E (cc1__flash_kernel i arg2 harg2 arg3 harg3 arg4 harg4 arg5 harg5 arg6 harg6 arg7 harg7) K := by
  by_cases hc0 : cond1_0 i <;> by_cases hc1 : cond1_1 i <;> by_cases hc2 : cond1_2 i
  · exact sound_kernel1_TTT c E i arg2 harg2 arg3 harg3 arg4 harg4 arg5 harg5 arg6 harg6 arg7 harg7 hc0 hc1 hc2 x0 x1 d4 s5 s6 s7 K
  · exact sound_kernel1_TTF c E i arg2 harg2 arg3 harg3 arg4 harg4 arg5 harg5 arg6 harg6 arg7 harg7 hc0 hc1 hc2 x0 x1 d4 s5 s6 s7 K
  · exact sound_kernel1_TFT c E i arg2 harg2 arg3 harg3 arg4 harg4 arg5 harg5 arg6 harg6 arg7 harg7 hc0 hc1 hc2 x0 x1 d4 s5 s6 s7 K
  · exact sound_kernel1_TFF c E i arg2 harg2 arg3 harg3 arg4 harg4 arg5 harg5 arg6 harg6 arg7 harg7 hc0 hc1 hc2 x0 x1 d4 s5 s6 s7 K
  · exact sound_kernel1_FTT c E i arg2 harg2 arg3 harg3 arg4 harg4 arg5 harg5 arg6 harg6 arg7 harg7 hc0 hc1 hc2 x0 x1 d4 s5 s6 s7 K
  · exact sound_kernel1_FTF c E i arg2 harg2 arg3 harg3 arg4 harg4 arg5 harg5 arg6 harg6 arg7 harg7 hc0 hc1 hc2 x0 x1 d4 s5 s6 s7 K
  · exact sound_kernel1_FFT c E i arg2 harg2 arg3 harg3 arg4 harg4 arg5 harg5 arg6 harg6 arg7 harg7 hc0 hc1 hc2 x0 x1 d4 s5 s6 s7 K
  · exact sound_kernel1_FFF c E i arg2 harg2 arg3 harg3 arg4 harg4 arg5 harg5 arg6 harg6 arg7 harg7 hc0 hc1 hc2 x0 x1 d4 s5 s6 s7 K

end Cert.KernelIdeal.Hand

end
-- ==== Proof.KiRegion1c.lean ====
/-
  The second kernel region, third part: the running statistics point by point, the region's invariant, the proof
  data of the pipeline and the body obligation.  After point `n` the three scratch buffers hold the statistics of
  the column tiles read so far in the current row tile (`stAt`); the output buffer is written in the last column
  tile only and is idle elsewhere; the two input windows read the same array.
-/
import proofs.«129541_j23081154249195_1_alg».proof.Proof.KiRegion1bb

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
variable (V : (c : Dev nD) → (b : Ref sig .tc) → Buf (Elt F) ((c : Thread nD τ).loc b))

/-- In the first column tile the statistics do not depend on what the scratch buffers held. -/
theorem n5_reset (i : grid1.Coords) (h : cond1_0 i) (x0 x1 : Vec F S512x128 .bf16) (s s' : Vec F S512x1 .f32) : n5 i x0 x1 s = n5 i x0 x1 s' := by
  simp only [n5, m0, if_pos h]
theorem n6_reset (i : grid1.Coords) (h : cond1_0 i) (x0 x1 : Vec F S512x128 .bf16) (s s' u u' : Vec F S512x1 .f32) : n6 i x0 x1 s u = n6 i x0 x1 s' u' := by
  simp only [n6, m0, l0, if_pos h]
theorem n7_reset (i : grid1.Coords) (h : cond1_0 i) (x0 x1 : Vec F S512x128 .bf16) (s s' : Vec F S512x1 .f32) : n7 i x0 x1 s = n7 i x0 x1 s' := by
  simp only [n7, p0, if_pos h]

/-- The statistics (maximum, sum, partner scores) in the scratch buffers after position `n`. -/
def stAt (c : Dev nD) : (n : ℕ) → n < cfg1.N → Vec F S512x1 .f32 × Vec F S512x1 .f32 × Vec F S512x1 .f32
  | 0, hn => (n5 (grid1.coords ⟨0, hn⟩) (iblk1 V c 0 ⟨0, hn⟩) (iblk1 V c 1 ⟨0, hn⟩) (k1_pay5 (F := F)),
      n6 (grid1.coords ⟨0, hn⟩) (iblk1 V c 0 ⟨0, hn⟩) (iblk1 V c 1 ⟨0, hn⟩) (k1_pay5 (F := F)) (k1_pay6 (F := F)),
      n7 (grid1.coords ⟨0, hn⟩) (iblk1 V c 0 ⟨0, hn⟩) (iblk1 V c 1 ⟨0, hn⟩) (k1_pay7 (F := F)))
  | n + 1, hn =>
    (n5 (grid1.coords ⟨n + 1, hn⟩) (iblk1 V c 0 ⟨n + 1, hn⟩) (iblk1 V c 1 ⟨n + 1, hn⟩) (stAt c n (Nat.lt_of_succ_lt hn)).1,
      n6 (grid1.coords ⟨n + 1, hn⟩) (iblk1 V c 0 ⟨n + 1, hn⟩) (iblk1 V c 1 ⟨n + 1, hn⟩) (stAt c n (Nat.lt_of_succ_lt hn)).1 (stAt c n (Nat.lt_of_succ_lt hn)).2.1,
      n7 (grid1.coords ⟨n + 1, hn⟩) (iblk1 V c 0 ⟨n + 1, hn⟩) (iblk1 V c 1 ⟨n + 1, hn⟩) (stAt c n (Nat.lt_of_succ_lt hn)).2.2)

theorem stAt_zero (c : Dev nD) (t : Fin cfg1.N) (hz : t.val = 0) :
    stAt V c t.val t.isLt = (n5 (grid1.coords t) (iblk1 V c 0 t) (iblk1 V c 1 t) (k1_pay5 (F := F)),
      n6 (grid1.coords t) (iblk1 V c 0 t) (iblk1 V c 1 t) (k1_pay5 (F := F)) (k1_pay6 (F := F)),
      n7 (grid1.coords t) (iblk1 V c 0 t) (iblk1 V c 1 t) (k1_pay7 (F := F))) := by
  obtain ⟨n, hn⟩ := t
  cases n with
  | zero => rfl
  | succ n => exact absurd hz (Nat.succ_ne_zero n)

theorem stAt_pos (c : Dev nD) (t : Fin cfg1.N) (hz : t.val ≠ 0) :
    stAt V c t.val t.isLt = (n5 (grid1.coords t) (iblk1 V c 0 t) (iblk1 V c 1 t) (stAt V c (t.val - 1) (Nat.lt_of_le_of_lt (Nat.sub_le _ _) t.isLt)).1,
      n6 (grid1.coords t) (iblk1 V c 0 t) (iblk1 V c 1 t) (stAt V c (t.val - 1) (Nat.lt_of_le_of_lt (Nat.sub_le _ _) t.isLt)).1 (stAt V c (t.val - 1) (Nat.lt_of_le_of_lt (Nat.sub_le _ _) t.isLt)).2.1,
      n7 (grid1.coords t) (iblk1 V c 0 t) (iblk1 V c 1 t) (stAt V c (t.val - 1) (Nat.lt_of_le_of_lt (Nat.sub_le _ _) t.isLt)).2.2) := by
  obtain ⟨n, hn⟩ := t
  cases n with
  | zero => exact absurd rfl hz
  | succ n => rfl

/-- The region's invariant before position `n`: before the first point every scoped buffer the region does not
    stage at anything; afterwards the three scratch buffers at the statistics the point before left. -/
def PhiS (c : Dev nD) : (n : ℕ) → n ≤ cfg1.N → sProp 𝕄
  | 0, _ => Pipeline.ΦA spec1 c
  | n + 1, hn => iprop(iprop((∃ d, owns (c : Thread nD τ) (Memref.whole cc0_stg0_0 : Memref sig .tc .vmem S2048x128 .f32) fullShare d)
          ∗ (∃ d, owns (c : Thread nD τ) (Memref.whole cc0_stg0_1 : Memref sig .tc .vmem S2048x128 .f32) fullShare d)
          ∗ (∃ d, owns (c : Thread nD τ) (Memref.whole cc0_stg1_0 : Memref sig .tc .vmem S2048x128 .bf16) fullShare d)
          ∗ (∃ d, owns (c : Thread nD τ) (Memref.whole cc0_stg1_1 : Memref sig .tc .vmem S2048x128 .bf16) fullShare d)
          ∗ owns (c : Thread nD τ) scM1_0 fullShare (stAt V c n hn).1 ∗ owns (c : Thread nD τ) scM1_1 fullShare (stAt V c n hn).2.1
          ∗ owns (c : Thread nD τ) scM1_2 fullShare (stAt V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ d, owns (c : Thread nD τ) (Memref.whole cc0_stg0_0 : Memref sig .tc .vmem S2048x128 .f32) fullShare d)
          ∗ (∃ d, owns (c : Thread nD τ) (Memref.whole cc0_stg0_1 : Memref sig .tc .vmem S2048x128 .f32) fullShare d)
          ∗ (∃ d, owns (c : Thread nD τ) (Memref.whole cc0_stg1_0 : Memref sig .tc .vmem S2048x128 .bf16) fullShare d)
          ∗ (∃ d, owns (c : Thread nD τ) (Memref.whole cc0_stg1_1 : Memref sig .tc .vmem S2048x128 .bf16) fullShare d)
          ∗ owns (c : Thread nD τ) scM1_0 fullShare (stAt V c n hn).1 ∗ owns (c : Thread nD τ) scM1_1 fullShare (stAt V c n hn).2.1
          ∗ owns (c : Thread nD τ) scM1_2 fullShare (stAt V c n hn).2.2) ∗ (∃ r, prngReg c r)) := rfl

theorem PhiS_pos (c : Dev nD) (n : ℕ) (h : n ≤ cfg1.N) (hz : n ≠ 0) :
    PhiS V c n h = iprop(iprop((∃ d, owns (c : Thread nD τ) (Memref.whole cc0_stg0_0 : Memref sig .tc .vmem S2048x128 .f32) fullShare d)
          ∗ (∃ d, owns (c : Thread nD τ) (Memref.whole cc0_stg0_1 : Memref sig .tc .vmem S2048x128 .f32) fullShare d)
          ∗ (∃ d, owns (c : Thread nD τ) (Memref.whole cc0_stg1_0 : Memref sig .tc .vmem S2048x128 .bf16) fullShare d)
          ∗ (∃ d, owns (c : Thread nD τ) (Memref.whole cc0_stg1_1 : Memref sig .tc .vmem S2048x128 .bf16) fullShare d)
          ∗ owns (c : Thread nD τ) scM1_0 fullShare (stAt V c (n - 1) (by omega)).1 ∗ owns (c : Thread nD τ) scM1_1 fullShare (stAt V c (n - 1) (by omega)).2.1
          ∗ owns (c : Thread nD τ) scM1_2 fullShare (stAt V c (n - 1) (by omega)).2.2) ∗ (∃ r, prngReg c r)) := by
  cases n with
  | zero => exact absurd rfl hz
  | succ n => rfl

/-- The proof data of the second pipeline at entry contents `V`: the row and column windows read one array, each at
    half of it; the output window holds partner score − (maximum + log sum) of the statistics after the point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay4 (stAt V c t.val t.isLt).1 (stAt V c t.val t.isLt).2.1 (stAt V c t.val t.isLt).2.2
  Φ t := PhiS V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay4 (stAt V c t.val t.isLt).1 (stAt V c t.val t.isLt).2.1 (stAt V c t.val t.isLt).2.2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 256 := lt_of_lt_of_eq t.isLt (show cfg1.N = 256 from N_1)
  by_cases h2 : cond1_2 (grid1.coords t)
  · have hz : t.val ≠ 0 := by have := (hcond1_2 t).mp h2; omega
    rw [show (dat1 V c).leavesExact 2 t = owns (c : Thread nD τ) (ms1_2 t) fullShare ((dat1 V c).after 2 t) from by
      unfold Dat.leavesExact; rw [liveAt1_2 t h2], after1_2]
    rw [stAt_pos V c t hz, PhiS_castSucc V c t, PhiS_pos V c _ _ hz]
    iintro ⟨⟨⟨HA, HB, HC, HD, HS0, HS1, HS2⟩, Hg⟩, Ho, ⟨%d0, H0⟩, ⟨%d1, H1⟩, ⟨%d2, H2⟩⟩
    iapply (sound_kernel1 c Set.univ (grid1.coords t) _ _ _ _ _ _ _ _ _ _ _ _ (iblk1 V c 0 t) (iblk1 V c 1 t) _ _ _ _ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    simp only [o4, if_pos h2, r4]
    isplitl [HA HB HC HD HS0 HS1 HS2 Hg]
    · isplitr [Hg]
      · isplitl [HA]; · iexact HA
        isplitl [HB]; · iexact HB
        isplitl [HC]; · iexact HC
        isplitl [HD]; · iexact HD
        isplitl [HS0]; · iexact HS0
        isplitl [HS1]; · iexact HS1
        iexact HS2
      iexact Hg
    isplitl [Ho]; · iexact Ho
    isplitl [H0]; · iexact H0
    isplitl [H1]; · iexact H1
    iexact H2
  · rw [Dat.leavesExact_idle (dat1 V c) 2 t (idleAt1_2 t h2) (noFlush1_2 t h2)]
    by_cases hz : t.val = 0
    · have h0 : cond1_0 (grid1.coords t) := (hcond1_0 t).mpr (by omega)
      rw [stAt_zero V c t hz, PhiS_castSucc V c t, PhiS_zero V c _ _ hz, PhiA1_eq]
      iintro ⟨⟨⟨HA, HB, HC, HD, ⟨%e0, HS0⟩, ⟨%e1, HS1⟩, ⟨%e2, HS2⟩⟩, Hg⟩, Ho, ⟨%d0, H0⟩, ⟨%d1, H1⟩, ⟨%d2, H2⟩⟩
      iapply (sound_kernel1 c Set.univ (grid1.coords t) _ _ _ _ _ _ _ _ _ _ _ _ (iblk1 V c 0 t) (iblk1 V c 1 t) _ _ _ _ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      simp only [o4, if_neg h2]
      rw [n5_reset _ h0 _ _ e0 (k1_pay5 (F := F)), n6_reset _ h0 _ _ e0 (k1_pay5 (F := F)) e1 (k1_pay6 (F := F)), n7_reset _ h0 _ _ e2 (k1_pay7 (F := F))]
      isplitl [HA HB HC HD HS0 HS1 HS2 Hg]
      · isplitr [Hg]
        · isplitl [HA]; · iexact HA
          isplitl [HB]; · iexact HB
          isplitl [HC]; · iexact HC
          isplitl [HD]; · iexact HD
          isplitl [HS0]; · iexact HS0
          isplitl [HS1]; · iexact HS1
          iexact HS2
        iexact Hg
      isplitl [Ho]; · iexact Ho
      isplitl [H0]; · iexact H0
      isplitl [H1]; · iexact H1
      iexists _; iexact H2
    · rw [stAt_pos V c t hz, PhiS_castSucc V c t, PhiS_pos V c _ _ hz]
      iintro ⟨⟨⟨HA, HB, HC, HD, HS0, HS1, HS2⟩, Hg⟩, Ho, ⟨%d0, H0⟩, ⟨%d1, H1⟩, ⟨%d2, H2⟩⟩
      iapply (sound_kernel1 c Set.univ (grid1.coords t) _ _ _ _ _ _ _ _ _ _ _ _ (iblk1 V c 0 t) (iblk1 V c 1 t) _ _ _ _ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      simp only [o4, if_neg h2]
      isplitl [HA HB HC HD HS0 HS1 HS2 Hg]
      · isplitr [Hg]
        · isplitl [HA]; · iexact HA
          isplitl [HB]; · iexact HB
          isplitl [HC]; · iexact HC
          isplitl [HD]; · iexact HD
          isplitl [HS0]; · iexact HS0
          isplitl [HS1]; · iexact HS1
          iexact HS2
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives back the scoped buffers, their contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_eq]
  iintro ⟨⟨HA, HB, HC, HD, HS0, HS1, HS2⟩, Hg⟩
  isplitr [Hg]
  · isplitl [HA]; · iexact HA
    isplitl [HB]; · iexact HB
    isplitl [HC]; · iexact HC
    isplitl [HD]; · iexact HD
    isplitl [HS0]; · iexists _; iexact HS0
    isplitl [HS1]; · iexists _; iexact HS1
    iexists _; iexact HS2
  iexact Hg

end Region1

end Cert.KernelIdeal.Hand

end
-- ==== Proof.KiFrame.lean ====
/-
  The whole program as four segments — the host's concatenation, the first kernel region, the second kernel
  region, the host's mean and negation — with the contents of every unscoped buffer named at each boundary:
  `W0` at launch, `W1` after the concatenation, `W2` with the first region's output array at what its
  write-backs leave, `W3` with the second region's output array likewise, `W4` after the host's last lines.
  The second region reads ONE array through two windows: on entry that array's buffer is split into two halves,
  one per window, and joined again on exit (an input window never writes its array).  The run ends with every
  unscoped buffer at `W4`; the arguments are read back through the boundaries to their launch contents.
-/
import proofs.«129541_j23081154249195_1_alg».proof.Proof.KiRegion0
import proofs.«129541_j23081154249195_1_alg».proof.Proof.KiRegion1c

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region: its output array at what the write-backs leave, everything else as entered. -/
def W3 (c : Dev nD) : Valuation τ sig (Elt F) :=
  Function.update (W2 m ρ c) (Proc.devRef .tc main_v2) ((dat1 (V2 m ρ) c).arrAt 2 cfg1.N)
abbrev V3 : (c : Dev nD) → (b : Ref sig .tc) → Buf (Elt F) ((c : Thread nD τ).loc b) := fun c b => W3 m ρ c b
theorem W3_main_v2 (c : Dev nD) : W3 m ρ c (Proc.devRef .tc main_v2) = (dat1 (V2 m ρ) c).arrAt 2 cfg1.N := by
  unfold W3; exact Function.update_self ..
theorem W3_of_ne (c : Dev nD) (b : Ref sig .tc) (hb : b ≠ main_v2) : W3 m ρ c (Proc.devRef .tc b) = W2 m ρ c (Proc.devRef .tc b) := by
  unfold W3; exact Function.update_of_ne (StableHlo.devRef_ne_of_ne hb) ..
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The first region as a segment -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment: one array behind two windows -/

/-- The unscoped buffers are the second region's two arrays and the rest. -/
theorem ub_split1 (c : Dev nD) (V : (b : Ref sig .tc) → Buf (Elt F) ((c : Thread nD τ).loc b)) :
    (unscopedBufs (Ix := Unit) (Name := ℕ) (U := UR sig nD τ) (Lvl := ℕ) c V : sProp 𝕄)
      = iprop(iprop((((c : Thread nD τ).loc main_v1) ↦{fullShare} V main_v1) ∗ (((c : Thread nD τ).loc main_v2) ↦{fullShare} V main_v2))
          ∗ Pipeline.unscopedRest (Ix := Unit) (Name := ℕ) (U := UR sig nD τ) (Lvl := ℕ) spec1 c V) := by
  classical
  have hA : Finset.univ.image (Pipeline.arrRef spec1) ⊆ Finset.univ.filter fun b : Ref sig .tc => ¬ b.isScoped := by decide
  unfold unscopedBufs Pipeline.unscopedRest
  rw [bigSep_sdiff_split hA, bigSep_eq_bigSepL_of_eq [main_v1, main_v2] (by decide) (by decide)]
  rfl

/-- The second region's arrays at contents `Fw`: the shared input array at its two halves, the output array whole. -/
theorem arrays1_eq (c : Dev nD) (Fw : (w : Fin cfg1.W) → Buf (Elt F) ((cfg1.win w).arr.view.loc (c : Thread nD τ))) :
    ((pdats m ρ 1 c).arrays Fw : sProp 𝕄)
      = iprop((((c : Thread nD τ).loc main_v1) ↦{fullShare.left} Fw 0) ∗ (((c : Thread nD τ).loc main_v1) ↦{fullShare.right} Fw 1)
          ∗ (((c : Thread nD τ).loc main_v2) ↦{fullShare} Fw 2)) := by
  have harr : ∀ w, ((Pipeline.pin (pcfgs (F := F)) adm 1).win w).arr.IsWhole := arr_whole1
  have h : ((pdats m ρ 1 c).arrays Fw : sProp 𝕄)
      = bigSep Finset.univ fun w : Fin (Pipeline.pin (pcfgs (F := F)) adm 1).W =>
          (((Pipeline.pin (pcfgs (F := F)) adm 1).win w).arr.view.loc (c : Thread nD τ) ↦[Finset.univ]{(pdats m ρ 1 c).share w} Fw w : sProp 𝕄) := by
    unfold Dat.arrays
    exact bigSep_congr fun w _ => by rw [(harr w).set_eq_univ]
  rw [h, bigSep_W1]
  rfl

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (StableHlo.held (c : Thread nD τ) (Pipeline.ucRefs τ sig) (W2 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (V2 m ρ c)) := by
      rw [← Pipeline.unscopedBufs_held c (W2 m ρ c), ub_split1 c (V2 m ρ c), arrays1_eq]
      iintro ⟨⟨H1, H2⟩, Hrest⟩
      ihave Hs := (pointsTo_share (PosShare.mem_left_op_right fullShare)).1 $$ H1
      icases Hs with ⟨Hl, Hr⟩
      isplitr [Hrest]
      · isplitl [Hl]; · iexact Hl
        isplitl [Hr]; · iexact Hr
        iexact H2
      iexact Hrest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V2 m ρ c))
        ⊢ (StableHlo.held (c : Thread nD τ) (Pipeline.ucRefs τ sig) (W3 m ρ c) : sProp 𝕄) := by
      rw [← Pipeline.unscopedBufs_held c (W3 m ρ c), ub_split1 c (V3 m ρ c), arrays1_eq]
      rw [show (pdats m ρ 1 c).arrAt 0 cfg1.N = V2 m ρ c main_v1 from ((dat1 (V2 m ρ) c).arrAt_in 0 rfl _).trans (A_eq1 (V2 m ρ) c 0),
        show (pdats m ρ 1 c).arrAt 1 cfg1.N = V2 m ρ c main_v1 from ((dat1 (V2 m ρ) c).arrAt_in 1 rfl _).trans (A_eq1 (V2 m ρ) c 1)]
      rw [show V3 m ρ c main_v1 = V2 m ρ c main_v1 from W3_of_ne m ρ c main_v1 (by decide),
        show V3 m ρ c main_v2 = (pdats m ρ 1 c).arrAt 2 cfg1.N from W3_main_v2 m ρ c]
      have hrest : (Pipeline.unscopedRest (Ix := Unit) (Name := ℕ) (U := UR sig nD τ) (Lvl := ℕ) spec1 c (V3 m ρ c) : sProp 𝕄)
          = Pipeline.unscopedRest (Ix := Unit) (Name := ℕ) (U := UR sig nD τ) (Lvl := ℕ) spec1 c (V2 m ρ c) := by
        unfold Pipeline.unscopedRest
        exact bigSep_congr fun b hb => by
          rw [show V3 m ρ c b = V2 m ρ c b from W3_of_ne m ρ c b fun e =>
            (Finset.mem_sdiff.mp hb).2 (Finset.mem_image.mpr ⟨2, Finset.mem_univ _, e.symm ▸ rfl⟩)]
      rw [hrest]
      iintro ⟨⟨Hl, Hr, H2⟩, Hrest⟩
      isplitr [Hrest]
      · isplitl [Hl Hr]
        · iapply (pointsTo_share (PosShare.mem_left_op_right fullShare)).2
          isplitl [Hl] <;> iassumption
        iexact H2
      iexact Hrest
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: every weakly fair execution of @main terminates, nothing faulting, with every unscoped buffer of every
    core at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      (show iprop(StableHlo.held (c : Thread nD τ) (Pipeline.ucRefs τ sig) (W4 m ρ c) ∗ R c)
          ⊢ iprop(Tₙ m ρ c ∗ ∃ W, owes (c : Thread nD τ) (0 : CellTallies nD τ sig Unit) W) from by
        iintro ⟨Hh, ⟨Hp, HO⟩⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_arg (c : Dev nD) (b : Ref sig .tc) (h2 : b ∉ hostOps2_W) (hv2 : b ≠ main_v2) (h0 : ∀ w, Pipeline.arrRef spec0 w ≠ b) (h1 : b ∉ hostOps0_W) :
    W4 m ρ c (Proc.devRef .tc b) = m ((c : Thread nD τ).loc b) :=
  calc W4 m ρ c (Proc.devRef .tc b)
    _ = W3 m ρ c (Proc.devRef .tc b) := StableHlo.after_of_writes_sub hostOps2 _ hostOps2_writes h2
    _ = W2 m ρ c (Proc.devRef .tc b) := W3_of_ne m ρ c b hv2
    _ = W1 m ρ c (Proc.devRef .tc b) := W2_of_ne m ρ c b h0
    _ = W0 m ρ c (Proc.devRef .tc b) := StableHlo.after_of_writes_sub hostOps0 _ hostOps0_writes h1
    _ = m ((c : Thread nD τ).loc b) := rfl

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_arg m ρ c main_arg0 (by decide) (by decide) (by decide) (by decide)),
     (h c _ (mem_uc main_arg1 (by decide))).trans (W4_arg m ρ c main_arg1 (by decide) (by decide) (by decide) (by decide))⟩)
    (run_all m ρ)

end Cert.KernelIdeal.Hand

end
-- ==== Proof.LibTiledSoftmax.lean ====
/-
  Softmax-weighted sums accumulated tile by tile, with masked columns, as pure mathematics.

  A row of scores is read in tiles `0, 1, 2, …` of `κ` columns each.  The score `S k c` of column `c` of
  tile `k` is a real number or `⊥` (a masked column); the value carried by that column is the real `w k c`.
  Three numbers are kept on the extended reals: a shift `m` (from `⊥`), a sum `l` (from `0`) and a weighted
  sum `a` (from `0`).  When a tile arrives the shift becomes the larger of the old shift and the tile's
  largest score, the old sums are rescaled by `exp (m - m')`, and the tile's terms `exp (S k c - m')`
  (times `w k c` for the weighted sum) are added.

  A masked column contributes `exp (⊥ - μ) = exp ⊥ = 0` everywhere, so its term is the real number `0`;
  an unmasked one contributes the real `exp (x - μ)`.  With that reading every quantity after the first tile
  is a real number (the first tile has an unmasked column), and the recursion is the real one: rescaling a
  term from the shift `μ` to the shift `μ'` is exact, for the zero terms too.  Hence, after tile `n`:

  * the shift is the largest score `M S n` of tiles `0 … n`, a real number  (`stat_fst`, `M_real`);
  * the sum is `∑ exp (S k c - M S n)` over all columns read so far, a real number `≥ 1`
    (`stat_snd`, `stat_snd_real`);
  * the weighted sum is `∑ exp (S k c - M S n) * w k c`  (`stat_trd`);
  * their quotient is the sum of the softmax weights `exp (S k c - M S n) / l` times the values
    (`stat_quotient`): a finite sum of reals is divided by a positive real term by term;
  * tiles that are masked entirely change nothing  (`M_padding`, `stat_padding`, `sum_exp_padding`,
    `sum_exp_mul_padding`, `sum_div_padding`).
-/
import Idealize.ShloMosaic.PureOps.Ideal

noncomputable section

namespace ProofLib.TiledSoftmax

open Idealize.ShloMosaic

/-! ## The recursion -/

section Defs

variable {κ : Type*} [Fintype κ]

/-- One tile: the new shift, the rescaled sum plus the tile's terms, the rescaled weighted sum plus the
    tile's weighted terms.  `Finset.univ.sup s` is the tile's largest score, `⊥` when every column is
    masked. -/
def step (s : κ → EReal) (v : κ → ℝ) (p : EReal × EReal × EReal) : EReal × EReal × EReal :=
  (max p.1 (Finset.univ.sup s),
   Ideal.exp (p.1 - max p.1 (Finset.univ.sup s)) * p.2.1
     + ∑ c, Ideal.exp (s c - max p.1 (Finset.univ.sup s)),
   Ideal.exp (p.1 - max p.1 (Finset.univ.sup s)) * p.2.2
     + ∑ c, Ideal.exp (s c - max p.1 (Finset.univ.sup s)) * (v c : EReal))

/-- The running statistics `(m, l, a)` after tile `k`, from `(⊥, 0, 0)`. -/
def stat (S : ℕ → κ → EReal) (w : ℕ → κ → ℝ) : ℕ → EReal × EReal × EReal
  | 0 => step (S 0) (w 0) (⊥, 0, 0)
  | k + 1 => step (S (k + 1)) (w (k + 1)) (stat S w k)

/-- The largest score of tiles `0 … n`. -/
def M (S : ℕ → κ → EReal) (n : ℕ) : EReal := (Finset.range (n + 1)).sup fun k => Finset.univ.sup (S k)

/-- The term of a score `x` under the real shift `μ`: `0` for a masked score. -/
def term (x : EReal) (μ : ℝ) : ℝ := if x = ⊥ then 0 else Real.exp (x.toReal - μ)

theorem stat_zero (S : ℕ → κ → EReal) (w : ℕ → κ → ℝ) : stat S w 0 = step (S 0) (w 0) (⊥, 0, 0) := rfl

theorem stat_succ (S : ℕ → κ → EReal) (w : ℕ → κ → ℝ) (k : ℕ) :
    stat S w (k + 1) = step (S (k + 1)) (w (k + 1)) (stat S w k) := rfl

end Defs

/-! ## The term of one column -/

section Term

/-- The coercion of the reals into the extended reals goes through finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- THE TERM IS REAL: for a score that is a real or `⊥`, `exp (x - μ)` is the real number `term x μ`. -/
theorem exp_sub_coe (x : EReal) (hx : x ≠ ⊤) (μ : ℝ) :
    Ideal.exp (x - (μ : EReal)) = ((term x μ : ℝ) : EReal) := by
  induction x using EReal.rec with
  | bot => rw [EReal.bot_sub, Ideal.exp_bot, term, if_pos rfl, EReal.coe_zero]
  | coe r =>
    rw [term, if_neg (EReal.coe_ne_bot r), EReal.toReal_coe, ← EReal.coe_sub]
    rfl
  | top => exact absurd rfl hx

theorem term_bot (μ : ℝ) : term ⊥ μ = 0 := if_pos rfl

theorem term_coe (r μ : ℝ) : term (r : EReal) μ = Real.exp (r - μ) := by
  rw [term, if_neg (EReal.coe_ne_bot r), EReal.toReal_coe]

theorem term_nonneg (x : EReal) (μ : ℝ) : 0 ≤ term x μ := by
  unfold term
  split_ifs
  · exact le_rfl
  · exact (Real.exp_pos _).le

/-- Moving a term from the shift `μ` to the shift `μ'` is exact; a masked term stays `0`. -/
theorem term_rescale (x : EReal) (μ μ' : ℝ) : Real.exp (μ - μ') * term x μ = term x μ' := by
  unfold term
  split_ifs
  · exact mul_zero _
  · rw [← Real.exp_add]
    congr 1
    ring

end Term

/-! ## The largest score -/

section Max

variable {κ : Type*} [Fintype κ]

theorem M_zero (S : ℕ → κ → EReal) : M S 0 = Finset.univ.sup (S 0) := by
  rw [M, Finset.range_one, Finset.sup_singleton]

/-- One more tile: the larger of the old maximum and the tile's. -/
theorem M_succ (S : ℕ → κ → EReal) (n : ℕ) :
    M S (n + 1) = max (M S n) (Finset.univ.sup (S (n + 1))) := by
  rw [M, Finset.range_add_one, Finset.sup_insert, max_comm]
  rfl

theorem le_M (S : ℕ → κ → EReal) {n k : ℕ} (hk : k ≤ n) (c : κ) : S k c ≤ M S n :=
  (Finset.le_sup (f := S k) (Finset.mem_univ c)).trans
    (Finset.le_sup (f := fun k => Finset.univ.sup (S k)) (Finset.mem_range.mpr (Nat.lt_succ_of_le hk)))

theorem M_ne_top (S : ℕ → κ → EReal) (hS : ∀ k c, S k c ≠ ⊤) (n : ℕ) : M S n ≠ ⊤ :=
  ((Finset.sup_lt_iff bot_lt_top).2 fun k _ =>
    (Finset.sup_lt_iff bot_lt_top).2 fun c _ => lt_top_iff_ne_top.2 (hS k c)).ne

theorem M_ne_bot (S : ℕ → κ → EReal) (h0 : ∃ c, S 0 c ≠ ⊥) (n : ℕ) : M S n ≠ ⊥ := by
  obtain ⟨c, hc⟩ := h0
  intro h
  exact hc (le_bot_iff.mp (h ▸ le_M S (Nat.zero_le n) c))

/-- THE MAXIMUM IS REAL: no score is `⊤`, and tile `0` has an unmasked column. -/
theorem M_real (S : ℕ → κ → EReal) (hS : ∀ k c, S k c ≠ ⊤) (h0 : ∃ c, S 0 c ≠ ⊥) (n : ℕ) :
    ∃ μ : ℝ, M S n = μ :=
  ⟨(M S n).toReal, (EReal.coe_toReal (M_ne_top S hS n) (M_ne_bot S h0 n)).symm⟩

/-- The maximum is one of the scores. -/
theorem M_attained (S : ℕ → κ → EReal) (h0 : ∃ c, S 0 c ≠ ⊥) (n : ℕ) :
    ∃ k, k ≤ n ∧ ∃ c, M S n = S k c := by
  obtain ⟨c0, _⟩ := h0
  haveI : Nonempty κ := ⟨c0⟩
  obtain ⟨k, hk, e1⟩ := Finset.exists_mem_eq_sup (Finset.range (n + 1)) Finset.nonempty_range_add_one
    fun k => Finset.univ.sup (S k)
  obtain ⟨c, _, e2⟩ := Finset.exists_mem_eq_sup Finset.univ Finset.univ_nonempty (S k)
  exact ⟨k, Nat.lt_succ_iff.mp (Finset.mem_range.mp hk), c, e1.trans e2⟩

/-- Tiles masked entirely do not move the maximum. -/
theorem M_padding (S : ℕ → κ → EReal) {n n' : ℕ} (hnn : n ≤ n')
    (hpad : ∀ k, n < k → k ≤ n' → ∀ c, S k c = ⊥) : M S n' = M S n := by
  induction n', hnn using Nat.le_induction with
  | base => rfl
  | succ m hm ih =>
    have hb : Finset.univ.sup (S (m + 1)) = ⊥ :=
      (Finset.sup_eq_bot_iff _ _).2 fun c _ => hpad (m + 1) (Nat.lt_succ_of_le hm) le_rfl c
    rw [M_succ, ih fun k h1 h2 => hpad k h1 (Nat.le_succ_of_le h2), hb]
    exact max_eq_left bot_le

end Max

/-! ## One tile, on real numbers -/

section Step

variable {κ : Type*} [Fintype κ]

/-- The tile's plain and weighted sums of terms, read on the extended reals, are real. -/
theorem sum_exp_coe (s : κ → EReal) (hs : ∀ c, s c ≠ ⊤) (μ : ℝ) :
    ∑ c, Ideal.exp (s c - (μ : EReal)) = ((∑ c, term (s c) μ : ℝ) : EReal) := by
  rw [coe_sum]
  exact Finset.sum_congr rfl fun c _ => exp_sub_coe (s c) (hs c) μ

theorem sum_exp_mul_coe (s : κ → EReal) (hs : ∀ c, s c ≠ ⊤) (v : κ → ℝ) (μ : ℝ) :
    ∑ c, Ideal.exp (s c - (μ : EReal)) * (v c : EReal) = ((∑ c, term (s c) μ * v c : ℝ) : EReal) := by
  rw [coe_sum]
  exact Finset.sum_congr rfl fun c _ => by rw [exp_sub_coe (s c) (hs c) μ, EReal.coe_mul]

/-- THE FIRST TILE: from the shift `⊥` the rescaling factor is `exp ⊥ = 0`, the old sums `0` stay `0`,
    and the new statistics are the tile's own. -/
theorem step_bot (s : κ → EReal) (hs : ∀ c, s c ≠ ⊤) (v : κ → ℝ) (μ : ℝ)
    (hμ : Finset.univ.sup s = (μ : EReal)) :
    step s v (⊥, 0, 0)
      = ((μ : EReal), ((∑ c, term (s c) μ : ℝ) : EReal), ((∑ c, term (s c) μ * v c : ℝ) : EReal)) := by
  have hm : max (⊥ : EReal) (Finset.univ.sup s) = (μ : EReal) := by rw [hμ]; exact max_eq_right bot_le
  unfold step
  dsimp only
  rw [hm, EReal.bot_sub, Ideal.exp_bot, mul_zero, zero_add, zero_add, sum_exp_coe s hs μ,
    sum_exp_mul_coe s hs v μ]

/-- A LATER TILE: from real statistics every quantity is real, and the step is the real one. -/
theorem step_coe (s : κ → EReal) (hs : ∀ c, s c ≠ ⊤) (v : κ → ℝ) (μ0 L A μ : ℝ)
    (hμ : max (μ0 : EReal) (Finset.univ.sup s) = (μ : EReal)) :
    step s v ((μ0 : EReal), (L : EReal), (A : EReal))
      = ((μ : EReal), ((Real.exp (μ0 - μ) * L + ∑ c, term (s c) μ : ℝ) : EReal),
          ((Real.exp (μ0 - μ) * A + ∑ c, term (s c) μ * v c : ℝ) : EReal)) := by
  have hα : Ideal.exp ((μ0 : EReal) - (μ : EReal)) = ((Real.exp (μ0 - μ) : ℝ) : EReal) := by
    rw [← EReal.coe_sub]
    rfl
  unfold step
  dsimp only
  rw [hμ, hα, sum_exp_coe s hs μ, sum_exp_mul_coe s hs v μ, ← EReal.coe_mul, ← EReal.coe_mul,
    ← EReal.coe_add, ← EReal.coe_add]

end Step

/-! ## The statistics after tile `n` -/

section Stat

variable {κ : Type*} [Fintype κ]

/-- Rescaling the sum over tiles `0 … n` and adding tile `n + 1`'s terms gives the sum over tiles
    `0 … n + 1` under the new shift; `g` weighs the terms (`1` for the plain sum). -/
theorem sum_rescale_succ (S : ℕ → κ → EReal) (g : ℕ → κ → ℝ) (n : ℕ) (μ0 μ : ℝ) :
    Real.exp (μ0 - μ) * (∑ k ∈ Finset.range (n + 1), ∑ c, term (S k c) μ0 * g k c)
        + ∑ c, term (S (n + 1) c) μ * g (n + 1) c
      = ∑ k ∈ Finset.range (n + 1 + 1), ∑ c, term (S k c) μ * g k c := by
  rw [Finset.sum_range_succ _ (n + 1), Finset.mul_sum]
  congr 1
  refine Finset.sum_congr rfl fun k _ => ?_
  rw [Finset.mul_sum]
  refine Finset.sum_congr rfl fun c _ => ?_
  rw [← mul_assoc, term_rescale]

/-- THE INVARIANT, one statement about the triple: after tile `n`, with `μ` the (real) largest score so
    far, the statistics are `μ`, the sum of all terms under the shift `μ`, and the weighted sum of all terms
    under the shift `μ`. -/
theorem stat_eq (S : ℕ → κ → EReal) (w : ℕ → κ → ℝ) (hS : ∀ k c, S k c ≠ ⊤) (h0 : ∃ c, S 0 c ≠ ⊥)
    (n : ℕ) (μ : ℝ) (hμ : M S n = (μ : EReal)) :
    stat S w n
      = ((μ : EReal), ((∑ k ∈ Finset.range (n + 1), ∑ c, term (S k c) μ : ℝ) : EReal),
          ((∑ k ∈ Finset.range (n + 1), ∑ c, term (S k c) μ * w k c : ℝ) : EReal)) := by
  induction n generalizing μ with
  | zero =>
    rw [stat_zero, step_bot (S 0) (hS 0) (w 0) μ ((M_zero S).symm.trans hμ), Finset.sum_range_one,
      Finset.sum_range_one]
  | succ n ih =>
    obtain ⟨μ0, hμ0⟩ := M_real S hS h0 n
    have hm : max (μ0 : EReal) (Finset.univ.sup (S (n + 1))) = (μ : EReal) := by
      rw [← hμ0, ← M_succ, hμ]
    have h1 := sum_rescale_succ S (fun _ _ => 1) n μ0 μ
    simp only [mul_one] at h1
    rw [stat_succ, ih μ0 hμ0, step_coe (S (n + 1)) (hS (n + 1)) (w (n + 1)) μ0 _ _ μ hm, h1,
      sum_rescale_succ S w n μ0 μ]

end Stat

/-! ## The facts, stated on the extended reals -/

section Facts

variable {κ : Type*} [Fintype κ]

/-- A weighted double sum of terms under a real shift, read on the extended reals, is real. -/
theorem sum_sum_exp_mul_coe (S : ℕ → κ → EReal) (hS : ∀ k c, S k c ≠ ⊤) (g : ℕ → κ → ℝ)
    (s : Finset ℕ) (μ : ℝ) :
    ∑ k ∈ s, ∑ c, Ideal.exp (S k c - (μ : EReal)) * (g k c : EReal)
      = ((∑ k ∈ s, ∑ c, term (S k c) μ * g k c : ℝ) : EReal) := by
  rw [coe_sum]
  exact Finset.sum_congr rfl fun k _ => sum_exp_mul_coe (S k) (hS k) (g k) μ

theorem sum_sum_exp_coe (S : ℕ → κ → EReal) (hS : ∀ k c, S k c ≠ ⊤) (s : Finset ℕ) (μ : ℝ) :
    ∑ k ∈ s, ∑ c, Ideal.exp (S k c - (μ : EReal))
      = ((∑ k ∈ s, ∑ c, term (S k c) μ : ℝ) : EReal) := by
  rw [coe_sum]
  exact Finset.sum_congr rfl fun k _ => sum_exp_coe (S k) (hS k) μ

/-- (1) THE SHIFT after tile `n` is the largest score of tiles `0 … n`. -/
theorem stat_fst (S : ℕ → κ → EReal) (w : ℕ → κ → ℝ) (hS : ∀ k c, S k c ≠ ⊤) (h0 : ∃ c, S 0 c ≠ ⊥)
    (n : ℕ) : (stat S w n).1 = M S n := by
  obtain ⟨μ, hμ⟩ := M_real S hS h0 n
  rw [stat_eq S w hS h0 n μ hμ, hμ]

/-- (2) THE SUM after tile `n` is the sum of `exp (score - largest score)` over every column read. -/
theorem stat_snd (S : ℕ → κ → EReal) (w : ℕ → κ → ℝ) (hS : ∀ k c, S k c ≠ ⊤) (h0 : ∃ c, S 0 c ≠ ⊥)
    (n : ℕ) : (stat S w n).2.1 = ∑ k ∈ Finset.range (n + 1), ∑ c, Ideal.exp (S k c - M S n) := by
  obtain ⟨μ, hμ⟩ := M_real S hS h0 n
  rw [stat_eq S w hS h0 n μ hμ, hμ, sum_sum_exp_coe S hS]

/-- The real sum of all terms under the largest score is at least `1`: the largest score's own term is
    `exp 0`, and no term is negative. -/
theorem one_le_sum_term (S : ℕ → κ → EReal) (h0 : ∃ c, S 0 c ≠ ⊥) (n : ℕ) (μ : ℝ)
    (hμ : M S n = (μ : EReal)) : 1 ≤ ∑ k ∈ Finset.range (n + 1), ∑ c, term (S k c) μ := by
  obtain ⟨k, hk, c, e⟩ := M_attained S h0 n
  have h1 : term (S k c) μ = 1 := by rw [← e, hμ, term_coe, sub_self, Real.exp_zero]
  calc (1 : ℝ) = term (S k c) μ := h1.symm
    _ ≤ ∑ c', term (S k c') μ :=
        Finset.single_le_sum (f := fun c' => term (S k c') μ) (fun c' _ => term_nonneg _ _)
          (Finset.mem_univ c)
    _ ≤ ∑ k' ∈ Finset.range (n + 1), ∑ c', term (S k' c') μ :=
        Finset.single_le_sum (f := fun k' => ∑ c', term (S k' c') μ)
          (fun k' _ => Finset.sum_nonneg fun c' _ => term_nonneg _ _)
          (Finset.mem_range.mpr (Nat.lt_succ_of_le hk))

/-- (2, continued) THE SUM IS A REAL NUMBER, at least `1`. -/
theorem stat_snd_real (S : ℕ → κ → EReal) (w : ℕ → κ → ℝ) (hS : ∀ k c, S k c ≠ ⊤)
    (h0 : ∃ c, S 0 c ≠ ⊥) (n : ℕ) : ∃ L : ℝ, 1 ≤ L ∧ (stat S w n).2.1 = (L : EReal) := by
  obtain ⟨μ, hμ⟩ := M_real S hS h0 n
  exact ⟨_, one_le_sum_term S h0 n μ hμ, by rw [stat_eq S w hS h0 n μ hμ]⟩

/-- (3) THE WEIGHTED SUM after tile `n`. -/
theorem stat_trd (S : ℕ → κ → EReal) (w : ℕ → κ → ℝ) (hS : ∀ k c, S k c ≠ ⊤) (h0 : ∃ c, S 0 c ≠ ⊥)
    (n : ℕ) :
    (stat S w n).2.2 = ∑ k ∈ Finset.range (n + 1), ∑ c, Ideal.exp (S k c - M S n) * (w k c : EReal) := by
  obtain ⟨μ, hμ⟩ := M_real S hS h0 n
  rw [stat_eq S w hS h0 n μ hμ, hμ, sum_sum_exp_mul_coe S hS w]

/-- Dividing one real term by a nonzero real, on the extended reals. -/
theorem div_coe_coe (x L : ℝ) (hL : L ≠ 0) :
    Ideal.div (x : EReal) (L : EReal) = ((x * (1 / L) : ℝ) : EReal) := by
  rw [Ideal.div_coe hL, ← EReal.coe_mul]

/-- (4) THE QUOTIENT of the weighted sum by the sum is the sum of the softmax weights times the values:
    a finite sum of reals is divided by a positive real term by term. -/
theorem stat_quotient (S : ℕ → κ → EReal) (w : ℕ → κ → ℝ) (hS : ∀ k c, S k c ≠ ⊤)
    (h0 : ∃ c, S 0 c ≠ ⊥) (n : ℕ) :
    Ideal.div (stat S w n).2.2 (stat S w n).2.1
      = ∑ k ∈ Finset.range (n + 1), ∑ c,
          Ideal.div (Ideal.exp (S k c - M S n)) ((stat S w n).2.1) * (w k c : EReal) := by
  obtain ⟨μ, hμ⟩ := M_real S hS h0 n
  have hL : (∑ k ∈ Finset.range (n + 1), ∑ c, term (S k c) μ) ≠ 0 :=
    (lt_of_lt_of_le one_pos (one_le_sum_term S h0 n μ hμ)).ne'
  rw [stat_eq S w hS h0 n μ hμ, hμ]
  dsimp only
  generalize (∑ k ∈ Finset.range (n + 1), ∑ c, term (S k c) μ) = L at hL ⊢
  rw [div_coe_coe _ _ hL, Finset.sum_mul, coe_sum]
  refine Finset.sum_congr rfl fun k _ => ?_
  rw [Finset.sum_mul, coe_sum]
  refine Finset.sum_congr rfl fun c _ => ?_
  rw [exp_sub_coe (S k c) (hS k c) μ, div_coe_coe _ _ hL, ← EReal.coe_mul]
  congr 1
  ring

end Facts

/-! ## Tiles masked entirely -/

section Padding

variable {κ : Type*} [Fintype κ]

/-- A sum over tiles `0 … n'` whose terms vanish beyond tile `n` is the sum over tiles `0 … n`. -/
theorem sum_range_padding {α : Type*} [AddCommMonoid α] (f : ℕ → α) {n n' : ℕ} (hnn : n ≤ n')
    (hz : ∀ k, n < k → k ≤ n' → f k = 0) :
    ∑ k ∈ Finset.range (n' + 1), f k = ∑ k ∈ Finset.range (n + 1), f k := by
  symm
  refine Finset.sum_subset (Finset.range_subset_range.mpr (Nat.succ_le_succ hnn)) fun k hk hk' => ?_
  exact hz k (Nat.lt_of_succ_le (not_lt.mp fun h => hk' (Finset.mem_range.mpr h)))
    (Nat.lt_succ_iff.mp (Finset.mem_range.mp hk))

/-- (5) PADDING, the sum: tiles of nothing but masked columns add `exp (⊥ - μ) = 0` each. -/
theorem sum_exp_padding (S : ℕ → κ → EReal) {n n' : ℕ} (hnn : n ≤ n')
    (hpad : ∀ k, n < k → k ≤ n' → ∀ c, S k c = ⊥) :
    ∑ k ∈ Finset.range (n' + 1), ∑ c, Ideal.exp (S k c - M S n')
      = ∑ k ∈ Finset.range (n + 1), ∑ c, Ideal.exp (S k c - M S n) := by
  rw [M_padding S hnn hpad]
  refine sum_range_padding _ hnn fun k h1 h2 => Finset.sum_eq_zero fun c _ => ?_
  rw [hpad k h1 h2 c, EReal.bot_sub, Ideal.exp_bot]

/-- (5) PADDING, the weighted sum: a masked column's term is `0`, times anything `0`. -/
theorem sum_exp_mul_padding (S : ℕ → κ → EReal) (g : ℕ → κ → EReal) {n n' : ℕ} (hnn : n ≤ n')
    (hpad : ∀ k, n < k → k ≤ n' → ∀ c, S k c = ⊥) :
    ∑ k ∈ Finset.range (n' + 1), ∑ c, Ideal.exp (S k c - M S n') * g k c
      = ∑ k ∈ Finset.range (n + 1), ∑ c, Ideal.exp (S k c - M S n) * g k c := by
  rw [M_padding S hnn hpad]
  refine sum_range_padding _ hnn fun k h1 h2 => Finset.sum_eq_zero fun c _ => ?_
  rw [hpad k h1 h2 c, EReal.bot_sub, Ideal.exp_bot, zero_mul]

/-- (5) PADDING, the softmax-weighted sum, for any nonzero divisor: `0 / l = 0`. -/
theorem sum_div_padding (S : ℕ → κ → EReal) (g : ℕ → κ → EReal) (l : EReal) (hl : l ≠ 0) {n n' : ℕ}
    (hnn : n ≤ n') (hpad : ∀ k, n < k → k ≤ n' → ∀ c, S k c = ⊥) :
    ∑ k ∈ Finset.range (n' + 1), ∑ c, Ideal.div (Ideal.exp (S k c - M S n')) l * g k c
      = ∑ k ∈ Finset.range (n + 1), ∑ c, Ideal.div (Ideal.exp (S k c - M S n)) l * g k c := by
  rw [M_padding S hnn hpad]
  refine sum_range_padding _ hnn fun k h1 h2 => Finset.sum_eq_zero fun c _ => ?_
  rw [hpad k h1 h2 c, EReal.bot_sub, Ideal.exp_bot, Ideal.div, if_neg hl, zero_mul, zero_mul]

/-- (5) PADDING, the statistics themselves: tiles masked entirely leave the triple as it was. -/
theorem stat_padding (S : ℕ → κ → EReal) (w : ℕ → κ → ℝ) (hS : ∀ k c, S k c ≠ ⊤)
    (h0 : ∃ c, S 0 c ≠ ⊥) {n n' : ℕ} (hnn : n ≤ n')
    (hpad : ∀ k, n < k → k ≤ n' → ∀ c, S k c = ⊥) : stat S w n' = stat S w n := by
  obtain ⟨μ, hμ⟩ := M_real S hS h0 n
  have h1 : ∑ k ∈ Finset.range (n' + 1), ∑ c, term (S k c) μ
      = ∑ k ∈ Finset.range (n + 1), ∑ c, term (S k c) μ :=
    sum_range_padding _ hnn fun k h1 h2 => Finset.sum_eq_zero fun c _ => by
      rw [hpad k h1 h2 c, term_bot]
  have h2 : ∑ k ∈ Finset.range (n' + 1), ∑ c, term (S k c) μ * w k c
      = ∑ k ∈ Finset.range (n + 1), ∑ c, term (S k c) μ * w k c :=
    sum_range_padding _ hnn fun k h1 h2 => Finset.sum_eq_zero fun c _ => by
      rw [hpad k h1 h2 c, term_bot, zero_mul]
  rw [stat_eq S w hS h0 n' μ ((M_padding S hnn hpad).trans hμ), stat_eq S w hS h0 n μ hμ, h1, h2]

/-- (5) PADDING, the quotient's right-hand side with each tile count's own sum as divisor. -/
theorem sum_div_stat_padding (S : ℕ → κ → EReal) (w : ℕ → κ → ℝ) (hS : ∀ k c, S k c ≠ ⊤)
    (h0 : ∃ c, S 0 c ≠ ⊥) {n n' : ℕ} (hnn : n ≤ n')
    (hpad : ∀ k, n < k → k ≤ n' → ∀ c, S k c = ⊥) :
    ∑ k ∈ Finset.range (n' + 1), ∑ c,
        Ideal.div (Ideal.exp (S k c - M S n')) ((stat S w n').2.1) * (w k c : EReal)
      = ∑ k ∈ Finset.range (n + 1), ∑ c,
        Ideal.div (Ideal.exp (S k c - M S n)) ((stat S w n).2.1) * (w k c : EReal) := by
  obtain ⟨L, hL1, hL⟩ := stat_snd_real S w hS h0 n
  have hl : (stat S w n).2.1 ≠ 0 := by
    rw [hL]
    exact_mod_cast (lt_of_lt_of_le one_pos hL1).ne'
  rw [stat_padding S w hS h0 hnn hpad]
  exact sum_div_padding S (fun k c => (w k c : EReal)) _ hl hnn hpad

end Padding

end ProofLib.TiledSoftmax

end
-- ==== Proof.Spec.lean ====
/-
  The mathematics both programs compute, stated once over plain index types.

  Two batches of 4096 rows of 128 numbers are stacked into 8192 rows.  Every row is divided by its
  Euclidean length (floored at a small constant), and the score of a pair of rows is their inner product
  times two — or, said the other way, divided by one half.  A row's own score is masked to the bottom of the
  extended reals.  Row `r` is paired with row `r ± 4096`; its result is the logarithm of the softmax weight
  of that partner among the row's scores, and the loss is minus the mean of the 8192 results.

  The logarithm of the softmax weight is written in two ways: with the row's largest score and the sum of
  the exponentials over all 8192 columns at once (`rowWhole`), and with the same two numbers accumulated
  over 16 tiles of 512 columns, rescaling the running sum whenever the running maximum grows (`rowTiled`,
  over `ProofLib.TiledSoftmax.stat`).
-/
import Idealize.ShloMosaic.PureOps.Ideal
import proofs.«129541_j23081154249195_1_alg».proof.Proof.LibTiledSoftmax

noncomputable section

namespace NtXent

open Idealize.ShloMosaic

/-- The floor of a row's length, the factor two, the divisor one half and the row count, each the exact value of
    its 32-bit pattern. -/
def eps : EReal := Ideal.ofBits .f32 0x322BCC77#32
def two : EReal := Ideal.ofBits .f32 0x40000000#32
def half : EReal := Ideal.ofBits .f32 0x3F000000#32
def cnt : EReal := Ideal.ofBits .f32 0x46000000#32

/-- The two batches stacked: rows 0 … 4095 are the first batch, rows 4096 … 8191 the second. -/
def stack (a b : Fin 4096 → Fin 128 → EReal) (r : Fin 8192) (d : Fin 128) : EReal :=
  if h : r.val < 4096 then a ⟨r.val, h⟩ d else b ⟨r.val - 4096, by omega⟩ d

/-- A row's sum of squares, its floored length, and the row divided by it. -/
def sq (z : Fin 8192 → Fin 128 → EReal) (r : Fin 8192) : EReal := ∑ d, z r d * z r d
def nrm (z : Fin 8192 → Fin 128 → EReal) (r : Fin 8192) : EReal := max (Ideal.sqrt (sq z r)) eps
def zn (z : Fin 8192 → Fin 128 → EReal) (r : Fin 8192) (d : Fin 128) : EReal := Ideal.div (z r d) (nrm z r)

/-- The inner product of two rows. -/
def dot (y : Fin 8192 → Fin 128 → EReal) (r c : Fin 8192) : EReal := ∑ d, y r d * y c d

/-- The masked scores, the inner product scaled by the product with two … -/
def simMul (y : Fin 8192 → Fin 128 → EReal) (r c : Fin 8192) : EReal := if r = c then ⊥ else dot y r c * two
/-- … or by the quotient by one half. -/
def simDiv (y : Fin 8192 → Fin 128 → EReal) (r c : Fin 8192) : EReal := if r = c then ⊥ else Ideal.div (dot y r c) half

/-- Row `r`'s partner. -/
def partner (r : Fin 8192) : Fin 8192 := ⟨(r.val + 4096) % 8192, Nat.mod_lt _ (by norm_num)⟩

/-- Column `j` of tile `k`. -/
def col (k : Fin 16) (j : Fin 512) : Fin 8192 := ⟨512 * k.val + j.val, by omega⟩

/-- The log-softmax of the partner's score in a row of scores `s`, over the whole row: shifted by the largest score. -/
def rowWhole (s : Fin 8192 → EReal) (p : Fin 8192) : EReal :=
  (s p - Finset.univ.sup s) - Ideal.log (∑ c, Ideal.exp (s c - Finset.univ.sup s))

/-- The scores of a row cut into tiles of 512 columns (tiles past the sixteenth are all masked). -/
def tiles (s : Fin 8192 → EReal) (k : ℕ) (j : Fin 512) : EReal :=
  if h : k < 16 then s (col ⟨k, h⟩ j) else ⊥

/-- The same number from the statistics accumulated over the sixteen tiles: the partner's score minus
    (running maximum + log of the running sum). -/
def rowTiled (s : Fin 8192 → EReal) (p : Fin 8192) : EReal :=
  s p - ((ProofLib.TiledSoftmax.stat (tiles s) (fun _ _ => 0) 15).1
          + Ideal.log (ProofLib.TiledSoftmax.stat (tiles s) (fun _ _ => 0) 15).2.1)

/-- Minus the mean of the 8192 row results. -/
def loss (rows : Fin 8192 → EReal) : EReal := -(Ideal.div (∑ r, rows r) cnt)

/-- What the tiled program computes from the two batches … -/
def lossTiled (a b : Fin 4096 → Fin 128 → EReal) : EReal :=
  loss fun r => rowTiled (simMul (zn (stack a b)) r) (partner r)
/-- … and what the whole-matrix program computes. -/
def lossWhole (a b : Fin 4096 → Fin 128 → EReal) : EReal :=
  loss fun r => rowWhole (simDiv (zn (stack a b)) r) (partner r)

end NtXent

end
-- ==== Proof.KiHost.lean ====
/-
  The tiled program's host operations, read at an entry.

  Before its two kernels the program stacks the two batches: the stacked array at row r is the first batch's row r below
  4096 and the second batch's row r − 4096 from there on.  After them it takes minus the mean of the 8192 row results:
  the sum over the [8192, 1] array from the value of the pattern of 0.0 (which is 0) is the sum over the rows; it is
  divided by the row count and negated.
-/
import proofs.«129541_j23081154249195_1_alg».proof.Proof.Gen.KernelIdeal.Launch
import proofs.«129541_j23081154249195_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx Idealize.ShloMosaic.StableHlo

/-- Two [4096, 128] arrays joined along the rows, at (r, d): the stack of the two. -/
theorem concat_stack (h : Shape.Concatenates [S4096x128, S4096x128] S8192x128 0)
    (x0 x1 : S4096x128.Idx → EReal) (r : Fin 8192) (d : Fin 128) :
    concatenate S8192x128 0 [⟨S4096x128, x0⟩, ⟨S4096x128, x1⟩] h (ix2 r d)
      = NtXent.stack (fun r d => x0 (ix2 r d)) (fun r d => x1 (ix2 r d)) r d := by
  unfold NtXent.stack
  by_cases hr : r.val < 4096
  · rw [dif_pos hr]
    exact concatenate_pair_apply_left (0 : Fin S8192x128.rank) x0 x1 h (ix2 r d) rfl (ix2 ⟨r.val, hr⟩ d)
      (fun b => by match b with | ⟨0, _⟩ => rfl | ⟨1, _⟩ => rfl)
  · rw [dif_neg hr]
    exact concatenate_pair_apply_right (0 : Fin S8192x128.rank) x0 x1 h (ix2 r d) rfl rfl (ix2 ⟨r.val - 4096, by omega⟩ d)
      (fun b hb => by match b with | ⟨0, _⟩ => exact absurd rfl hb | ⟨1, _⟩ => rfl)
      (by show (r.val - 4096) + 4096 = r.val; omega)

/-- What the operation before the kernels leaves in main_v0: the two argument arrays stacked. -/
theorem head_value (W : Valuation τ sig (Elt Ideal)) :
    StableHlo.after (hostOps0 (F := Ideal)) W (Proc.devRef .tc main_v0)
      = fun j : S8192x128.Idx => NtXent.stack (fun r d => W (Proc.devRef .tc main_arg0) (ix2 r d))
          (fun r d => W (Proc.devRef .tc main_arg1) (ix2 r d)) (j 0) (j 1) := by
  have h : StableHlo.after (hostOps0 (F := Ideal)) W (Proc.devRef .tc main_v0)
      = concatenate S8192x128 0 [⟨S4096x128, W (Proc.devRef .tc main_arg0)⟩, ⟨S4096x128, W (Proc.devRef .tc main_arg1)⟩]
          concatenates_S4096x128_S4096x128_S8192x128_d0 := by
    after_results <;> rfl
  rw [h]
  funext j
  exact (congrArg (concatenate S8192x128 0 [⟨S4096x128, W (Proc.devRef .tc main_arg0)⟩, ⟨S4096x128, W (Proc.devRef .tc main_arg1)⟩]
      concatenates_S4096x128_S4096x128_S8192x128_d0) (eq_ix2 j)).trans
    (concat_stack _ (W (Proc.devRef .tc main_arg0)) (W (Proc.devRef .tc main_arg1)) (j 0) (j 1))

/-- Minus the mean of an [8192, 1] array, as the operations after the kernels take it. -/
theorem tail_apply (y : (⟨S8192x1, .f32⟩ : BufTy).Contents (Elt Ideal)) (i : S_.Idx) :
    Host.negf (Host.divf (Host.reduceAdd y (constant (F := Ideal) S_ .f32 0x00000000#32) reducesTo_S8192x1_S_d0_1 h_S_)
        (constant (F := Ideal) S_ .f32 0x46000000#32)) i
      = NtXent.loss (fun r => y (ix2 r (0 : Fin 1))) := by
  have hsum : Host.reduceAdd y (constant (F := Ideal) S_ .f32 0x00000000#32) reducesTo_S8192x1_S_d0_1 h_S_ i
      = ∑ r : Fin 8192, y (ix2 r (0 : Fin 1)) := by
    simp only [Host.reduceAdd, Ideal.hostReduceAdd_def]
    rw [Ideal.hostReduceAdd_total reducesTo_S8192x1_S_d0_1 (fun b => b.elim0) y _ i, constant_apply,
      Ideal.ofBits_zero_f32, zero_add, sum_idx2]
    exact Finset.sum_congr rfl fun r _ => Fin.sum_univ_one _
  show -(Ideal.div (Host.reduceAdd y (constant (F := Ideal) S_ .f32 0x00000000#32) reducesTo_S8192x1_S_d0_1 h_S_ i)
      (Ideal.ofBits .f32 0x46000000#32)) = _
  rw [hsum]
  rfl

/-- What the operations after the kernels leave in main_v5: minus the mean of main_v2's 8192 entries. -/
theorem tail_value (W : Valuation τ sig (Elt Ideal)) :
    StableHlo.after (hostOps2 (F := Ideal)) W (Proc.devRef .tc main_v5)
      = fun _ => NtXent.loss (fun r => W (Proc.devRef .tc main_v2) (ix2 r (0 : Fin 1))) := by
  have h : StableHlo.after (hostOps2 (F := Ideal)) W (Proc.devRef .tc main_v5)
      = Host.negf (Host.divf (Host.reduceAdd (W (Proc.devRef .tc main_v2)) (constant (F := Ideal) S_ .f32 0x00000000#32)
          reducesTo_S8192x1_S_d0_1 h_S_) (constant (F := Ideal) S_ .f32 0x46000000#32)) := by
    after_results <;> rfl
  rw [h]
  funext i
  exact tail_apply (W (Proc.devRef .tc main_v2)) i

end Cert.KernelIdeal.Hand

end
-- ==== Proof.KiFinite.lean ====
/-
  What the precondition says of the two argument arrays: every entry is a real number.

  The precondition is the conjunction, over the two arrays, of "every entry's absolute value is below +∞".  An "all"
  that holds gives its statement at every index; an extended real whose absolute value is below the top element is
  neither the top nor the bottom element, so it is a real number.
-/
import proofs.«129541_j23081154249195_1_alg».proof.Defs
import Idealize.ShloMosaic.Lib.ReduceAll
import Idealize.ShloMosaic.Lib.ValueIdx

noncomputable section

namespace Cert.KernelIdeal.Hand

open Cert.KernelIdeal Idealize.ShloMosaic Idealize.ShloMosaic.ValueIdx Idealize.ShloMosaic.TcCoe Idealize.SL.Sem

/-- The scalar shape has one index. -/
instance : Subsingleton Cert.Pre_finite_inputs.S_.Idx := ⟨fun a b => funext fun d => d.elim0⟩

/-- The pattern of +∞ is the top element. -/
theorem ofBits_pos_inf : Ideal.ofBits .f32 0x7F800000#32 = ⊤ := by simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = (r : EReal) := by
  rw [ofBits_pos_inf] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x using EReal.rec with
  | bot => exact absurd hlt (by simp)
  | coe r => exact ⟨r, rfl⟩
  | top => exact absurd hlt (by simp)

/-- Under the precondition every entry of the two argument arrays is a real number. -/
theorem finite_of_pre [hP : Cert.Pre_finite_inputs.Facts] (m : (ℓ : Loc nD τ sig) → Buf (Elt Ideal) ℓ)
    (h : Cert.Pre_KernelIdeal m) (c : Dev nD) :
    (∀ (r : Fin 4096) (d : Fin 128), ∃ x : ℝ, m ((c.tc : Thread nD τ).loc main_arg0) (ix2 r d) = (x : EReal))
      ∧ (∀ (r : Fin 4096) (d : Fin 128), ∃ x : ℝ, m ((c.tc : Thread nD τ).loc main_arg1) (ix2 r d) = (x : EReal)) := by
  have h1 := congrFun (h c) ix0
  dsimp only [Cert.Pre_finite_inputs.fn] at h1
  obtain ⟨ha, hb⟩ := IntOp.andi_eq_one.mp h1
  refine ⟨fun r d => ?_, fun r d => ?_⟩
  · exact real_of_abs_lt_inf _ (Host.reduce_andi_all _ _ _ _ _ ha (ix2 r d))
  · exact real_of_abs_lt_inf _ (Host.reduce_andi_all _ _ _ _ _ hb (ix2 r d))

end Cert.KernelIdeal.Hand

end
-- ==== Proof.LibColumnForms.lean ====
/-
  Keepdims column forms read at an index given by coordinates: a vector `[a]` cast to the column `[a, 1]`, a column
  `[a, 1]` cast to the row `[1, a]`, and a column `[a, 1]` broadcast along the lanes to `[a, b]`. Each is the
  library's general lemma for the operation (a shape cast keeps the row-major position; a broadcast reads `0` on the
  operand's unit axes) with both indices written by coordinates, so that it applies to a printed operation by
  unification.
  Two more readings at the extended reals close the file: a lane sum of a matrix into the zero word is, at row `r`, the sum of
  that row's entries; and a square root of a vector is taken element by element.
-/
import Idealize.ShloMosaic.Lib.ValueIdx
import Idealize.ShloMosaic.Lib.Pipeline.Value
import Idealize.ShloMosaic.Lib.ValueLayout
import Idealize.ShloMosaic.PureOps.Ideal.Laws

open scoped BigOperators

namespace Cert.ColumnForms

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the operand at `(i, 0)`. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along the lanes to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A lane sum and a square root at the extended reals -/

/-- A binary32 `add` reduction of an `[a, b]` matrix over its lanes, from the zero word, reads at row `r` the sum of the
    row's `b` entries. The accumulator's side condition is taken as the equation between the two zero words that a
    printed operation carries. -/
theorem multiReduction_add_lanes_f32 {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun c => Fin.ext ?_)
  match c with
  | ⟨0, _⟩ => rfl
  | ⟨1, _⟩ => rfl

/-- A square root of a vector at an index is the extended reals' square root of the element. -/
theorem sqrt_apply {s : Shape} {φ : FTy} (x : FVec Ideal s φ) (i : s.Idx) :
    Idealize.ShloMosaic.sqrt x i = Ideal.sqrt (x i) := rfl

end Cert.ColumnForms
-- ==== Proof.KiValue0.lean ====
/-
  The value of the first kernel region at the extended reals: each block of 2048 rows, read at a row and a
  lane, is the row's entry divided by the larger of the square root of the row's sum of squares and the floor;
  hence the output array, row by row, is the normalized input array.
-/
import proofs.«129541_j23081154249195_1_alg».proof.Proof.KiRegion0
import proofs.«129541_j23081154249195_1_alg».proof.Proof.Spec
import proofs.«129541_j23081154249195_1_alg».proof.Proof.LibColumnForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The whole-block rectangle's offsets are zero. -/
theorem hz0 : (![0, 0] : Fin 2 → Nat) = fun _ => 0 := funext fun a => by fin_cases a <;> rfl

/-- THE BLOCK AT A ROW AND A LANE: the entry divided by the larger of the square root of the row's sum of
    squares and the floor. -/
theorem out0_1_apply (x0 : Vec Ideal S2048x128 .f32) (p : Fin 2048) (q : Fin 128) :
    out0_1 (F := Ideal) x0 (ix2 p q)
      = Ideal.div (x0 (ix2 p q)) (max (Ideal.sqrt (∑ d : Fin 128, x0 (ix2 p d) * x0 (ix2 p d))) NtXent.eps) := by
  unfold out0_1
  rw [View.canon_unit_zero hz0]
  simp only [View.ld_unit_zero (S := S2048x128) hz0]
  unfold k0_pay1
  simp only [shapeCast_self]
  show Ideal.div (x0 (ix2 p q)) (broadcastTo S2048x128 _ broadcasts_S2048x1_S2048x128 (ix2 p q)) = _
  refine congrArg (Ideal.div (x0 (ix2 p q))) ?_
  refine (Cert.ColumnForms.broadcastTo_a1_ab_apply _ _ p q).trans ?_
  show max (Ideal.sqrt (shapeCast S2048x1 _ shapeCasts_S2048_S2048x1 (ix2 p (0 : Fin 1)))) NtXent.eps = _
  refine congrArg (fun y => max (Ideal.sqrt y) NtXent.eps) ?_
  refine (Cert.ColumnForms.shapeCast_a_a1_apply _ _ p 0).trans ?_
  refine (Cert.ColumnForms.multiReduction_add_lanes_f32 _ _ _ _ p).trans ?_
  rfl

section Final

variable (V : (c : Dev nD) → (b : Ref sig .tc) → Buf (Elt Ideal) ((c : Thread nD τ).loc b))

/-- The printed index maps, decided over the four grid points: both windows sit at block row `t`, block column `0`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Every block row of the output is some point's. -/
theorem idx_onto0 : ∀ q0 : Fin 4, ∃ t : Fin cfg0.N, win0_1.index t = ![q0.val, 0] :=
  (by decide +kernel : ∀ q0 : Fin 4, ∃ t : Fin grid0.N, win0_1.index t = ![q0.val, 0])

/-- The input window's block at point `t` is rows `2048 t … 2048 t + 2047` of the input array. -/
theorem iblk0_apply (c : Dev nD) (t : Fin cfg0.N) (p : Fin 2048) (d : Fin 128) (k : S8192x128.Idx)
    (hk0 : (k 0).val = 2048 * t.val + p.val) (hk1 : (k 1).val = d.val) :
    (iblk0 V c 0 t : Vec Ideal S2048x128 .f32) (ix2 p d) = (V c main_v0 : S8192x128.Idx → Elt Ideal .f32) k := by
  obtain ⟨e0, e1, -, -⟩ := idx_facts0 t
  unfold iblk0
  rw [View.read_apply]
  show V c main_v0 _ = V c main_v0 _
  congr 1
  funext a
  apply Fin.ext
  match a with
  | ⟨0, _⟩ => show win0_0.index t 0 * 2048 + 1 * p.val = (k 0).val; rw [e0, hk0]; omega
  | ⟨1, _⟩ => show win0_0.index t 1 * 128 + 1 * d.val = (k 1).val; rw [e1, hk1]; omega

/-- The output array where every row is normalized. -/
abbrev G0 (A : S8192x128.Idx → Elt Ideal .f32) : S8192x128.Idx → Elt Ideal .bf16 :=
  fun j => NtXent.zn (fun r d => A (ix2 r d)) (j 0) (j 1)

/-- The normalized array at a row and a lane. -/
theorem G0_apply (A : S8192x128.Idx → Elt Ideal .f32) (r : Fin 8192) (q : Fin 128) :
    G0 A (ix2 r q) = Ideal.div (A (ix2 r q)) (max (Ideal.sqrt (∑ d : Fin 128, A (ix2 r d) * A (ix2 r d))) NtXent.eps) := rfl

/-- WHAT POINT `t` WRITES BACK is block `t` of the normalized array. -/
theorem flushed0_1_eq (c : Dev nD) (t : Fin cfg0.N) :
    (dat0 (F := Ideal) V c).flushed 1 t = ((cfg0.win 1).blk t).view.read (Elt Ideal) (G0 (V c main_v0)) := by
  show (cfg0.win 1).cut (grid0.coords t) ((dat0 V c).after 1 t) = _
  rw [after0_1]
  obtain ⟨-, -, e2, e3⟩ := idx_facts0 t
  funext j
  obtain ⟨p, q, rfl⟩ : ∃ (p : Fin 2048) (q : Fin 128), j = ix2 p q := ⟨j 0, j 1, eq_ix2 j⟩
  show out0_1 (iblk0 V c 0 t) (ix2 p q) = G0 (V c main_v0) (((cfg0.win 1).blk t).view.emb (ix2 p q))
  have hr : ((((cfg0.win 1).blk t).view.emb (ix2 p q)) 0).val = 2048 * t.val + p.val := by
    show win0_1.index t 0 * 2048 + 1 * p.val = _
    rw [e2]; omega
  have hq : ((((cfg0.win 1).blk t).view.emb (ix2 p q)) 1).val = q.val := by
    show win0_1.index t 1 * 128 + 1 * q.val = _
    rw [e3]; omega
  generalize ((cfg0.win 1).blk t).view.emb (ix2 p q) = i at hr hq ⊢
  obtain ⟨r, q', rfl⟩ : ∃ (r : Fin 8192) (q' : Fin 128), i = ix2 r q' := ⟨i 0, i 1, eq_ix2 i⟩
  have hr' : r.val = 2048 * t.val + p.val := hr
  have hq' : q'.val = q.val := hq
  rw [out0_1_apply, iblk0_apply V c t p q (ix2 r q') hr' hq']
  refine Eq.trans ?_ (G0_apply (V c main_v0) r q').symm
  refine congrArg (fun y => Ideal.div (V c main_v0 (ix2 r q')) (max (Ideal.sqrt y) NtXent.eps)) ?_
  exact Finset.sum_congr rfl fun d _ => by rw [iblk0_apply V c t p d (ix2 r d) hr' rfl]

/-- An index of the array is in point `t`'s block iff each coordinate is in the block's range on its axis. -/
theorem mem_blk0_1 (t : Fin cfg0.N) (i : S8192x128.Idx) :
    i ∈ ((cfg0.win 1).blk t).view.set ↔ ∀ a : Fin 2, win0_1.index t a * S2048x128.size a ≤ (i a).val
      ∧ (i a).val < win0_1.index t a * S2048x128.size a + S2048x128.size a := by
  show i ∈ ((View.whole main_v1).slice (win0_1.rect t)).set ↔ _
  rw [View.set_slice_whole, Rect.mem_set_unit]
  exact Iff.rfl

/-- Every index of the output array is in some point's block: row `r` in that of point `r / 2048`. -/
theorem covered0_1 (i : S8192x128.Idx) :
    ∃ t : Fin cfg0.N, (cfg0.win 1).flush t = true ∧ i ∈ ((cfg0.win 1).blk t).view.set := by
  have hi0 : (i 0).val < 8192 := (i 0).isLt
  have hi1 : (i 1).val < 128 := (i 1).isLt
  obtain ⟨t, ht⟩ := idx_onto0 ⟨(i 0).val / 2048, by omega⟩
  have q0 : win0_1.index t (0 : Fin 2) = (i 0).val / 2048 := congrFun ht 0
  have q1 : win0_1.index t (1 : Fin 2) = 0 := congrFun ht 1
  refine ⟨t, flush0_1 t, ?_⟩
  rw [mem_blk0_1]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 128 ≤ (i 1).val ∧ (i 1).val < win0_1.index t (1 : Fin 2) * 128 + 128; omega

/-- THE OUTPUT ARRAY after the region: the input array with every row normalized. -/
theorem arr0_final (c : Dev nD) :
    (dat0 (F := Ideal) V c).arrAt 1 cfg0.N
      = fun j : S8192x128.Idx => NtXent.zn (fun r d => V c main_v0 (ix2 r d)) (j 0) (j 1) :=
  (dat0 V c).arrAt_eq_of_cover 1 (G0 (V c main_v0)) (fun t _ => flushed0_1_eq V c t) covered0_1

/-- THE INPUT ARRAY after the region is as the region found it. -/
theorem arr0_in (c : Dev nD) : (dat0 (F := Ideal) V c).arrAt 0 cfg0.N = V c main_v0 :=
  ((dat0 V c).arrAt_in 0 rfl _).trans (A_eq0 V c 0)

end Final

end Cert.KernelIdeal.Hand

end
-- ==== Proof.LibRank2.lean ====
/-
  Rank-2 arrays read at coordinates, over the extended reals, for any extents.

  * A sum or a maximum over one axis of an [a, b] array, read at the kept coordinate: summing (or folding max
    over) the last axis at row i ranges over the entries (i, k); over the first axis at column j, over (k, j).
  * The matrix product contracted over the SECOND axis of both operands, [M, K] × [N, K] → [M, N]
    (entry (r, n) = ∑ k, l (r, k) · r (n, k)), and over the FIRST axis of both, [K, M] × [K, N] → [M, N]
    (entry (r, n) = ∑ k, l (k, r) · r (k, n)), each into an accumulator that is zero everywhere.
  * Shape casts that only insert unit axes keep the one varying coordinate: [a] → [1, 1, a].
-/
import Idealize.ShloMosaic.PureOps.Ideal.Laws
import Idealize.ShloMosaic.Lib.ValueIdx
import Idealize.ShloMosaic.Lib.Pipeline.Value

noncomputable section

namespace Cert.LibRank2

open Idealize.ShloMosaic Idealize.ShloMosaic.ValueIdx

variable {a b : ℕ} {φ : FTy}

/-! ## One-axis reductions -/

/-- Putting coordinate `k` back on the last axis of row `i` gives the entry (i, k). -/
theorem lift_last (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- Putting coordinate `k` back on the first axis of column `j` gives the entry (k, j). -/
theorem lift_first (h : (⟨2, ![a, b]⟩ : Shape).Reduces [0] ⟨1, ![b]⟩) (j : Fin b) (k : Fin a) :
    h.lift (ix1 j) k = ix2 k j :=
  funext fun d => Fin.ext (by match d with | ⟨0, _⟩ => rfl | ⟨1, _⟩ => rfl)

/-- The sum over the last axis, at row `i`. -/
theorem sum_last (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last h i k))

/-- The sum over the first axis, at column `j`. -/
theorem sum_first (src : FVec Ideal ⟨2, ![a, b]⟩ φ) (acc : BitVec φ.bits) (h : (⟨2, ![a, b]⟩ : Shape).Reduces [0] ⟨1, ![b]⟩)
    (hφ : FKind.Formats φ) (hacc : acc = FKind.add.neutral φ hφ) (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift_first h j k))

/-- The maximum over the last axis, at row `i`: the fold of max from the accumulator's value. -/
theorem max_last (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) fun k => src (ix2 i k) :=
  (Ideal.multiReduction_maximumf_single src acc h hφ hacc (ix1 i)).trans
    (congrArg ((Finset.univ : Finset (Fin b)).fold max (Ideal.ofBits φ acc)) (funext fun k => congrArg src (lift_last h i k)))

/-- The maximum over the first axis, at column `j`. -/
theorem max_first (src : FVec Ideal ⟨2, ![a, b]⟩ φ) (acc : BitVec φ.bits) (h : (⟨2, ![a, b]⟩ : Shape).Reduces [0] ⟨1, ![b]⟩)
    (hφ : FKind.Formats φ) (hacc : acc = FKind.maximumf.neutral φ hφ) (j : Fin b) :
    multiReduction .maximumf [0] ⟨1, ![b]⟩ src acc h hφ hacc (ix1 j)
      = (Finset.univ : Finset (Fin a)).fold max (Ideal.ofBits φ acc) fun k => src (ix2 k j) :=
  (Ideal.multiReduction_maximumf_single src acc h hφ hacc (ix1 j)).trans
    (congrArg ((Finset.univ : Finset (Fin a)).fold max (Ideal.ofBits φ acc)) (funext fun k => congrArg src (lift_first h j k)))

/-! ## Two transposed matrix products -/

section dots
variable {M K N : ℕ}

theorem rhsT_rank : (DotDims.transposedRhs M K N).contr.rank = 1 := rfl
theorem rhsT_size : (DotDims.transposedRhs M K N).contr.size ⟨0, by rw [rhsT_rank]; exact Nat.one_pos⟩ = K := rfl

/-- The left operand is read in the result's row … -/
theorem rhsT_lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
/-- … and the right operand in the row numbered by the result's column. -/
theorem rhsT_rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- [M, K] × [N, K] → [M, N], contracted over the second axis of both: entry (r, n) is ∑ k, l (r, k) · r (n, k). -/
theorem matmul_rhsT_zero_apply {φ₁ φ₂ : FTy} (prec : Option ContractPrecision)
    (l : FVec Ideal ⟨2, ![M, K]⟩ φ₁) (r : FVec Ideal ⟨2, ![N, K]⟩ φ₂) (p : Fin M) (n : Fin N) :
    FloatOps.matmul (DotDims.transposedRhs M K N) prec l r (constant ⟨2, ![M, N]⟩ .f32 0x00000000#32) (ix2 p n)
      = ∑ k : Fin K, l (ix2 p k) * r (ix2 n k) := by
  refine (Ideal.matmul_constant_zero_apply (DotDims.transposedRhs M K N) prec l r (ix2 p n)).trans ?_
  rw [← Equiv.sum_comp (contrEquiv1 (DotDims.transposedRhs M K N) K rhsT_rank rhsT_size).symm]
  refine Finset.sum_congr rfl fun k _ => ?_
  have hk := contrEquiv1_symm_val (DotDims.transposedRhs M K N) K rhsT_rank rhsT_size k
  have el : (DotDims.transposedRhs M K N).lhsIdx (ix2 p n) ((contrEquiv1 (DotDims.transposedRhs M K N) K rhsT_rank rhsT_size).symm k) = ix2 p k :=
    funext fun d => Fin.ext (by
      match d with
      | ⟨0, _⟩ => exact rhsT_lhs_row _ _
      | ⟨1, _⟩ => exact ((DotDims.transposedRhs M K N).lhsIdx_val_of_single rfl (ix2 p n) _).trans hk)
  have er : (DotDims.transposedRhs M K N).rhsIdx (ix2 p n) ((contrEquiv1 (DotDims.transposedRhs M K N) K rhsT_rank rhsT_size).symm k) = ix2 n k :=
    funext fun d => Fin.ext (by
      match d with
      | ⟨0, _⟩ => exact rhsT_rhs_row _ _
      | ⟨1, _⟩ => exact ((DotDims.transposedRhs M K N).rhsIdx_val_of_single rfl (ix2 p n) _).trans hk)
  exact congrArg₂ (· * ·) (congrArg l el) (congrArg r er)

end dots

/-! ## Contracted over the first axis of both operands -/

section lhsT
variable {M K N : ℕ}

/-- [K, M] × [K, N] → [M, N], contracted over the first axis of both: entry (r, n) is ∑ k, l (k, r) · r (k, n).
    Stated for any dimension record with these axis lists. -/
theorem matmul_lhsT_zero_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision)
    (l : FVec Ideal ⟨2, ![K, M]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 k p) * r (ix2 k n) := by
  obtain ⟨lc, rc, ln, rn, lb, rb, wf⟩ := d
  dsimp only at h1 h2 h3 h4 h5 h6
  subst h1 h2 h3 h4 h5 h6
  generalize hd : (⟨[0], [0], [1], [1], [], [], wf⟩ : DotDims ⟨2, ![K, M]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [0] := by subst hd; rfl
  have hrc : d.rhsContracting = [0] := by subst hd; rfl
  have lrow : ∀ (j : (⟨2, ![M, N]⟩ : Shape).Idx) (q : d.contr.Idx), (d.lhsIdx j q 1).val = (j 0).val := by
    intro j q; subst hd
    unfold DotDims.lhsIdx
    rw [dif_neg (show ¬(1 : Fin 2) ∈ ([] : List (Fin 2)) from List.not_mem_nil),
      dif_pos (show (1 : Fin 2) ∈ ([1] : List (Fin 2)) from List.mem_singleton.mpr rfl)]
    rfl
  have rrow : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 k p :=
    funext fun a => Fin.ext (by
      match a with
      | ⟨0, _⟩ => exact (d.lhsIdx_val_of_single hlc (ix2 p n) _).trans hk
      | ⟨1, _⟩ => exact lrow _ _)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rrow _ _)
  exact congrArg₂ (· * ·) (congrArg l el) (congrArg r er)

end lhsT

/-! ## Unit axes in front of a vector -/

/-- An `[a]` array cast to `[1, 1, a]` reads, at `(u, v, i)`, the operand at `i`. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

end Cert.LibRank2

end
-- ==== Proof.KiValue1a.lean ====
/-
  The arithmetic of the second kernel region at the extended reals, read at an index.

  A point of the grid holds a tile of 512 rows (row tile `i 0`) against 512 columns (column tile `i 1`).  Its
  scores are the inner products of the rows of the two blocks times two, with the entry whose global row
  `512 (i 0) + a` is its global column `512 (i 1) + j` masked to the bottom of the extended reals; the row maxima of
  the tile are suprema over its 512 columns; the local diagonal picks the score `(a, a)`; and the stores into the
  three running statistics are one step of the tiled softmax recursion on the tile's row of scores.
-/
import proofs.«129541_j23081154249195_1_alg».proof.Proof.Gen.KernelIdeal.Skeleton
import proofs.«129541_j23081154249195_1_alg».proof.Proof.Spec
import proofs.«129541_j23081154249195_1_alg».proof.Proof.LibColumnForms
import proofs.«129541_j23081154249195_1_alg».proof.Proof.LibRank2
import Idealize.ShloMosaic.Lib.Pipeline.Value
import Idealize.ShloMosaic.Lib.ValueIdx
import Idealize.ShloMosaic.Lib.ValueLayout
import Idealize.ShloMosaic.Lib.WordArith
import Idealize.ShloMosaic.PureOps.Ideal.Laws
import Idealize.ShloMosaic.PureOps.IdealRules

set_option maxRecDepth 16384

noncomputable section

namespace Cert.KernelIdeal.Hand

open Cert.KernelIdeal Cert.KernelIdeal.Gen
open Idealize.ShloMosaic Idealize.ShloMosaic.ValueIdx

/-! ## The running statistics' stores -/

/-- The new running maximum: the larger of the old one and the tile's row maximum. -/
theorem pay3_apply (v36 : FVec Ideal S512x1 .f32) (v37 : Vec Ideal S512x1 .f32) (a : Fin 512) :
    k1_pay3 (F := Ideal) v36 v37 (ix2 a 0) = max (v37 (ix2 a 0)) (v36 (ix2 a 0)) := by
  unfold k1_pay3 k1_pay1
  simp only [shapeCast_self]
  rfl

/-- The new running sum: the old one rescaled to the new maximum plus the tile's row of exponentials. -/
theorem pay2_apply (v24 : FVec Ideal S512x512 .f32) (v36 : FVec Ideal S512x1 .f32) (v37 v39 v45 : Vec Ideal S512x1 .f32)
    (a : Fin 512) :
    k1_pay2 (F := Ideal) v24 v36 v37 v39 v45 (ix2 a 0)
      = Ideal.exp (v39 (ix2 a 0) - max (v37 (ix2 a 0)) (v36 (ix2 a 0))) * v45 (ix2 a 0)
        + ∑ j : Fin 512, Ideal.exp (v24 (ix2 a j) - max (v37 (ix2 a 0)) (v36 (ix2 a 0))) := by
  unfold k1_pay2 k1_pay1
  simp only [shapeCast_self]
  show Ideal.exp (v39 (ix2 a 0) - max (v37 (ix2 a 0)) (v36 (ix2 a 0))) * v45 (ix2 a 0)
      + shapeCast S512x1 _ shapeCasts_S512_S512x1 (ix2 a (0 : Fin 1)) = _
  refine congrArg (fun y => Ideal.exp (v39 (ix2 a 0) - max (v37 (ix2 a 0)) (v36 (ix2 a 0))) * v45 (ix2 a 0) + y) ?_
  refine (Cert.ColumnForms.shapeCast_a_a1_apply _ _ a 0).trans ?_
  refine (Cert.ColumnForms.multiReduction_add_lanes_f32 _ _ _ _ a).trans ?_
  refine Finset.sum_congr rfl fun j _ => ?_
  show Ideal.exp (v24 (ix2 a j) - broadcastTo S512x512 _ broadcasts_S512x1_S512x512 (ix2 a j)) = _
  refine congrArg (fun y => Ideal.exp (v24 (ix2 a j) - y)) ?_
  exact Cert.ColumnForms.broadcastTo_a1_ab_apply _ _ a j

/-- The row's result: the partner's score minus (maximum + logarithm of the sum). -/
theorem pay4_apply (v59 v60 v63 : Vec Ideal S512x1 .f32) (a : Fin 512) :
    k1_pay4 (F := Ideal) v59 v60 v63 (ix2 a 0) = v63 (ix2 a 0) - (v59 (ix2 a 0) + Ideal.log (v60 (ix2 a 0))) := rfl

/-- The running maximum starts at the bottom of the extended reals. -/
theorem pay5_apply (a : Fin 512) : k1_pay5 (F := Ideal) (ix2 a 0) = ⊥ := by
  unfold k1_pay5
  simp only [shapeCast_self]
  show Ideal.ofBits .f32 0xFF800000#32 = ⊥
  simp [Ideal.ofBits, Ideal.ieee]

/-- The running sum starts at zero. -/
theorem pay6_apply (a : Fin 512) : k1_pay6 (F := Ideal) (ix2 a 0) = 0 := by
  unfold k1_pay6
  simp only [shapeCast_self]
  exact Ideal.ofBits_zero_f32

/-- The partner's score starts at zero. -/
theorem pay7_apply (a : Fin 512) : k1_pay7 (F := Ideal) (ix2 a 0) = 0 := by
  unfold k1_pay7
  simp only [shapeCast_self]
  exact Ideal.ofBits_zero_f32

/-! ## The mask -/

/-- Global row and column numbers as 32-bit words: below 8192 the words are equal exactly when the numbers are. -/
theorem word_eq_iff (a j i0 i1 : ℕ) (ha : a < 512) (hj : j < 512) (h0 : i0 < 16) (h1 : i1 < 16) :
    IntOp.addi (BitVec.ofNat 32 a) (Scalar.muli (BitVec.ofNat 32 i0) 512#32)
        = IntOp.addi (BitVec.ofNat 32 j) (Scalar.muli (BitVec.ofNat 32 i1) 512#32)
      ↔ 512 * i0 + a = 512 * i1 + j := by
  unfold IntOp.addi Scalar.muli IntOp.muli
  constructor
  · intro h
    have h' := congrArg BitVec.toNat h
    simp only [BitVec.toNat_add, BitVec.toNat_mul, BitVec.toNat_ofNat] at h'
    omega
  · intro h
    apply BitVec.eq_of_toNat_eq
    simp only [BitVec.toNat_add, BitVec.toNat_mul, BitVec.toNat_ofNat]
    omega

/-- The mask bit of the tile at `(a, j)`: set exactly when the global row is the global column. -/
theorem mask_apply (i : grid1.Coords) (a j : Fin 512) :
    cmpi .eq (addi (iota .tc S512x512 32 [0] iota_S512x512_d0_w32)
                (broadcast S512x512 (Scalar.muli (BitVec.ofNat 32 (i 0).val) 512#32)))
             (addi (iota .tc S512x512 32 [1] iota_S512x512_d1_w32)
                (broadcast S512x512 (Scalar.muli (BitVec.ofNat 32 (i 1).val) 512#32))) (ix2 a j) = 1#1
      ↔ 512 * (i 0).val + a.val = 512 * (i 1).val + j.val := by
  have h0 : (i 0).val < 16 := (i 0).isLt
  have h1 : (i 1).val < 16 := (i 1).isLt
  show IntOp.cmpi .eq (IntOp.addi (iota .tc S512x512 32 [0] iota_S512x512_d0_w32 (ix2 a j)) _)
      (IntOp.addi (iota .tc S512x512 32 [1] iota_S512x512_d1_w32 (ix2 a j)) _) = 1#1 ↔ _
  rw [iota_single_apply, iota_single_apply]
  show BitVec.ofBool (_ == _) = 1#1 ↔ _
  rw [WordArith.ofBool_eq_one_iff, beq_iff_eq]
  exact word_eq_iff a.val j.val (i 0).val (i 1).val a.isLt j.isLt h0 h1

/-- The local diagonal's bit at `(a, k)`: set exactly when `a = k`. -/
theorem diag_apply (a k : Fin 512) :
    cmpi .eq (iota .tc S512x512 32 [0] iota_S512x512_d0_w32) (iota .tc S512x512 32 [1] iota_S512x512_d1_w32) (ix2 a k) = 1#1
      ↔ a = k := by
  show IntOp.cmpi .eq (iota .tc S512x512 32 [0] iota_S512x512_d0_w32 (ix2 a k))
      (iota .tc S512x512 32 [1] iota_S512x512_d1_w32 (ix2 a k)) = 1#1 ↔ _
  rw [iota_single_apply, iota_single_apply]
  show BitVec.ofBool (_ == _) = 1#1 ↔ _
  rw [WordArith.ofBool_eq_one_iff, beq_iff_eq]
  have ha := a.isLt
  have hk := k.isLt
  constructor
  · intro h
    have h' := congrArg BitVec.toNat h
    simp only [BitVec.toNat_ofNat] at h'
    exact Fin.ext (by
      show a.val = k.val
      have e0 : ((ix2 a k : S512x512.Idx) 0).val = a.val := rfl
      have e1 : ((ix2 a k : S512x512.Idx) 1).val = k.val := rfl
      omega)
  · intro h
    subst h
    rfl

/-! ## The tile's scores -/

/-- The masking constant denotes the bottom of the extended reals. -/
theorem neg_big_eq : Named.named (F := Ideal) κ "neg_big" (φ := .f32) 0xFF333332#32 = (⊥ : EReal) :=
  IdealRules.named_const.ideal_named_scalar _ _ _ _ rfl

/-- THE SCORES of the tile at `(a, j)`: the inner product of row `a` of the row block with row `j` of the column
    block, times two; `⊥` where the global row is the global column. -/
theorem pay8_apply (i : grid1.Coords) (x0 x1 : Vec Ideal S512x128 .bf16) (a j : Fin 512) :
    k1_pay8 (F := Ideal) i x0 x1 (ix2 a j)
      = if 512 * (i 0).val + a.val = 512 * (i 1).val + j.val then ⊥
        else (∑ d : Fin 128, x0 (ix2 a d) * x1 (ix2 j d)) * NtXent.two := by
  unfold k1_pay8
  simp only [shapeCast_self]
  refine (select_apply _ _ _ (ix2 a j)).trans ?_
  by_cases h : 512 * (i 0).val + a.val = 512 * (i 1).val + j.val
  · rw [if_pos h]
    unfold Scalar.select
    exact (if_pos ((mask_apply i a j).mpr h)).trans neg_big_eq
  · rw [if_neg h]
    unfold Scalar.select
    refine (if_neg (mt (mask_apply i a j).mp h)).trans ?_
    show matmul (F := Ideal) dot_S512x128_S512x128_S512x512_1_1_0_0_n_n none x0 x1 (constant (F := Ideal) S512x512 .f32 0x00000000#32) (ix2 a j)
        * NtXent.two = _
    refine congrArg (· * NtXent.two) ?_
    exact Cert.LibRank2.matmul_rhsT_zero_apply (M := 512) (K := 128) (N := 512) none x0 x1 a j

/-! ## Row maxima and the local diagonal -/

/-- A fold of the maximum from `⊥` over a finite family is its supremum. -/
theorem fold_max_bot_eq_sup {ι : Type*} (s : Finset ι) (f : ι → EReal) : s.fold max ⊥ f = s.sup f := by
  classical
  induction s using Finset.induction_on with
  | empty => rfl
  | insert b s hb ih => rw [Finset.fold_insert hb, Finset.sup_insert, ih]

/-- THE ROW MAXIMA of the tile: the supremum of row `a`'s 512 scores. -/
theorem pay10_apply (i : grid1.Coords) (x0 x1 : Vec Ideal S512x128 .bf16) (a : Fin 512) :
    k1_pay10 (F := Ideal) i x0 x1 (ix2 a 0) = Finset.univ.sup fun j : Fin 512 => k1_pay8 (F := Ideal) i x0 x1 (ix2 a j) := by
  unfold k1_pay10
  refine (Cert.ColumnForms.shapeCast_a_a1_apply _ _ a 0).trans ?_
  refine (Cert.LibRank2.max_last (a := 512) (b := 512) (k1_pay8 (F := Ideal) i x0 x1) 0xFF800000#32 _ _ _ a).trans ?_
  have hb : Ideal.ofBits .f32 0xFF800000#32 = (⊥ : EReal) := by simp [Ideal.ofBits, Ideal.ieee]
  rw [hb]
  exact fold_max_bot_eq_sup _ _

/-- THE LOCAL DIAGONAL of the tile: the score `(a, a)`; the other entries of the row contribute zero. -/
theorem pay9_apply (i : grid1.Coords) (x0 x1 : Vec Ideal S512x128 .bf16) (a : Fin 512) :
    k1_pay9 (F := Ideal) i x0 x1 (ix2 a 0) = k1_pay8 (F := Ideal) i x0 x1 (ix2 a a) := by
  unfold k1_pay9
  simp only [shapeCast_self]
  refine (Cert.ColumnForms.shapeCast_a_a1_apply _ _ a 0).trans ?_
  refine (Cert.ColumnForms.multiReduction_add_lanes_f32 _ _ _ _ a).trans ?_
  refine (Finset.sum_eq_single a (fun k _ hk => ?_) (fun h => absurd (Finset.mem_univ a) h)).trans ?_
  · refine (select_apply _ _ _ (ix2 a k)).trans ?_
    unfold Scalar.select
    refine (if_neg (mt (diag_apply a k).mp (Ne.symm hk))).trans ?_
    exact Ideal.ofBits_zero_f32
  · refine (select_apply _ _ _ (ix2 a a)).trans ?_
    unfold Scalar.select
    exact if_pos ((diag_apply a a).mpr rfl)

/-! ## One step of the recursion -/

/-- THE STEP: on row `a` of the tile, the new running maximum and running sum are one step of the tiled softmax
    recursion on the row's 512 scores, from the old maximum and sum. -/
theorem step_apply (i : grid1.Coords) (x0 x1 : Vec Ideal S512x128 .bf16) (m l : Vec Ideal S512x1 .f32) (a : Fin 512) :
    (k1_pay3 (F := Ideal) (k1_pay10 i x0 x1) m (ix2 a 0),
      k1_pay2 (F := Ideal) (k1_pay8 i x0 x1) (k1_pay10 i x0 x1) m m l (ix2 a 0))
      = ((ProofLib.TiledSoftmax.step (fun j : Fin 512 => k1_pay8 (F := Ideal) i x0 x1 (ix2 a j)) (fun _ => 0)
            (m (ix2 a 0), l (ix2 a 0), 0)).1,
         (ProofLib.TiledSoftmax.step (fun j : Fin 512 => k1_pay8 (F := Ideal) i x0 x1 (ix2 a j)) (fun _ => 0)
            (m (ix2 a 0), l (ix2 a 0), 0)).2.1) := by
  rw [pay3_apply, pay2_apply, pay10_apply]
  rfl

end Cert.KernelIdeal.Hand

end
-- ==== Proof.KiValue1b.lean ====
/-
  The value of the second kernel region at the extended reals.

  Point `t` of the 16 × 16 grid holds row tile `t / 16` and column tile `t % 16` of one array `y` of 8192 rows: its
  scores are the masked scores of global rows `512 (t / 16) + a` against global columns `512 (t % 16) + j`, that is,
  tile `t % 16` of the row's scores.  Hence, point by point, the running maximum and the running sum of local row `a`
  are the statistics of the tiled softmax recursion on the global row's scores after tile `t % 16`; the partner's
  score is picked from the local diagonal of column tile `(t / 16 + 8) % 16`, whose column `512 ((R + 8) % 16) + a`
  is the partner `(512 R + a + 4096) % 8192`; and in the last column tile the output buffer's row holds the partner's
  score minus (maximum + logarithm of the sum): the tiled log-softmax of the partner's score.  The sixteen writing
  points' blocks tile the output array.
-/
import proofs.«129541_j23081154249195_1_alg».proof.Proof.KiRegion1c
import proofs.«129541_j23081154249195_1_alg».proof.Proof.KiValue1a
import proofs.«129541_j23081154249195_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Value1
variable (V : (c : Dev nD) → (b : Ref sig .tc) → Buf (Elt Ideal) ((c : Thread nD τ).loc b))

/-- The printed index maps and grid coordinates, decided over the 256 grid points: point `t` is row tile `t / 16`
    and column tile `t % 16`. -/
theorem idx_facts1 : ∀ t : Fin cfg1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ (grid1.coords t 0).val = t.val / 16 ∧ (grid1.coords t 1).val = t.val % 16 :=
  (by decide +kernel : ∀ t : Fin grid1.N, _)

/-- The rows of the array the second region reads. -/
abbrev yOf (c : Dev nD) : Fin 8192 → Fin 128 → EReal :=
  fun r d => (V c main_v1 : S8192x128.Idx → Elt Ideal .bf16) (ix2 r d)

/-- The row window's block at point `t` is rows `512 (t / 16) …` of the array. -/
theorem iblk1_0_apply (c : Dev nD) (t : Fin cfg1.N) (a : Fin 512) (d : Fin 128) (r : Fin 8192)
    (hr : r.val = 512 * (t.val / 16) + a.val) :
    (iblk1 V c 0 t : Vec Ideal S512x128 .bf16) (ix2 a d) = yOf V c r d := by
  obtain ⟨e0, e1, -⟩ := idx_facts1 t
  unfold iblk1
  rw [View.read_apply]
  show V c main_v1 _ = V c main_v1 _
  congr 1
  funext x
  apply Fin.ext
  match x with
  | ⟨0, _⟩ => show win1_0.index t 0 * 512 + 1 * a.val = r.val; rw [e0, hr]; omega
  | ⟨1, _⟩ => show win1_0.index t 1 * 128 + 1 * d.val = d.val; rw [e1]; omega

/-- The column window's block at point `t` is rows `512 (t % 16) …` of the same array. -/
theorem iblk1_1_apply (c : Dev nD) (t : Fin cfg1.N) (j : Fin 512) (d : Fin 128) (cc : Fin 8192)
    (hc : cc.val = 512 * (t.val % 16) + j.val) :
    (iblk1 V c 1 t : Vec Ideal S512x128 .bf16) (ix2 j d) = yOf V c cc d := by
  obtain ⟨-, -, e2, e3, -⟩ := idx_facts1 t
  unfold iblk1
  rw [View.read_apply]
  show V c main_v1 _ = V c main_v1 _
  congr 1
  funext x
  apply Fin.ext
  match x with
  | ⟨0, _⟩ => show win1_1.index t 0 * 512 + 1 * j.val = cc.val; rw [e2, hc]; omega
  | ⟨1, _⟩ => show win1_1.index t 1 * 128 + 1 * d.val = d.val; rw [e3]; omega

/-- THE TILE'S SCORES are the masked scores of the array's rows: local row `a` is global row `r`, local column `j`
    global column `cc`. -/
theorem score_apply (c : Dev nD) (t : Fin cfg1.N) (a j : Fin 512) (r cc : Fin 8192)
    (hr : r.val = 512 * (t.val / 16) + a.val) (hc : cc.val = 512 * (t.val % 16) + j.val) :
    k1_pay8 (F := Ideal) (grid1.coords t) (iblk1 V c 0 t) (iblk1 V c 1 t) (ix2 a j) = NtXent.simMul (yOf V c) r cc := by
  obtain ⟨-, -, -, -, -, -, g0, g1⟩ := idx_facts1 t
  rw [pay8_apply]
  unfold NtXent.simMul NtXent.dot
  have hiff : (512 * (grid1.coords t 0).val + a.val = 512 * (grid1.coords t 1).val + j.val) ↔ r = cc := by
    rw [g0, g1, Fin.ext_iff, hr, hc]
  by_cases h : r = cc
  · rw [if_pos (hiff.mpr h), if_pos h]
  · rw [if_neg (mt hiff.mp h), if_neg h]
    refine congrArg (· * NtXent.two) (Finset.sum_congr rfl fun d _ => ?_)
    rw [iblk1_0_apply V c t a d r hr, iblk1_1_apply V c t j d cc hc]

/-- Global row `512 R + a`. -/
def rowOf (R : Fin 16) (a : Fin 512) : Fin 8192 := ⟨512 * R.val + a.val, by omega⟩

/-- The tile's row of scores is tile `t % 16` of the global row's scores. -/
theorem scores_eq_tiles (c : Dev nD) (t : Fin cfg1.N) (a : Fin 512) (R : Fin 16) (hR : R.val = t.val / 16) :
    (fun j : Fin 512 => k1_pay8 (F := Ideal) (grid1.coords t) (iblk1 V c 0 t) (iblk1 V c 1 t) (ix2 a j))
      = NtXent.tiles (NtXent.simMul (yOf V c) (rowOf R a)) (t.val % 16) := by
  funext j
  have hk : t.val % 16 < 16 := Nat.mod_lt _ (by norm_num)
  unfold NtXent.tiles
  rw [dif_pos hk]
  exact score_apply V c t a j (rowOf R a) (NtXent.col ⟨t.val % 16, hk⟩ j) (by show 512 * R.val + a.val = _; rw [hR]) rfl

end Value1

section Stats
variable (V : (c : Dev nD) → (b : Ref sig .tc) → Buf (Elt Ideal) ((c : Thread nD τ).loc b))

open ProofLib.TiledSoftmax in
/-- ONE POINT on row `a`: from statistics whose maximum and sum at the row are the first two components of `p`,
    the point leaves the first two components of one step of the recursion on the row's tile `t % 16`. -/
theorem point_row (c : Dev nD) (t : Fin cfg1.N) (a : Fin 512) (R : Fin 16) (hR : R.val = t.val / 16)
    (m l : Vec Ideal S512x1 .f32) (p : EReal × EReal × EReal) (hm : m (ix2 a 0) = p.1) (hl : l (ix2 a 0) = p.2.1) :
    k1_pay3 (F := Ideal) (k1_pay10 (grid1.coords t) (iblk1 V c 0 t) (iblk1 V c 1 t)) m (ix2 a 0)
        = (step (NtXent.tiles (NtXent.simMul (yOf V c) (rowOf R a)) (t.val % 16)) (fun _ => 0) p).1
      ∧ k1_pay2 (F := Ideal) (k1_pay8 (grid1.coords t) (iblk1 V c 0 t) (iblk1 V c 1 t))
          (k1_pay10 (grid1.coords t) (iblk1 V c 0 t) (iblk1 V c 1 t)) m m l (ix2 a 0)
        = (step (NtXent.tiles (NtXent.simMul (yOf V c) (rowOf R a)) (t.val % 16)) (fun _ => 0) p).2.1 := by
  have h := step_apply (grid1.coords t) (iblk1 V c 0 t) (iblk1 V c 1 t) m l a
  rw [scores_eq_tiles V c t a R hR, hm, hl] at h
  exact ⟨congrArg Prod.fst h, congrArg Prod.snd h⟩

open ProofLib.TiledSoftmax in
/-- THE STATISTICS POINT BY POINT: after point `n` (row tile `n / 16`, column tile `n % 16`) the running maximum
    and running sum of local row `a` are those of the tiled recursion on the global row's scores after tile `n % 16`. -/
theorem stAt_stat (c : Dev nD) (a : Fin 512) : ∀ (n : ℕ) (hn : n < cfg1.N) (R : Fin 16), R.val = n / 16 →
    (stAt V c n hn).1 (ix2 a 0)
        = (stat (NtXent.tiles (NtXent.simMul (yOf V c) (rowOf R a))) (fun _ _ => 0) (n % 16)).1
      ∧ (stAt V c n hn).2.1 (ix2 a 0)
        = (stat (NtXent.tiles (NtXent.simMul (yOf V c) (rowOf R a))) (fun _ _ => 0) (n % 16)).2.1 := by
  intro n
  induction n with
  | zero =>
    intro hn R hR
    have h0 : cond1_0 (grid1.coords ⟨0, hn⟩) := (hcond1_0 ⟨0, hn⟩).mpr rfl
    have := point_row V c ⟨0, hn⟩ a R hR (k1_pay5 (F := Ideal)) (k1_pay6 (F := Ideal)) (⊥, 0, 0) (pay5_apply a) (pay6_apply a)
    show (n5 _ _ _ _) (ix2 a 0) = _ ∧ (n6 _ _ _ _ _) (ix2 a 0) = _
    simp only [n5, n6, m0, l0, if_pos h0]
    exact this
  | succ n ih =>
    intro hn R hR
    by_cases hk : (n + 1) % 16 = 0
    · have h0 : cond1_0 (grid1.coords ⟨n + 1, hn⟩) := (hcond1_0 ⟨n + 1, hn⟩).mpr hk
      have := point_row V c ⟨n + 1, hn⟩ a R hR (k1_pay5 (F := Ideal)) (k1_pay6 (F := Ideal)) (⊥, 0, 0) (pay5_apply a) (pay6_apply a)
      show (n5 _ _ _ _) (ix2 a 0) = _ ∧ (n6 _ _ _ _ _) (ix2 a 0) = _
      simp only [n5, n6, m0, l0, if_pos h0]
      rw [hk]
      rw [show ((⟨n + 1, hn⟩ : Fin cfg1.N).val % 16) = 0 from hk] at this
      exact this
    · have h0 : ¬cond1_0 (grid1.coords ⟨n + 1, hn⟩) := mt (hcond1_0 ⟨n + 1, hn⟩).mp hk
      have hR' : R.val = n / 16 := by omega
      obtain ⟨i1, i2⟩ := ih (Nat.lt_of_succ_lt hn) R hR'
      have := point_row V c ⟨n + 1, hn⟩ a R hR (stAt V c n (Nat.lt_of_succ_lt hn)).1 (stAt V c n (Nat.lt_of_succ_lt hn)).2.1
        (stat (NtXent.tiles (NtXent.simMul (yOf V c) (rowOf R a))) (fun _ _ => 0) (n % 16)) i1 i2
      show (n5 _ _ _ _) (ix2 a 0) = _ ∧ (n6 _ _ _ _ _) (ix2 a 0) = _
      simp only [n5, n6, m0, l0, if_neg h0]
      rw [show (n + 1) % 16 = n % 16 + 1 from by omega]
      rw [show ((⟨n + 1, hn⟩ : Fin cfg1.N).val % 16) = n % 16 + 1 from by show (n + 1) % 16 = _; omega] at this
      exact this

end Stats

section Partner
variable (V : (c : Dev nD) → (b : Ref sig .tc) → Buf (Elt Ideal) ((c : Thread nD τ).loc b))

/-- In the partner's column tile the local diagonal holds the partner's score: global column
    `512 ((R + 8) % 16) + a` is `(512 R + a + 4096) % 8192`. -/
theorem partner_score (c : Dev nD) (t : Fin cfg1.N) (a : Fin 512) (R : Fin 16) (hR : R.val = t.val / 16)
    (h1 : t.val % 16 = (t.val / 16 + 8) % 16) :
    k1_pay9 (F := Ideal) (grid1.coords t) (iblk1 V c 0 t) (iblk1 V c 1 t) (ix2 a 0)
      = NtXent.simMul (yOf V c) (rowOf R a) (NtXent.partner (rowOf R a)) := by
  rw [pay9_apply]
  refine score_apply V c t a a (rowOf R a) (NtXent.partner (rowOf R a)) ?_ ?_
  · show 512 * R.val + a.val = _
    rw [hR]
  · show (512 * R.val + a.val + 4096) % 8192 = 512 * (t.val % 16) + a.val
    have := R.isLt
    have := a.isLt
    omega

/-- THE PARTNER'S SCORE POINT BY POINT: zero until the partner's column tile has been read, the partner's score
    from then on. -/
theorem stAt_partner (c : Dev nD) (a : Fin 512) : ∀ (n : ℕ) (hn : n < cfg1.N) (R : Fin 16), R.val = n / 16 →
    (stAt V c n hn).2.2 (ix2 a 0)
      = if (R.val + 8) % 16 ≤ n % 16 then NtXent.simMul (yOf V c) (rowOf R a) (NtXent.partner (rowOf R a)) else 0 := by
  intro n
  induction n with
  | zero =>
    intro hn R hR
    have h0 : cond1_0 (grid1.coords ⟨0, hn⟩) := (hcond1_0 ⟨0, hn⟩).mpr rfl
    have h1 : ¬cond1_1 (grid1.coords ⟨0, hn⟩) := mt (hcond1_1 ⟨0, hn⟩).mp (by show ¬((0 : ℕ) % 16 = (0 / 16 + 8) % 16); omega)
    show (n7 _ _ _ _) (ix2 a 0) = _
    simp only [n7, p0, if_pos h0, if_neg h1]
    rw [if_neg (by omega), pay7_apply]
  | succ n ih =>
    intro hn R hR
    have hRlt := R.isLt
    show (n7 _ _ _ _) (ix2 a 0) = _
    by_cases h1 : (n + 1) % 16 = ((n + 1) / 16 + 8) % 16
    · have c1 : cond1_1 (grid1.coords ⟨n + 1, hn⟩) := (hcond1_1 ⟨n + 1, hn⟩).mpr h1
      simp only [n7, if_pos c1]
      rw [if_pos (by omega)]
      exact partner_score V c ⟨n + 1, hn⟩ a R hR h1
    · have c1 : ¬cond1_1 (grid1.coords ⟨n + 1, hn⟩) := mt (hcond1_1 ⟨n + 1, hn⟩).mp h1
      by_cases hk : (n + 1) % 16 = 0
      · have h0 : cond1_0 (grid1.coords ⟨n + 1, hn⟩) := (hcond1_0 ⟨n + 1, hn⟩).mpr hk
        simp only [n7, p0, if_pos h0, if_neg c1]
        rw [if_neg (by omega), pay7_apply]
      · have h0 : ¬cond1_0 (grid1.coords ⟨n + 1, hn⟩) := mt (hcond1_0 ⟨n + 1, hn⟩).mp hk
        simp only [n7, p0, if_neg h0, if_neg c1]
        rw [ih (Nat.lt_of_succ_lt hn) R (by omega)]
        by_cases hle : (R.val + 8) % 16 ≤ n % 16
        · rw [if_pos hle, if_pos (by omega)]
        · rw [if_neg hle, if_neg (by omega)]

end Partner

section Output
variable (V : (c : Dev nD) → (b : Ref sig .tc) → Buf (Elt Ideal) ((c : Thread nD τ).loc b))

/-- THE ROW'S RESULT: in the last column tile the output buffer's row `a` holds the tiled log-softmax of the
    partner's score in global row `512 R + a`. -/
theorem row_result (c : Dev nD) (t : Fin cfg1.N) (h2 : t.val % 16 = 15) (a : Fin 512) (R : Fin 16) (hR : R.val = t.val / 16) :
    k1_pay4 (F := Ideal) (stAt V c t.val t.isLt).1 (stAt V c t.val t.isLt).2.1 (stAt V c t.val t.isLt).2.2 (ix2 a 0)
      = NtXent.rowTiled (NtXent.simMul (yOf V c) (rowOf R a)) (NtXent.partner (rowOf R a)) := by
  obtain ⟨e1, e2⟩ := stAt_stat V c a t.val t.isLt R hR
  have hRlt := R.isLt
  rw [pay4_apply, e1, e2, stAt_partner V c a t.val t.isLt R hR, h2, if_pos (by omega)]
  rfl

/-- The output array: row `r` holds the tiled log-softmax of its partner's score. -/
abbrev G1 (c : Dev nD) : S8192x1.Idx → Elt Ideal .f32 :=
  fun j => NtXent.rowTiled (NtXent.simMul (yOf V c) (j 0)) (NtXent.partner (j 0))

/-- Every block row of the output is written back by the last column tile's point of its row tile. -/
theorem idx_onto1 : ∀ q0 : Fin 16, ∃ t : Fin cfg1.N, t.val % 16 = 15 ∧ win1_2.index t = ![q0.val, 0] :=
  (by decide +kernel : ∀ q0 : Fin 16, ∃ t : Fin grid1.N, t.val % 16 = 15 ∧ win1_2.index t = ![q0.val, 0])

/-- WHAT A WRITING POINT WRITES BACK is its block of the output array. -/
theorem flushed1_2_eq (c : Dev nD) (t : Fin cfg1.N) (hf : (cfg1.win 2).flush t = true) :
    (dat1 (F := Ideal) V c).flushed 2 t = ((cfg1.win 2).blk t).view.read (Elt Ideal) (G1 V c) := by
  have h2 : t.val % 16 = 15 := (flush1_2 t).mp hf
  have hN : t.val < 256 := lt_of_lt_of_eq t.isLt (show cfg1.N = 256 from N_1)
  show (cfg1.win 2).cut (grid1.coords t) ((dat1 V c).after 2 t) = _
  rw [after1_2]
  obtain ⟨-, -, -, -, e4, e5, -, -⟩ := idx_facts1 t
  funext j
  obtain ⟨a, u, rfl⟩ : ∃ (a : Fin 512) (u : Fin 1), j = ix2 a u := ⟨j 0, j 1, eq_ix2 j⟩
  obtain rfl : u = 0 := Subsingleton.elim _ _
  show k1_pay4 (F := Ideal) _ _ _ (ix2 a 0) = G1 V c (((cfg1.win 2).blk t).view.emb (ix2 a 0))
  have hr : ((((cfg1.win 2).blk t).view.emb (ix2 a (0 : Fin 1))) 0).val = 512 * (t.val / 16) + a.val := by
    show win1_2.index t 0 * 512 + 1 * a.val = _
    rw [e4]; omega
  generalize ((cfg1.win 2).blk t).view.emb (ix2 a (0 : Fin 1)) = i at hr ⊢
  obtain ⟨r, u', rfl⟩ : ∃ (r : Fin 8192) (u' : Fin 1), i = ix2 r u' := ⟨i 0, i 1, eq_ix2 i⟩
  have hr' : r.val = 512 * (t.val / 16) + a.val := hr
  have hR : (⟨t.val / 16, by omega⟩ : Fin 16).val = t.val / 16 := rfl
  rw [row_result V c t h2 a ⟨t.val / 16, by omega⟩ hR]
  have er : r = rowOf ⟨t.val / 16, by omega⟩ a := Fin.ext hr'
  rw [er]

/-- An index of the output array is in point `t`'s block iff each coordinate is in the block's range on its axis. -/
theorem mem_blk1_2 (t : Fin cfg1.N) (i : S8192x1.Idx) :
    i ∈ ((cfg1.win 2).blk t).view.set ↔ ∀ x : Fin 2, win1_2.index t x * S512x1.size x ≤ (i x).val
      ∧ (i x).val < win1_2.index t x * S512x1.size x + S512x1.size x := by
  show i ∈ ((View.whole main_v2).slice (win1_2.rect t)).set ↔ _
  rw [View.set_slice_whole, Rect.mem_set_unit]
  exact Iff.rfl

/-- Every index of the output array is in some writing point's block. -/
theorem covered1_2 (i : S8192x1.Idx) :
    ∃ t : Fin cfg1.N, (cfg1.win 2).flush t = true ∧ i ∈ ((cfg1.win 2).blk t).view.set := by
  have hi0 : (i 0).val < 8192 := (i 0).isLt
  have hi1 : (i 1).val < 1 := (i 1).isLt
  obtain ⟨t, h15, ht⟩ := idx_onto1 ⟨(i 0).val / 512, by omega⟩
  have q0 : win1_2.index t (0 : Fin 2) = (i 0).val / 512 := congrFun ht 0
  have q1 : win1_2.index t (1 : Fin 2) = 0 := congrFun ht 1
  refine ⟨t, (flush1_2 t).mpr h15, ?_⟩
  rw [mem_blk1_2]
  intro x
  match x with
  | ⟨0, _⟩ => show win1_2.index t (0 : Fin 2) * 512 ≤ (i 0).val ∧ (i 0).val < win1_2.index t (0 : Fin 2) * 512 + 512; omega
  | ⟨1, _⟩ => show win1_2.index t (1 : Fin 2) * 1 ≤ (i 1).val ∧ (i 1).val < win1_2.index t (1 : Fin 2) * 1 + 1; omega

/-- THE OUTPUT ARRAY after the second region: row by row the tiled log-softmax of the partner's score. -/
theorem arr1_final (c : Dev nD) :
    (dat1 (F := Ideal) V c).arrAt 2 cfg1.N
      = fun j : S8192x1.Idx => NtXent.rowTiled (NtXent.simMul (yOf V c) (j 0)) (NtXent.partner (j 0)) :=
  (dat1 V c).arrAt_eq_of_cover 2 (G1 V c) (fun t hf => flushed1_2_eq V c t hf) covered1_2

end Output

section Inputs
variable (V : (c : Dev nD) → (b : Ref sig .tc) → Buf (Elt Ideal) ((c : Thread nD τ).loc b))

/-- The array both input windows read is, after the region, as the region found it. -/
theorem arr1_in0 (c : Dev nD) : (dat1 (F := Ideal) V c).arrAt 0 cfg1.N = V c main_v1 :=
  ((dat1 V c).arrAt_in 0 rfl _).trans (A_eq1 V c 0)

theorem arr1_in1 (c : Dev nD) : (dat1 (F := Ideal) V c).arrAt 1 cfg1.N = V c main_v1 :=
  ((dat1 V c).arrAt_in 1 rfl _).trans (A_eq1 V c 1)

end Inputs

end Cert.KernelIdeal.Hand

end
-- ==== Proof.LibRealEntries.lean ====
/-
  Extended reals that are real numbers.

  An extended real "is real" when it is the coercion of a real number.  The facts below say that this
  property is kept by products, finite sums, square roots of nonnegative numbers, maxima, and quotients by
  a nonzero real, and record the sign information (a sum of squares is nonnegative, a maximum with a
  positive real is positive) that the quotient needs.  Each statement exhibits the real number.
-/
import Idealize.ShloMosaic.PureOps.Ideal

noncomputable section

namespace ProofLib.RealEntries

open Idealize.ShloMosaic

theorem ne_top_of_real {x : EReal} (h : ∃ a : ℝ, x = (a : EReal)) : x ≠ ⊤ := by
  obtain ⟨a, rfl⟩ := h
  exact EReal.coe_ne_top a

theorem ne_bot_of_real {x : EReal} (h : ∃ a : ℝ, x = (a : EReal)) : x ≠ ⊥ := by
  obtain ⟨a, rfl⟩ := h
  exact EReal.coe_ne_bot a

/-- A product of two reals is a real. -/
theorem real_mul {x y : EReal} (hx : ∃ a : ℝ, x = (a : EReal)) (hy : ∃ b : ℝ, y = (b : EReal)) :
    ∃ c : ℝ, x * y = (c : EReal) := by
  obtain ⟨a, rfl⟩ := hx
  obtain ⟨b, rfl⟩ := hy
  exact ⟨a * b, (EReal.coe_mul a b).symm⟩

/-- A finite sum of reals is a real. -/
theorem real_sum {ι : Type*} (s : Finset ι) (F : ι → EReal) (h : ∀ i ∈ s, ∃ a : ℝ, F i = (a : EReal)) :
    ∃ c : ℝ, ∑ i ∈ s, F i = (c : EReal) := by
  classical
  induction s using Finset.induction_on with
  | empty => exact ⟨0, by simp⟩
  | insert a s ha ih =>
    obtain ⟨r, hr⟩ := h a (Finset.mem_insert_self a s)
    obtain ⟨r', hr'⟩ := ih fun i hi => h i (Finset.mem_insert_of_mem hi)
    exact ⟨r + r', by rw [Finset.sum_insert ha, hr, hr', EReal.coe_add]⟩

/-- A finite sum of squares of reals is a nonnegative real. -/
theorem real_sum_sq {ι : Type*} (s : Finset ι) (F : ι → EReal) (h : ∀ i ∈ s, ∃ a : ℝ, F i = (a : EReal)) :
    ∃ q : ℝ, 0 ≤ q ∧ ∑ i ∈ s, F i * F i = (q : EReal) := by
  classical
  induction s using Finset.induction_on with
  | empty => exact ⟨0, le_rfl, by simp⟩
  | insert a s ha ih =>
    obtain ⟨r, hr⟩ := h a (Finset.mem_insert_self a s)
    obtain ⟨q, hq, hq'⟩ := ih fun i hi => h i (Finset.mem_insert_of_mem hi)
    exact ⟨r * r + q, add_nonneg (mul_self_nonneg r) hq, by
      rw [Finset.sum_insert ha, hr, hq', ← EReal.coe_mul, EReal.coe_add]⟩

/-- The square root of a nonnegative real is a nonnegative real. -/
theorem real_sqrt {x : EReal} (h : ∃ q : ℝ, 0 ≤ q ∧ x = (q : EReal)) :
    ∃ t : ℝ, 0 ≤ t ∧ Ideal.sqrt x = (t : EReal) := by
  obtain ⟨q, hq, rfl⟩ := h
  exact ⟨Real.sqrt q, Real.sqrt_nonneg q, by rw [Ideal.sqrt_coe, if_neg (not_lt.mpr hq)]⟩

/-- The larger of a real and a positive real is a positive real. -/
theorem real_max_pos {x y : EReal} (hx : ∃ a : ℝ, x = (a : EReal)) (hy : ∃ b : ℝ, 0 < b ∧ y = (b : EReal)) :
    ∃ c : ℝ, 0 < c ∧ max x y = (c : EReal) := by
  obtain ⟨a, rfl⟩ := hx
  obtain ⟨b, hb, rfl⟩ := hy
  refine ⟨max a b, lt_max_of_lt_right hb, ?_⟩
  rcases le_total a b with h | h
  · rw [max_eq_right h, max_eq_right (EReal.coe_le_coe_iff.mpr h)]
  · rw [max_eq_left h, max_eq_left (EReal.coe_le_coe_iff.mpr h)]

/-- The quotient of a real by a nonzero real is a real. -/
theorem real_div {x y : EReal} (hx : ∃ a : ℝ, x = (a : EReal)) (hy : ∃ b : ℝ, b ≠ 0 ∧ y = (b : EReal)) :
    ∃ c : ℝ, Ideal.div x y = (c : EReal) := by
  obtain ⟨a, rfl⟩ := hx
  obtain ⟨b, hb, rfl⟩ := hy
  exact ⟨a * (1 / b), by rw [Ideal.div_coe hb, ← EReal.coe_mul]⟩

/-- The logarithm of a positive real is a real. -/
theorem log_coe_pos {L : ℝ} (hL : 0 < L) : Ideal.log (L : EReal) = ((Real.log L : ℝ) : EReal) := by
  rw [Ideal.log_coe, if_neg (not_le.mpr hL)]

/-- Subtracting a sum of two reals from a real is subtracting them one after the other. -/
theorem coe_sub_add (x a b : ℝ) :
    (x : EReal) - ((a : EReal) + (b : EReal)) = ((x : EReal) - (a : EReal)) - (b : EReal) := by
  rw [← EReal.coe_add, ← EReal.coe_sub, ← EReal.coe_sub, ← EReal.coe_sub, sub_add_eq_sub_sub]

end ProofLib.RealEntries

end
-- ==== Proof.RowMath.lean ====
/-
  The row mathematics: the tiled log-softmax of the partner's score is the whole-row one.

  Every entry of the normalized stacked batches is a real number: a row of reals has a real, nonnegative
  sum of squares, so a real square root, and the floor is a positive real, so the divisor is a positive
  real.  Hence every inner product is real, and a row of scores has exactly one masked column, its own.
  Dividing by one half is multiplying by two on every extended real, so the two score rows are the same
  function.  For such a row the statistics accumulated over the sixteen tiles are the row's largest score
  (a real `μ`) and the sum `L ≥ 1` of `exp (score - μ)` over all 8192 columns (a pair of tile and column in the
  tile is a column of the row, and every column is one such pair exactly once), and for a real partner score
  `x` both sides are the real number `x - μ - log L`.
-/
import Mathlib.Data.Fintype.BigOperators
import proofs.«129541_j23081154249195_1_alg».proof.Proof.Spec
import proofs.«129541_j23081154249195_1_alg».proof.Proof.LibRealEntries

noncomputable section

namespace NtXent

open Idealize.ShloMosaic ProofLib.TiledSoftmax ProofLib.RealEntries

/-! ## The constants -/

/-- The factor is the real number two. -/
theorem two_eq : two = ((2 : ℝ) : EReal) := by
  unfold two
  simp [Ideal.ofBits, Ideal.ieee, -EReal.coe_mul]
  norm_num

/-- The divisor is the real number one half. -/
theorem half_eq : half = ((1 / 2 : ℝ) : EReal) := by
  unfold half
  simp [Ideal.ofBits, Ideal.ieee, -EReal.coe_mul]
  norm_num

/-- The floor of a row's length is a positive real. -/
theorem eps_pos : ∃ e : ℝ, 0 < e ∧ eps = (e : EReal) := by
  refine ⟨11258999 * (2 : ℝ) ^ (-50 : ℤ), by positivity, ?_⟩
  unfold eps
  simp [Ideal.ofBits, Ideal.ieee, -EReal.coe_mul]

/-- Dividing by one half is multiplying by two, on every extended real. -/
theorem div_half (x : EReal) : Ideal.div x half = x * two := by
  rw [half_eq, two_eq, Ideal.div_coe (by norm_num : (1 / 2 : ℝ) ≠ 0)]
  norm_num

/-- The two score rows are the same function. -/
theorem simMul_eq_simDiv (y : Fin 8192 → Fin 128 → EReal) (r : Fin 8192) : simMul y r = simDiv y r := by
  funext c
  unfold simMul simDiv
  rw [div_half]

/-! ## The entries are real -/

theorem stack_real (a b : Fin 4096 → Fin 128 → EReal) (ha : ∀ r d, ∃ x : ℝ, a r d = (x : EReal))
    (hb : ∀ r d, ∃ x : ℝ, b r d = (x : EReal)) :
    ∀ r d, ∃ x : ℝ, stack a b r d = (x : EReal) := by
  intro r d
  unfold stack
  split_ifs with h
  · exact ha _ d
  · exact hb _ d

/-- A row of reals has a real, nonnegative sum of squares. -/
theorem sq_real (z : Fin 8192 → Fin 128 → EReal) (hz : ∀ r d, ∃ x : ℝ, z r d = (x : EReal)) (r : Fin 8192) :
    ∃ q : ℝ, 0 ≤ q ∧ sq z r = (q : EReal) :=
  real_sum_sq Finset.univ (fun d => z r d) fun d _ => hz r d

/-- The floored length of a row of reals is a positive real. -/
theorem nrm_real (z : Fin 8192 → Fin 128 → EReal) (hz : ∀ r d, ∃ x : ℝ, z r d = (x : EReal)) (r : Fin 8192) :
    ∃ n : ℝ, 0 < n ∧ nrm z r = (n : EReal) := by
  obtain ⟨t, _, ht⟩ := real_sqrt (sq_real z hz r)
  exact real_max_pos ⟨t, ht⟩ eps_pos

theorem zn_real (z : Fin 8192 → Fin 128 → EReal) (hz : ∀ r d, ∃ x : ℝ, z r d = (x : EReal)) :
    ∀ r d, ∃ x : ℝ, zn z r d = (x : EReal) := by
  intro r d
  obtain ⟨n, hn, hn'⟩ := nrm_real z hz r
  exact real_div (hz r d) ⟨n, hn.ne', hn'⟩

/-- The inner product of two rows of reals is a real. -/
theorem dot_real (y : Fin 8192 → Fin 128 → EReal) (hy : ∀ r d, ∃ x : ℝ, y r d = (x : EReal)) (r c : Fin 8192) :
    ∃ x : ℝ, dot y r c = (x : EReal) :=
  real_sum Finset.univ _ fun d _ => real_mul (hy r d) (hy c d)

/-- A score off the row's own column is a real. -/
theorem simMul_real (y : Fin 8192 → Fin 128 → EReal) (hy : ∀ r d, ∃ x : ℝ, y r d = (x : EReal)) {r c : Fin 8192}
    (h : r ≠ c) : ∃ x : ℝ, simMul y r c = (x : EReal) := by
  unfold simMul
  rw [if_neg h]
  exact real_mul (dot_real y hy r c) ⟨2, two_eq⟩

/-- No score is `⊤`: the row's own is `⊥`, the others are real. -/
theorem simMul_ne_top (y : Fin 8192 → Fin 128 → EReal) (hy : ∀ r d, ∃ x : ℝ, y r d = (x : EReal)) (r c : Fin 8192) :
    simMul y r c ≠ ⊤ := by
  by_cases h : r = c
  · unfold simMul
    rw [if_pos h]
    exact bot_ne_top
  · exact ne_top_of_real (simMul_real y hy h)

/-- A row is not its own partner. -/
theorem ne_partner (r : Fin 8192) : r ≠ partner r := by
  intro h
  have h' := congrArg Fin.val h
  unfold partner at h'
  have := r.isLt
  dsimp only at h'
  omega

/-- The first tile of every row has an unmasked column: of columns `0` and `1` one is not the row's own. -/
theorem exists_unmasked (y : Fin 8192 → Fin 128 → EReal) (hy : ∀ r d, ∃ x : ℝ, y r d = (x : EReal)) (r : Fin 8192) :
    ∃ j, simMul y r (col 0 j) ≠ ⊥ := by
  by_cases h : r = col 0 0
  · refine ⟨1, ne_bot_of_real (simMul_real y hy ?_)⟩
    rw [h]
    decide
  · exact ⟨0, ne_bot_of_real (simMul_real y hy h)⟩

/-! ## Tiles and columns -/

/-- Tile `k < 16` holds the row's columns `512 k … 512 k + 511`. -/
theorem tiles_fin (s : Fin 8192 → EReal) (k : Fin 16) (j : Fin 512) : tiles s k.val j = s (col k j) := by
  unfold tiles
  rw [dif_pos k.isLt]

theorem tiles_ne_top (s : Fin 8192 → EReal) (hs : ∀ c, s c ≠ ⊤) (k : ℕ) (j : Fin 512) : tiles s k j ≠ ⊤ := by
  unfold tiles
  split_ifs
  · exact hs _
  · exact bot_ne_top

/-- A pair of a tile and a column in the tile is a column of the row, and every column `c` is the pair
    `(c / 512, c % 512)` exactly once. -/
def colEquiv : Fin 16 × Fin 512 ≃ Fin 8192 where
  toFun p := col p.1 p.2
  invFun c := (⟨c.val / 512, by omega⟩, ⟨c.val % 512, Nat.mod_lt _ (by norm_num)⟩)
  left_inv := by
    rintro ⟨k, j⟩
    refine Prod.ext (Fin.ext ?_) (Fin.ext ?_)
    · show (512 * k.val + j.val) / 512 = k.val
      omega
    · show (512 * k.val + j.val) % 512 = j.val
      omega
  right_inv := by
    intro c
    refine Fin.ext ?_
    show 512 * (c.val / 512) + c.val % 512 = c.val
    omega

/-- A sum over the sixteen tiles and the columns of each is the sum over the row. -/
theorem sum_tiles (s : Fin 8192 → EReal) (f : EReal → EReal) :
    ∑ k ∈ Finset.range (15 + 1), ∑ j, f (tiles s k j) = ∑ c, f (s c) := by
  rw [Finset.sum_range fun k => ∑ j, f (tiles s k j)]
  simp only [tiles_fin]
  rw [← Fintype.sum_prod_type' fun k j => f (s (col k j))]
  exact Fintype.sum_equiv colEquiv _ _ fun _ => rfl

/-- The largest score over the sixteen tiles is the largest score of the row. -/
theorem M_tiles (s : Fin 8192 → EReal) : M (tiles s) 15 = Finset.univ.sup s := by
  apply le_antisymm
  · unfold M
    refine Finset.sup_le fun k hk => Finset.sup_le fun j _ => ?_
    have hk' : k < 16 := Finset.mem_range.mp hk
    rw [show k = (⟨k, hk'⟩ : Fin 16).val from rfl, tiles_fin]
    exact Finset.le_sup (Finset.mem_univ _)
  · refine Finset.sup_le fun c _ => ?_
    have e : s c = tiles s (colEquiv.symm c).1.val (colEquiv.symm c).2 := by
      rw [tiles_fin]
      exact congrArg s (colEquiv.apply_symm_apply c).symm
    rw [e]
    exact le_M (tiles s) (Nat.le_of_lt_succ (colEquiv.symm c).1.isLt) _

/-! ## One row -/

/-- THE ROW: for a row of scores none of which is `⊤`, with an unmasked column in the first tile and a real
    partner score, the tiled log-softmax is the whole-row one. -/
theorem row_eq (s : Fin 8192 → EReal) (hs : ∀ c, s c ≠ ⊤) (h0 : ∃ j, s (col 0 j) ≠ ⊥) (p : Fin 8192)
    (hp : ∃ x : ℝ, s p = (x : EReal)) : rowTiled s p = rowWhole s p := by
  have hS : ∀ k j, tiles s k j ≠ ⊤ := tiles_ne_top s hs
  have hT0 : ∃ j, tiles s 0 j ≠ ⊥ := by
    obtain ⟨j, hj⟩ := h0
    exact ⟨j, by rw [show (0 : ℕ) = (0 : Fin 16).val from rfl, tiles_fin]; exact hj⟩
  obtain ⟨μ, hμ⟩ := M_real (tiles s) hS hT0 15
  obtain ⟨L, hL1, hL⟩ := stat_snd_real (tiles s) (fun _ _ => 0) hS hT0 15
  have hL0 : 0 < L := lt_of_lt_of_le one_pos hL1
  have h1 : (stat (tiles s) (fun _ _ => 0) 15).1 = Finset.univ.sup s := by
    rw [stat_fst _ _ hS hT0, M_tiles]
  have h2 : (stat (tiles s) (fun _ _ => 0) 15).2.1 = ∑ c, Ideal.exp (s c - Finset.univ.sup s) := by
    rw [stat_snd _ _ hS hT0, M_tiles]
    exact sum_tiles s fun x => Ideal.exp (x - Finset.univ.sup s)
  have hm : (stat (tiles s) (fun _ _ => 0) 15).1 = (μ : EReal) := (stat_fst _ _ hS hT0 15).trans hμ
  obtain ⟨x, hx⟩ := hp
  unfold rowTiled rowWhole
  rw [← h2, ← h1, hm, hL, hx, log_coe_pos hL0]
  exact coe_sub_add x μ (Real.log L)

/-! ## The loss -/

theorem loss_eq (a b : Fin 4096 → Fin 128 → EReal) (ha : ∀ r d, ∃ x : ℝ, a r d = (x : EReal))
    (hb : ∀ r d, ∃ x : ℝ, b r d = (x : EReal)) :
    lossTiled a b = lossWhole a b := by
  have hy := zn_real (stack a b) (stack_real a b ha hb)
  unfold lossTiled lossWhole
  congr 1
  funext r
  rw [← simMul_eq_simDiv]
  exact row_eq _ (simMul_ne_top _ hy r) (exists_unmasked _ hy r) _ (simMul_real _ hy (ne_partner r))

end NtXent

end
-- ==== Proof.KiAlgebra.lean ====
/-
  The assembly of the three arrays of the tiled program: when the first array is the two batches stacked, the second is
  the first with every row normalized, and the third holds, row by row, the tiled log-softmax of the partner's score
  in the second's rows, then minus the mean of the third array is the tiled loss of the two batches — and, for real
  inputs, the whole-matrix loss.  Reading an array at the index built from a row and a lane and reading it back by
  coordinates are the same, so the first statement only unfolds definitions.
-/
import proofs.«129541_j23081154249195_1_alg».proof.Proof.Spec
import proofs.«129541_j23081154249195_1_alg».proof.Proof.RowMath
import Idealize.ShloMosaic.Lib.ValueIdx

noncomputable section

namespace NtXent

open Idealize.ShloMosaic Idealize.ShloMosaic.ValueIdx

/-- THE ASSEMBLY: the three arrays chained give the tiled loss. -/
theorem loss_assemble (a b : Fin 4096 → Fin 128 → EReal)
    (v0 v1 : (⟨2, ![8192, 128]⟩ : Shape).Idx → EReal) (v2 : (⟨2, ![8192, 1]⟩ : Shape).Idx → EReal)
    (h0 : v0 = fun j => stack a b (j 0) (j 1))
    (h1 : v1 = fun j => zn (fun r d => v0 (ix2 r d)) (j 0) (j 1))
    (h2 : v2 = fun j => rowTiled (simMul (fun r d => v1 (ix2 r d)) (j 0)) (partner (j 0))) :
    loss (fun r => v2 (ix2 r (0 : Fin 1))) = lossTiled a b := by
  subst h0
  subst h1
  subst h2
  rfl

/-- The same, against the whole-matrix loss, for real inputs. -/
theorem loss_assemble_whole (a b : Fin 4096 → Fin 128 → EReal)
    (ha : ∀ r d, ∃ x : ℝ, a r d = (x : EReal)) (hb : ∀ r d, ∃ x : ℝ, b r d = (x : EReal))
    (v0 v1 : (⟨2, ![8192, 128]⟩ : Shape).Idx → EReal) (v2 : (⟨2, ![8192, 1]⟩ : Shape).Idx → EReal)
    (h0 : v0 = fun j => stack a b (j 0) (j 1))
    (h1 : v1 = fun j => zn (fun r d => v0 (ix2 r d)) (j 0) (j 1))
    (h2 : v2 = fun j => rowTiled (simMul (fun r d => v1 (ix2 r d)) (j 0)) (partner (j 0))) :
    loss (fun r => v2 (ix2 r (0 : Fin 1))) = lossWhole a b :=
  (loss_assemble a b v0 v1 v2 h0 h1 h2).trans (loss_eq a b ha hb)

end NtXent

end
-- ==== Proof.KiValue.lean ====
/-
  The tiled program's final value at the extended reals: under the precondition (all inputs finite) the run ends with
  the result buffer at the whole-matrix loss of the two argument arrays, and with the arguments as launched.

  The result buffer is minus the mean of the second region's output array; that array is, row by row, the tiled
  log-softmax of the partner's score in the rows of the first region's output array; that array is the stacked
  batches with every row normalized; and the stacked batches are what the host's first operation leaves.  For real
  inputs the tiled loss is the whole-matrix loss.
-/
import proofs.«129541_j23081154249195_1_alg».proof.Proof.KiFrame
import proofs.«129541_j23081154249195_1_alg».proof.Proof.KiHost
import proofs.«129541_j23081154249195_1_alg».proof.Proof.KiFinite
import proofs.«129541_j23081154249195_1_alg».proof.Proof.KiValue0
import proofs.«129541_j23081154249195_1_alg».proof.Proof.KiValue1b
import proofs.«129541_j23081154249195_1_alg».proof.Proof.KiAlgebra

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The stacked batches, as the host's first operation leaves them. -/
theorem v0_eq (c : Dev nD) :
    W1 (F := Ideal) m ρ c (Proc.devRef .tc main_v0)
      = fun j : S8192x128.Idx => NtXent.stack (fun r d => m ((c.tc : Thread nD τ).loc main_arg0) (ix2 r d))
          (fun r d => m ((c.tc : Thread nD τ).loc main_arg1) (ix2 r d)) (j 0) (j 1) :=
  head_value (W0 m ρ c)

/-- The first region's output array: the stacked batches with every row normalized. -/
theorem v1_eq (c : Dev nD) :
    W2 (F := Ideal) m ρ c (Proc.devRef .tc main_v1)
      = fun j : S8192x128.Idx => NtXent.zn (fun r d => W1 (F := Ideal) m ρ c (Proc.devRef .tc main_v0) (ix2 r d)) (j 0) (j 1) :=
  (W2_arr m ρ c 1).trans (arr0_final (V1 m ρ) c)

/-- The second region's output array: row by row the tiled log-softmax of the partner's score. -/
theorem v2_eq (c : Dev nD) :
    W3 (F := Ideal) m ρ c (Proc.devRef .tc main_v2)
      = fun j : S8192x1.Idx => NtXent.rowTiled
          (NtXent.simMul (fun r d => W2 (F := Ideal) m ρ c (Proc.devRef .tc main_v1) (ix2 r d)) (j 0)) (NtXent.partner (j 0)) :=
  (W3_main_v2 m ρ c).trans (arr1_final (V2 m ρ) c)

/-- THE RESULT BUFFER after the run, for finite inputs: the whole-matrix loss of the two argument arrays. -/
theorem value_eq [hP : Cert.Pre_finite_inputs.Facts] (hpre : Cert.Pre_KernelIdeal m) (c : Dev nD) :
    W4 (F := Ideal) m ρ c (Proc.devRef .tc main_v5)
      = fun _ => NtXent.lossWhole (fun r d => m ((c.tc : Thread nD τ).loc main_arg0) (ix2 r d))
          (fun r d => m ((c.tc : Thread nD τ).loc main_arg1) (ix2 r d)) := by
  obtain ⟨ha, hb⟩ := finite_of_pre m hpre c
  refine (tail_value (W3 m ρ c)).trans ?_
  funext _
  exact NtXent.loss_assemble_whole _ _ ha hb _ _ _ (v0_eq m ρ c) (v1_eq m ρ c) (v2_eq m ρ c)

/-- THE KERNEL PROGRAM'S VALUE: every run ends with the result at the whole-matrix loss, the arguments as launched. -/
theorem kernel_value [hP : Cert.Pre_finite_inputs.Facts] (hpre : Cert.Pre_KernelIdeal m) :
    θ_run (defs (F := Ideal)) (onTc (τ := τ) (main (F := Ideal))) ⟨m, fun _ => 0, ρ⟩ fun r => ∀ c : Dev nD,
      r.2.mem ((c.tc : Thread nD τ).loc main_v5)
          = (fun _ => NtXent.lossWhole (fun r d => m ((c.tc : Thread nD τ).loc main_arg0) (ix2 r d))
              (fun r d => m ((c.tc : Thread nD τ).loc main_arg1) (ix2 r d)))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c =>
    ⟨(h c _ (mem_uc main_v5 (by decide))).trans (value_eq m ρ hpre c),
     (h c _ (mem_uc main_arg0 (by decide))).trans (W4_arg m ρ c main_arg0 (by decide) (by decide) (by decide) (by decide)),
     (h c _ (mem_uc main_arg1 (by decide))).trans (W4_arg m ρ c main_arg1 (by decide) (by decide) (by decide) (by decide))⟩)
    (run_all (F := Ideal) m ρ)

end Cert.KernelIdeal.Hand

end
-- ==== Proof.RefRun.lean ====
/-
  The reference program's run, read stage by stage.

  The program is a straight line of 74 host operations.  The contents of the buffers after a line `l₁ ++ l₂` are the
  contents after `l₂` from the contents after `l₁` (`after_append`), so the line is cut into five consecutive stages

    A  (operations  1–11)  the two arguments stacked and every row divided by its floored length      → main_v5
    B  (operations 12–25)  the inner products divided by one half, the diagonal masked                 → main_v14
    C  (operations 26–31)  the partner labels                                                           → main_v19
    D  (operations 32–46)  the row-wise log-softmax                                                     → main_v20
    E  (operations 47–74)  the entries at the labels, their mean, its negation                          → main_v25

  and each stage is read on its own: from ANY contents `V` whose input buffers hold the per-operation values
  `val_<buffer>` (the reference one operation at a time, functions of @main's two arguments), the stage's output buffer
  ends holding its `val_<buffer>`.  A stage reads at most fifteen nested operations, so each reading is a small
  computation; the stages are then chained (`after_v25`), and the run of the whole line (`StableHlo.run_seq`) ends with
  main_v25 at `val_main_v25` of the arguments' launch contents, the arguments unchanged.
-/
import proofs.«129541_j23081154249195_1_alg».proof.Proof.RefValueRead

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

/-- The contents after two lines run one after the other: the second line's, from the first line's. -/
theorem after_append {τ : Topo} {sig : RefSig} {Val : EltTy → Type} (l₁ l₂ : List (HloOp τ sig Val)) :
    ∀ V : Valuation τ sig Val, after (l₁ ++ l₂) V = after l₂ (after l₁ V) := by
  induction l₁ with
  | nil => intro V; rfl
  | cons op l ih => intro V; exact ih (op.result V)

variable {F : FTy → Type} [FloatOps F]

/-- @main's 74 operations, in order (a called function's operations stand in its call's place). -/
abbrev ops : List (HloOp τ sig (Elt F)) :=
  [ binary main_arg0 main_arg1 main_v0 ((fun a b => concatenate S8192x128 0 [⟨S4096x128, a⟩, ⟨S4096x128, b⟩] concatenates_S4096x128_S4096x128_S8192x128_d0) : (⟨S4096x128, .f32⟩ : BufTy).Contents (Elt F) → (⟨S4096x128, .f32⟩ : BufTy).Contents (Elt F) → (⟨S8192x128, .f32⟩ : BufTy).Contents (Elt F)),
    TRef.binary (TRef.of (T := ⟨S8192x128, .f32⟩) main_v0) (TRef.of (T := ⟨S8192x128, .f32⟩) main_v0) (TRef.of (T := ⟨S8192x128, .f32⟩) main_call0_v0) mulf,
    TRef.nullary (TRef.of (T := ⟨S_, .f32⟩) main_call0_cst) (constant S_ .f32 0x00000000#32),
    TRef.binary (TRef.of (T := ⟨S8192x128, .f32⟩) main_call0_v0) (TRef.of (T := ⟨S_, .f32⟩) main_call0_cst) (TRef.of (T := ⟨S8192, .f32⟩) main_call0_v1) (fun x v => Host.reduceAdd x v reducesTo_S8192x128_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v1) Host.sqrt,
    nullary main_cst (constant S_ .f32 0x322BCC77#32),
    unary main_cst main_v2 (broadcastInDim S8192x1 ![] bcast_S_S8192x1 : (⟨S_, .f32⟩ : BufTy).Contents (Elt F) → (⟨S8192x1, .f32⟩ : BufTy).Contents (Elt F)),
    binary main_v1 main_v2 main_v3 (maximumf : (⟨S8192x1, .f32⟩ : BufTy).Contents (Elt F) → (⟨S8192x1, .f32⟩ : BufTy).Contents (Elt F) → (⟨S8192x1, .f32⟩ : BufTy).Contents (Elt F)),
    unary main_v3 main_v4 (broadcastInDim S8192x128 ![0, 1] bcast_S8192x1_S8192x128_0_1 : (⟨S8192x1, .f32⟩ : BufTy).Contents (Elt F) → (⟨S8192x128, .f32⟩ : BufTy).Contents (Elt F)),
    binary main_v0 main_v4 main_v5 (Host.divf : (⟨S8192x128, .f32⟩ : BufTy).Contents (Elt F) → (⟨S8192x128, .f32⟩ : BufTy).Contents (Elt F) → (⟨S8192x128, .f32⟩ : BufTy).Contents (Elt F)),
    binary main_v5 main_v5 main_v6 ((fun l r => Host.dotGeneral dot_S8192x128_S8192x128_S8192x8192_1_1_0_0_n_n none l r) : (⟨S8192x128, .f32⟩ : BufTy).Contents (Elt F) → (⟨S8192x128, .f32⟩ : BufTy).Contents (Elt F) → (⟨S8192x8192, .f32⟩ : BufTy).Contents (Elt F)),
    nullary main_cst_0 (constant S_ .f32 0x3F000000#32),
    unary main_cst_0 main_v7 (broadcastInDim S8192x8192 ![] bcast_S_S8192x8192 : (⟨S_, .f32⟩ : BufTy).Contents (Elt F) → (⟨S8192x8192, .f32⟩ : BufTy).Contents (Elt F)),
    binary main_v6 main_v7 main_v8 (Host.divf : (⟨S8192x8192, .f32⟩ : BufTy).Contents (Elt F) → (⟨S8192x8192, .f32⟩ : BufTy).Contents (Elt F) → (⟨S8192x8192, .f32⟩ : BufTy).Contents (Elt F)),
    nullary main_v9 (iotaInDim S8192x8192 32 0),
    nullary main_v10 (iotaInDim S8192x8192 32 1),
    nullary main_c (constantI S_ 32 0#32),
    unary main_c main_v11 (broadcastInDim S8192x8192 ![] bcast_S_S8192x8192 : (⟨S_, .i32⟩ : BufTy).Contents (Elt F) → (⟨S8192x8192, .i32⟩ : BufTy).Contents (Elt F)),
    binary main_v9 main_v11 main_v12 (addi : (⟨S8192x8192, .i32⟩ : BufTy).Contents (Elt F) → (⟨S8192x8192, .i32⟩ : BufTy).Contents (Elt F) → (⟨S8192x8192, .i32⟩ : BufTy).Contents (Elt F)),
    binary main_v12 main_v10 main_v13 (cmpi .eq : (⟨S8192x8192, .i32⟩ : BufTy).Contents (Elt F) → (⟨S8192x8192, .i32⟩ : BufTy).Contents (Elt F) → (⟨S8192x8192, .i1⟩ : BufTy).Contents (Elt F)),
    nullary main_cst_1 (constant S_ .f32 0xFF800000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v13) (TRef.of (T := ⟨S8192x8192, .f32⟩) main_call1_v1) (TRef.of (T := ⟨S8192x8192, .f32⟩) main_v8) (TRef.of (T := ⟨S8192x8192, .f32⟩) main_v14) select,
    nullary main_v15 (iotaInDim S4096 32 0),
    nullary main_c_2 (constantI S_ 32 4096#32),
    unary main_c_2 main_v16 (broadcastInDim S4096 ![] bcast_S_S4096 : (⟨S_, .i32⟩ : BufTy).Contents (Elt F) → (⟨S4096, .i32⟩ : BufTy).Contents (Elt F)),
    binary main_v16 main_v15 main_v17 (addi : (⟨S4096, .i32⟩ : BufTy).Contents (Elt F) → (⟨S4096, .i32⟩ : BufTy).Contents (Elt F) → (⟨S4096, .i32⟩ : BufTy).Contents (Elt F)),
    nullary main_v18 (iotaInDim S4096 32 0),
    binary main_v17 main_v18 main_v19 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)),
    TRef.nullary (TRef.of (T := ⟨S_, .f32⟩) main_call2_cst) (constant S_ .f32 0xFF800000#32),
    TRef.binary (TRef.of (T := ⟨S8192x8192, .f32⟩) main_v14) (TRef.of (T := ⟨S_, .f32⟩) main_call2_cst) (TRef.of (T := ⟨S8192, .f32⟩) main_call2_v0) (fun x v => Host.reduce FloatOps.maximumf x v reducesTo_S8192x8192_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x8192, .f32⟩) main_call2_v4) (broadcastInDim S8192x8192 ![0, 1] bcast_S8192x1_S8192x8192_0_1),
    TRef.binary (TRef.of (T := ⟨S8192x8192, .f32⟩) main_v14) (TRef.of (T := ⟨S8192x8192, .f32⟩) main_call2_v4) (TRef.of (T := ⟨S8192x8192, .f32⟩) main_call2_v5) subf,
    TRef.unary (TRef.of (T := ⟨S8192x8192, .f32⟩) main_call2_v5) (TRef.of (T := ⟨S8192x8192, .f32⟩) main_call2_v6) Host.exp,
    TRef.nullary (TRef.of (T := ⟨S_, .f32⟩) main_call2_cst_1) (constant S_ .f32 0x00000000#32),
    TRef.binary (TRef.of (T := ⟨S8192x8192, .f32⟩) main_call2_v6) (TRef.of (T := ⟨S_, .f32⟩) main_call2_cst_1) (TRef.of (T := ⟨S8192, .f32⟩) main_call2_v7) (fun x v => Host.reduceAdd x v reducesTo_S8192x8192_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x8192, .f32⟩) main_call2_v10) (broadcastInDim S8192x8192 ![0, 1] bcast_S8192x1_S8192x8192_0_1),
    TRef.binary (TRef.of (T := ⟨S8192x8192, .f32⟩) main_call2_v5) (TRef.of (T := ⟨S8192x8192, .f32⟩) main_call2_v10) (TRef.of (T := ⟨S8192x8192, .f32⟩) main_v20) subf,
    unary main_v19 main_v21 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S8192x1, .i32⟩) main_call3_v0) (broadcastInDim S8192x1 ![] bcast_S_S8192x1),
    TRef.binary (TRef.of (T := ⟨S8192x1, .i32⟩) main_v21) (TRef.of (T := ⟨S8192x1, .i32⟩) main_call3_v0) (TRef.of (T := ⟨S8192x1, .i1⟩) main_call3_v1) (cmpi .slt),
    TRef.nullary (TRef.of (T := ⟨S_, .i32⟩) main_call3_c_0) (constantI S_ 32 8192#32),
    TRef.unary (TRef.of (T := ⟨S_, .i32⟩) main_call3_c_0) (TRef.of (T := ⟨S8192x1, .i32⟩) main_call3_v2) (broadcastInDim S8192x1 ![] bcast_S_S8192x1),
    TRef.binary (TRef.of (T := ⟨S8192x1, .i32⟩) main_v21) (TRef.of (T := ⟨S8192x1, .i32⟩) main_call3_v2) (TRef.of (T := ⟨S8192x1, .i32⟩) main_call3_v3) addi,
    TRef.ternary (TRef.of (T := ⟨S8192x1, .i1⟩) main_call3_v1) (TRef.of (T := ⟨S8192x1, .i32⟩) main_call3_v3) (TRef.of (T := ⟨S8192x1, .i32⟩) main_v21) (TRef.of (T := ⟨S8192x1, .i32⟩) main_call3_v4) select,
    TRef.reshape (TRef.of (T := ⟨S8192x1, .i32⟩) main_call3_v4) (TRef.of (T := ⟨S8192x1x1, .i32⟩) main_call3_v5) rfl shapeCasts_S8192x1_S8192x1x1,
    TRef.nullary (TRef.of (T := ⟨S1, .i32⟩) main_call3_c_1) (constantI S1 32 8191#32),
    TRef.nullary (TRef.of (T := ⟨S_, .i32⟩) main_call3_c_2) (constantI S_ 32 0#32),
    TRef.unary (TRef.of (T := ⟨S_, .i32⟩) main_call3_c_2) (TRef.of (T := ⟨S8192x1x1, .i32⟩) main_call3_v6) (broadcastInDim S8192x1x1 ![] bcast_S_S8192x1x1),
    TRef.binary (TRef.of (T := ⟨S8192x1x1, .i32⟩) main_call3_v5) (TRef.of (T := ⟨S8192x1x1, .i32⟩) main_call3_v6) (TRef.of (T := ⟨S8192x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S8192x1x1, .i32⟩) main_call3_v9) (broadcastInDim S8192x1x1 ![0, 1, 2] bcast_S1x1x1_S8192x1x1_0_1_2),
    TRef.binary (TRef.of (T := ⟨S8192x1x1, .i32⟩) main_call3_v5) (TRef.of (T := ⟨S8192x1x1, .i32⟩) main_call3_v9) (TRef.of (T := ⟨S8192x1x1, .i1⟩) main_call3_v10) (cmpi .sle),
    TRef.binary (TRef.of (T := ⟨S8192x1x1, .i1⟩) main_call3_v7) (TRef.of (T := ⟨S8192x1x1, .i1⟩) main_call3_v10) (TRef.of (T := ⟨S8192x1x1, .i1⟩) main_call3_v11) andi,
    TRef.nullary (TRef.of (T := ⟨S_, .i1⟩) main_call3_c_3) (constantI S_ 1 1#1),
    TRef.binary (TRef.of (T := ⟨S8192x1x1, .i1⟩) main_call3_v11) (TRef.of (T := ⟨S_, .i1⟩) main_call3_c_3) (TRef.of (T := ⟨S8192x1, .i1⟩) main_call3_v12) (fun x v => Host.reduce IntOp.andi x v reducesTo_S8192x1x1_S8192x1_d2 h_S_),
    TRef.binary (TRef.of (T := ⟨S8192x8192, .f32⟩) main_v20) (TRef.of (T := ⟨S8192x1x1, .i32⟩) main_call3_v5) (TRef.of (T := ⟨S8192x1, .f32⟩) main_call3_v13) (fun x i => Host.gather gather_S8192x8192_S8192x1x1_S8192x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S8192x1, .f32⟩) main_call3_v14) (broadcastInDim S8192x1 ![] bcast_S_S8192x1),
    TRef.ternary (TRef.of (T := ⟨S8192x1, .i1⟩) main_call3_v12) (TRef.of (T := ⟨S8192x1, .f32⟩) main_call3_v13) (TRef.of (T := ⟨S8192x1, .f32⟩) main_call3_v14) (TRef.of (T := ⟨S8192x1, .f32⟩) main_v22) select,
    nullary main_cst_3 (constant S_ .f32 0x00000000#32),
    binary main_v22 main_cst_3 main_v23 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)),
    nullary main_cst_4 (constant S_ .f32 0x46000000#32),
    binary main_v23 main_cst_4 main_v24 (Host.divf : (⟨S_, .f32⟩ : BufTy).Contents (Elt F) → (⟨S_, .f32⟩ : BufTy).Contents (Elt F) → (⟨S_, .f32⟩ : BufTy).Contents (Elt F)),
    unary main_v24 main_v25 (Host.negf : (⟨S_, .f32⟩ : BufTy).Contents (Elt F) → (⟨S_, .f32⟩ : BufTy).Contents (Elt F)) ]

/-- Stage A: stack the arguments, divide every row by its floored length. -/
abbrev lA : List (HloOp τ sig (Elt F)) :=
  [ binary main_arg0 main_arg1 main_v0 ((fun a b => concatenate S8192x128 0 [⟨S4096x128, a⟩, ⟨S4096x128, b⟩] concatenates_S4096x128_S4096x128_S8192x128_d0) : (⟨S4096x128, .f32⟩ : BufTy).Contents (Elt F) → (⟨S4096x128, .f32⟩ : BufTy).Contents (Elt F) → (⟨S8192x128, .f32⟩ : BufTy).Contents (Elt F)),
    TRef.binary (TRef.of (T := ⟨S8192x128, .f32⟩) main_v0) (TRef.of (T := ⟨S8192x128, .f32⟩) main_v0) (TRef.of (T := ⟨S8192x128, .f32⟩) main_call0_v0) mulf,
    TRef.nullary (TRef.of (T := ⟨S_, .f32⟩) main_call0_cst) (constant S_ .f32 0x00000000#32),
    TRef.binary (TRef.of (T := ⟨S8192x128, .f32⟩) main_call0_v0) (TRef.of (T := ⟨S_, .f32⟩) main_call0_cst) (TRef.of (T := ⟨S8192, .f32⟩) main_call0_v1) (fun x v => Host.reduceAdd x v reducesTo_S8192x128_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v1) Host.sqrt,
    nullary main_cst (constant S_ .f32 0x322BCC77#32),
    unary main_cst main_v2 (broadcastInDim S8192x1 ![] bcast_S_S8192x1 : (⟨S_, .f32⟩ : BufTy).Contents (Elt F) → (⟨S8192x1, .f32⟩ : BufTy).Contents (Elt F)),
    binary main_v1 main_v2 main_v3 (maximumf : (⟨S8192x1, .f32⟩ : BufTy).Contents (Elt F) → (⟨S8192x1, .f32⟩ : BufTy).Contents (Elt F) → (⟨S8192x1, .f32⟩ : BufTy).Contents (Elt F)),
    unary main_v3 main_v4 (broadcastInDim S8192x128 ![0, 1] bcast_S8192x1_S8192x128_0_1 : (⟨S8192x1, .f32⟩ : BufTy).Contents (Elt F) → (⟨S8192x128, .f32⟩ : BufTy).Contents (Elt F)),
    binary main_v0 main_v4 main_v5 (Host.divf : (⟨S8192x128, .f32⟩ : BufTy).Contents (Elt F) → (⟨S8192x128, .f32⟩ : BufTy).Contents (Elt F) → (⟨S8192x128, .f32⟩ : BufTy).Contents (Elt F)) ]

/-- Stage B: inner products over one half, diagonal masked. -/
abbrev lB : List (HloOp τ sig (Elt F)) :=
  [ binary main_v5 main_v5 main_v6 ((fun l r => Host.dotGeneral dot_S8192x128_S8192x128_S8192x8192_1_1_0_0_n_n none l r) : (⟨S8192x128, .f32⟩ : BufTy).Contents (Elt F) → (⟨S8192x128, .f32⟩ : BufTy).Contents (Elt F) → (⟨S8192x8192, .f32⟩ : BufTy).Contents (Elt F)),
    nullary main_cst_0 (constant S_ .f32 0x3F000000#32),
    unary main_cst_0 main_v7 (broadcastInDim S8192x8192 ![] bcast_S_S8192x8192 : (⟨S_, .f32⟩ : BufTy).Contents (Elt F) → (⟨S8192x8192, .f32⟩ : BufTy).Contents (Elt F)),
    binary main_v6 main_v7 main_v8 (Host.divf : (⟨S8192x8192, .f32⟩ : BufTy).Contents (Elt F) → (⟨S8192x8192, .f32⟩ : BufTy).Contents (Elt F) → (⟨S8192x8192, .f32⟩ : BufTy).Contents (Elt F)),
    nullary main_v9 (iotaInDim S8192x8192 32 0),
    nullary main_v10 (iotaInDim S8192x8192 32 1),
    nullary main_c (constantI S_ 32 0#32),
    unary main_c main_v11 (broadcastInDim S8192x8192 ![] bcast_S_S8192x8192 : (⟨S_, .i32⟩ : BufTy).Contents (Elt F) → (⟨S8192x8192, .i32⟩ : BufTy).Contents (Elt F)),
    binary main_v9 main_v11 main_v12 (addi : (⟨S8192x8192, .i32⟩ : BufTy).Contents (Elt F) → (⟨S8192x8192, .i32⟩ : BufTy).Contents (Elt F) → (⟨S8192x8192, .i32⟩ : BufTy).Contents (Elt F)),
    binary main_v12 main_v10 main_v13 (cmpi .eq : (⟨S8192x8192, .i32⟩ : BufTy).Contents (Elt F) → (⟨S8192x8192, .i32⟩ : BufTy).Contents (Elt F) → (⟨S8192x8192, .i1⟩ : BufTy).Contents (Elt F)),
    nullary main_cst_1 (constant S_ .f32 0xFF800000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v13) (TRef.of (T := ⟨S8192x8192, .f32⟩) main_call1_v1) (TRef.of (T := ⟨S8192x8192, .f32⟩) main_v8) (TRef.of (T := ⟨S8192x8192, .f32⟩) main_v14) select ]

/-- Stage C: the partner labels. -/
abbrev lC : List (HloOp τ sig (Elt F)) :=
  [ nullary main_v15 (iotaInDim S4096 32 0),
    nullary main_c_2 (constantI S_ 32 4096#32),
    unary main_c_2 main_v16 (broadcastInDim S4096 ![] bcast_S_S4096 : (⟨S_, .i32⟩ : BufTy).Contents (Elt F) → (⟨S4096, .i32⟩ : BufTy).Contents (Elt F)),
    binary main_v16 main_v15 main_v17 (addi : (⟨S4096, .i32⟩ : BufTy).Contents (Elt F) → (⟨S4096, .i32⟩ : BufTy).Contents (Elt F) → (⟨S4096, .i32⟩ : BufTy).Contents (Elt F)),
    nullary main_v18 (iotaInDim S4096 32 0),
    binary main_v17 main_v18 main_v19 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)) ]

/-- Stage D: the row-wise log-softmax. -/
abbrev lD : List (HloOp τ sig (Elt F)) :=
  [ TRef.nullary (TRef.of (T := ⟨S_, .f32⟩) main_call2_cst) (constant S_ .f32 0xFF800000#32),
    TRef.binary (TRef.of (T := ⟨S8192x8192, .f32⟩) main_v14) (TRef.of (T := ⟨S_, .f32⟩) main_call2_cst) (TRef.of (T := ⟨S8192, .f32⟩) main_call2_v0) (fun x v => Host.reduce FloatOps.maximumf x v reducesTo_S8192x8192_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x8192, .f32⟩) main_call2_v4) (broadcastInDim S8192x8192 ![0, 1] bcast_S8192x1_S8192x8192_0_1),
    TRef.binary (TRef.of (T := ⟨S8192x8192, .f32⟩) main_v14) (TRef.of (T := ⟨S8192x8192, .f32⟩) main_call2_v4) (TRef.of (T := ⟨S8192x8192, .f32⟩) main_call2_v5) subf,
    TRef.unary (TRef.of (T := ⟨S8192x8192, .f32⟩) main_call2_v5) (TRef.of (T := ⟨S8192x8192, .f32⟩) main_call2_v6) Host.exp,
    TRef.nullary (TRef.of (T := ⟨S_, .f32⟩) main_call2_cst_1) (constant S_ .f32 0x00000000#32),
    TRef.binary (TRef.of (T := ⟨S8192x8192, .f32⟩) main_call2_v6) (TRef.of (T := ⟨S_, .f32⟩) main_call2_cst_1) (TRef.of (T := ⟨S8192, .f32⟩) main_call2_v7) (fun x v => Host.reduceAdd x v reducesTo_S8192x8192_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x8192, .f32⟩) main_call2_v10) (broadcastInDim S8192x8192 ![0, 1] bcast_S8192x1_S8192x8192_0_1),
    TRef.binary (TRef.of (T := ⟨S8192x8192, .f32⟩) main_call2_v5) (TRef.of (T := ⟨S8192x8192, .f32⟩) main_call2_v10) (TRef.of (T := ⟨S8192x8192, .f32⟩) main_v20) subf ]

/-- Stage E: the entries at the labels, minus their mean. -/
abbrev lE : List (HloOp τ sig (Elt F)) :=
  [ unary main_v19 main_v21 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S8192x1, .i32⟩) main_call3_v0) (broadcastInDim S8192x1 ![] bcast_S_S8192x1),
    TRef.binary (TRef.of (T := ⟨S8192x1, .i32⟩) main_v21) (TRef.of (T := ⟨S8192x1, .i32⟩) main_call3_v0) (TRef.of (T := ⟨S8192x1, .i1⟩) main_call3_v1) (cmpi .slt),
    TRef.nullary (TRef.of (T := ⟨S_, .i32⟩) main_call3_c_0) (constantI S_ 32 8192#32),
    TRef.unary (TRef.of (T := ⟨S_, .i32⟩) main_call3_c_0) (TRef.of (T := ⟨S8192x1, .i32⟩) main_call3_v2) (broadcastInDim S8192x1 ![] bcast_S_S8192x1),
    TRef.binary (TRef.of (T := ⟨S8192x1, .i32⟩) main_v21) (TRef.of (T := ⟨S8192x1, .i32⟩) main_call3_v2) (TRef.of (T := ⟨S8192x1, .i32⟩) main_call3_v3) addi,
    TRef.ternary (TRef.of (T := ⟨S8192x1, .i1⟩) main_call3_v1) (TRef.of (T := ⟨S8192x1, .i32⟩) main_call3_v3) (TRef.of (T := ⟨S8192x1, .i32⟩) main_v21) (TRef.of (T := ⟨S8192x1, .i32⟩) main_call3_v4) select,
    TRef.reshape (TRef.of (T := ⟨S8192x1, .i32⟩) main_call3_v4) (TRef.of (T := ⟨S8192x1x1, .i32⟩) main_call3_v5) rfl shapeCasts_S8192x1_S8192x1x1,
    TRef.nullary (TRef.of (T := ⟨S1, .i32⟩) main_call3_c_1) (constantI S1 32 8191#32),
    TRef.nullary (TRef.of (T := ⟨S_, .i32⟩) main_call3_c_2) (constantI S_ 32 0#32),
    TRef.unary (TRef.of (T := ⟨S_, .i32⟩) main_call3_c_2) (TRef.of (T := ⟨S8192x1x1, .i32⟩) main_call3_v6) (broadcastInDim S8192x1x1 ![] bcast_S_S8192x1x1),
    TRef.binary (TRef.of (T := ⟨S8192x1x1, .i32⟩) main_call3_v5) (TRef.of (T := ⟨S8192x1x1, .i32⟩) main_call3_v6) (TRef.of (T := ⟨S8192x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S8192x1x1, .i32⟩) main_call3_v9) (broadcastInDim S8192x1x1 ![0, 1, 2] bcast_S1x1x1_S8192x1x1_0_1_2),
    TRef.binary (TRef.of (T := ⟨S8192x1x1, .i32⟩) main_call3_v5) (TRef.of (T := ⟨S8192x1x1, .i32⟩) main_call3_v9) (TRef.of (T := ⟨S8192x1x1, .i1⟩) main_call3_v10) (cmpi .sle),
    TRef.binary (TRef.of (T := ⟨S8192x1x1, .i1⟩) main_call3_v7) (TRef.of (T := ⟨S8192x1x1, .i1⟩) main_call3_v10) (TRef.of (T := ⟨S8192x1x1, .i1⟩) main_call3_v11) andi,
    TRef.nullary (TRef.of (T := ⟨S_, .i1⟩) main_call3_c_3) (constantI S_ 1 1#1),
    TRef.binary (TRef.of (T := ⟨S8192x1x1, .i1⟩) main_call3_v11) (TRef.of (T := ⟨S_, .i1⟩) main_call3_c_3) (TRef.of (T := ⟨S8192x1, .i1⟩) main_call3_v12) (fun x v => Host.reduce IntOp.andi x v reducesTo_S8192x1x1_S8192x1_d2 h_S_),
    TRef.binary (TRef.of (T := ⟨S8192x8192, .f32⟩) main_v20) (TRef.of (T := ⟨S8192x1x1, .i32⟩) main_call3_v5) (TRef.of (T := ⟨S8192x1, .f32⟩) main_call3_v13) (fun x i => Host.gather gather_S8192x8192_S8192x1x1_S8192x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S8192x1, .f32⟩) main_call3_v14) (broadcastInDim S8192x1 ![] bcast_S_S8192x1),
    TRef.ternary (TRef.of (T := ⟨S8192x1, .i1⟩) main_call3_v12) (TRef.of (T := ⟨S8192x1, .f32⟩) main_call3_v13) (TRef.of (T := ⟨S8192x1, .f32⟩) main_call3_v14) (TRef.of (T := ⟨S8192x1, .f32⟩) main_v22) select,
    nullary main_cst_3 (constant S_ .f32 0x00000000#32),
    binary main_v22 main_cst_3 main_v23 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)),
    nullary main_cst_4 (constant S_ .f32 0x46000000#32),
    binary main_v23 main_cst_4 main_v24 (Host.divf : (⟨S_, .f32⟩ : BufTy).Contents (Elt F) → (⟨S_, .f32⟩ : BufTy).Contents (Elt F) → (⟨S_, .f32⟩ : BufTy).Contents (Elt F)),
    unary main_v24 main_v25 (Host.negf : (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., nullary_bufs_sub .., nullary_bufs_sub .., unary_bufs_sub .., binary_bufs_sub .., binary_bufs_sub .., nullary_bufs_sub .., unary_bufs_sub .., unary_bufs_sub .., ternary_bufs_sub .., nullary_bufs_sub .., nullary_bufs_sub .., unary_bufs_sub .., binary_bufs_sub .., nullary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., nullary_bufs_sub .., binary_bufs_sub .., unary_bufs_sub ..⟩

/-- The line is its five stages in order. -/
theorem ops_eq : (ops : List (HloOp τ sig (Elt F))) = lA ++ (lB ++ (lC ++ (lD ++ lE))) := rfl

/-! ## Each stage from any contents

A called function's operation reads and writes its buffers through the identification of the buffer's type with the
value's type (`TRef.toBuf` / `TRef.ofBuf`: transports along an equation that holds by computation).  A value written
and read back through the same identification is the value (`ofBuf_toBuf`); where a plain operation writes what a
called function's operation reads, or the other way round, the single transport at that literal buffer is the identity
(`toBuf_<buffer>` / `ofBuf_<buffer>`).  With the transports rewritten away, what a stage computes is literally the
composition of its operations, which is what the `val_<buffer>` spell.  The two values that cross a stage boundary
between called functions' operations (main_v14, main_v20) are stated with their transport on. -/

/-- Contents carried to a buffer's own type and back are the contents. -/
theorem ofBuf_toBuf {sig : RefSig} {T : BufTy} {Val : EltTy → Type} (x : TRef sig T) (v : T.Contents Val) :
    x.ofBuf (x.toBuf v) = v := by
  obtain ⟨r, h, _, _⟩ := x
  subst h
  rfl

theorem toBuf_main_v21 (p1 : (main_v21 : Ref sig .tc).ty = ⟨S8192x1, .i32⟩) (p2 : (main_v21 : Ref sig .tc).space ≠ .host) (p3 : (main_v21 : Ref sig .tc).isScoped = false)
    (v : (⟨S8192x1, .i32⟩ : BufTy).Contents (Elt F)) : (TRef.of (T := ⟨S8192x1, .i32⟩) main_v21 p1 p2 p3).toBuf v = v := rfl
theorem ofBuf_main_v21 (p1 : (main_v21 : Ref sig .tc).ty = ⟨S8192x1, .i32⟩) (p2 : (main_v21 : Ref sig .tc).space ≠ .host) (p3 : (main_v21 : Ref sig .tc).isScoped = false)
    (v : (⟨S8192x1, .i32⟩ : BufTy).Contents (Elt F)) : (TRef.of (T := ⟨S8192x1, .i32⟩) main_v21 p1 p2 p3).ofBuf v = v := rfl
theorem toBuf_main_call3_v5 (p1 : (main_call3_v5 : Ref sig .tc).ty = ⟨S8192x1x1, .i32⟩) (p2 : (main_call3_v5 : Ref sig .tc).space ≠ .host) (p3 : (main_call3_v5 : Ref sig .tc).isScoped = false)
    (v : (⟨S8192x1x1, .i32⟩ : BufTy).Contents (Elt F)) : (TRef.of (T := ⟨S8192x1x1, .i32⟩) main_call3_v5 p1 p2 p3).toBuf v = v := rfl
theorem ofBuf_main_call3_v5 (p1 : (main_call3_v5 : Ref sig .tc).ty = ⟨S8192x1x1, .i32⟩) (p2 : (main_call3_v5 : Ref sig .tc).space ≠ .host) (p3 : (main_call3_v5 : Ref sig .tc).isScoped = false)
    (v : (⟨S8192x1x1, .i32⟩ : BufTy).Contents (Elt F)) : (TRef.of (T := ⟨S8192x1x1, .i32⟩) main_call3_v5 p1 p2 p3).ofBuf v = v := rfl
theorem toBuf_main_call3_v4 (p1 : (main_call3_v4 : Ref sig .tc).ty = ⟨S8192x1, .i32⟩) (p2 : (main_call3_v4 : Ref sig .tc).space ≠ .host) (p3 : (main_call3_v4 : Ref sig .tc).isScoped = false)
    (v : (⟨S8192x1, .i32⟩ : BufTy).Contents (Elt F)) : (TRef.of (T := ⟨S8192x1, .i32⟩) main_call3_v4 p1 p2 p3).toBuf v = v := rfl
theorem ofBuf_main_call3_v4 (p1 : (main_call3_v4 : Ref sig .tc).ty = ⟨S8192x1, .i32⟩) (p2 : (main_call3_v4 : Ref sig .tc).space ≠ .host) (p3 : (main_call3_v4 : Ref sig .tc).isScoped = false)
    (v : (⟨S8192x1, .i32⟩ : BufTy).Contents (Elt F)) : (TRef.of (T := ⟨S8192x1, .i32⟩) main_call3_v4 p1 p2 p3).ofBuf v = v := rfl
theorem toBuf_main_v22 (p1 : (main_v22 : Ref sig .tc).ty = ⟨S8192x1, .f32⟩) (p2 : (main_v22 : Ref sig .tc).space ≠ .host) (p3 : (main_v22 : Ref sig .tc).isScoped = false)
    (v : (⟨S8192x1, .f32⟩ : BufTy).Contents (Elt F)) : (TRef.of (T := ⟨S8192x1, .f32⟩) main_v22 p1 p2 p3).toBuf v = v := rfl
theorem ofBuf_main_v22 (p1 : (main_v22 : Ref sig .tc).ty = ⟨S8192x1, .f32⟩) (p2 : (main_v22 : Ref sig .tc).space ≠ .host) (p3 : (main_v22 : Ref sig .tc).isScoped = false)
    (v : (⟨S8192x1, .f32⟩ : BufTy).Contents (Elt F)) : (TRef.of (T := ⟨S8192x1, .f32⟩) main_v22 p1 p2 p3).ofBuf v = v := rfl

theorem stageA (V : Valuation τ sig (Elt F)) :
    after lA V (Proc.devRef .tc main_v5)
      = val_main_v5 (F := F) (V (Proc.devRef .tc main_arg0)) (V (Proc.devRef .tc main_arg1)) := by
  after_results_simp
  simp only [ofBuf_toBuf]
  rfl

theorem stageB (V : Valuation τ sig (Elt F)) (x0 x1 : (⟨S4096x128, .f32⟩ : BufTy).Contents (Elt F))
    (h5 : V (Proc.devRef .tc main_v5) = val_main_v5 (F := F) x0 x1) :
    after lB V (Proc.devRef .tc main_v14)
      = (TRef.of (T := ⟨S8192x8192, .f32⟩) main_v14).toBuf (val_main_v14 (F := F) x0 x1) := by
  after_results_simp
  rw [h5]
  simp only [ofBuf_toBuf]
  rfl

theorem stageC (V : Valuation τ sig (Elt F)) :
    after lC V (Proc.devRef .tc main_v19) = val_main_v19 (F := F) := by
  after_results_simp <;> rfl

/-- Stage C leaves the masked scores where they are. -/
theorem carryC (V : Valuation τ sig (Elt F)) :
    after lC V (Proc.devRef .tc main_v14) = V (Proc.devRef .tc main_v14) := by
  after_results_simp <;> rfl

theorem stageD (V : Valuation τ sig (Elt F)) (x0 x1 : (⟨S4096x128, .f32⟩ : BufTy).Contents (Elt F))
    (h14 : V (Proc.devRef .tc main_v14)
      = (TRef.of (T := ⟨S8192x8192, .f32⟩) main_v14).toBuf (val_main_v14 (F := F) x0 x1)) :
    after lD V (Proc.devRef .tc main_v20)
      = (TRef.of (T := ⟨S8192x8192, .f32⟩) main_v20).toBuf (val_main_v20 (F := F) x0 x1) := by
  after_results_simp
  rw [h14]
  simp only [ofBuf_toBuf]
  rfl

/-- Stage D leaves the labels where they are. -/
theorem carryD (V : Valuation τ sig (Elt F)) :
    after lD V (Proc.devRef .tc main_v19) = V (Proc.devRef .tc main_v19) := by
  after_results_simp <;> rfl

theorem stageE (V : Valuation τ sig (Elt F)) (x0 x1 : (⟨S4096x128, .f32⟩ : BufTy).Contents (Elt F))
    (h19 : V (Proc.devRef .tc main_v19) = val_main_v19 (F := F))
    (h20 : V (Proc.devRef .tc main_v20)
      = (TRef.of (T := ⟨S8192x8192, .f32⟩) main_v20).toBuf (val_main_v20 (F := F) x0 x1)) :
    after lE V (Proc.devRef .tc main_v25) = val_main_v25 (F := F) x0 x1 := by
  after_results_simp
  rw [h19, h20]
  simp only [ofBuf_toBuf, ofBuf_main_v21, ofBuf_main_call3_v5, toBuf_main_call3_v4, toBuf_main_v22]
  rfl

/-! ## The whole line -/

/-- From any contents, the line ends with main_v25 at `val_main_v25` of what the two argument buffers held. -/
theorem after_v25 (V : Valuation τ sig (Elt F)) :
    after ops V (Proc.devRef .tc main_v25)
      = val_main_v25 (F := F) (V (Proc.devRef .tc main_arg0)) (V (Proc.devRef .tc main_arg1)) := by
  rw [ops_eq, after_append, after_append, after_append, after_append]
  refine stageE _ _ _ ?_ ?_
  · rw [carryD]; exact stageC _
  · refine stageD _ _ _ ?_
    rw [carryC]
    exact stageB _ _ _ (stageA V)

/-- No operation writes the first argument … -/
theorem after_arg0 (V : Valuation τ sig (Elt F)) :
    after ops V (Proc.devRef .tc main_arg0) = V (Proc.devRef .tc main_arg0) := by
  after_results_simp <;> rfl
/-- … nor the second. -/
theorem after_arg1 (V : Valuation τ sig (Elt F)) :
    after ops V (Proc.devRef .tc main_arg1) = V (Proc.devRef .tc main_arg1) := by
  after_results_simp <;> rfl

/-- On every device, for any float values, from any memory with zero counters: every weakly fair execution of
    @main terminates with the result buffer at `val_main_v25` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
        = val_main_v25 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v25).trans (after_v25 (launchContents m c)),
      (h c main_arg0).trans (after_arg0 (launchContents m c)),
      (h c main_arg1).trans (after_arg1 (launchContents m c))⟩)
    (run_seq scopedRefs_eq scopedSems_eq defs main (fun _ => ops) main_eq (fun _ => ops_sub) m ρ)

end Cert.ReferenceIdeal.RefRun

end
-- ==== Proof.RefValueA.lean ====
/-
  The first stage of the whole-matrix program, read at an entry: the two batches stacked, every row divided by its
  floored Euclidean length.

  The stacked array at row r is the first batch's row r below 4096 and the second batch's row r − 4096 from there on.
  The row's sum of squares is a sum over the 128 columns started from the value of the pattern of 0.0, which is 0;
  its square root is floored at the small constant, broadcast along the row, and divides every entry.
-/
import proofs.«129541_j23081154249195_1_alg».proof.Proof.RefValueRead
import proofs.«129541_j23081154249195_1_alg».proof.Proof.Spec

noncomputable section

namespace Cert.ReferenceIdeal.RefValue

open Cert.ReferenceIdeal Cert.ReferenceIdeal.Gen Cert.ReferenceIdeal.ReadP Idealize.ShloMosaic Idealize.ShloMosaic.ValueIdx

/-- the argument arrays as row/column functions -/
def argRows (x : Cert.ReferenceIdeal.S4096x128.Idx → EReal) : Fin 4096 → Fin 128 → EReal := fun r d => x (ix2 r d)

/-- The stacked array at (r, d). -/
theorem v0_apply (x0 x1 : (⟨S4096x128, .f32⟩ : BufTy).Contents (Elt Ideal)) (r : Fin 8192) (d : Fin 128) :
    val_main_v0 (F := Ideal) x0 x1 (ix2 r d) = NtXent.stack (argRows x0) (argRows x1) r d := by
  unfold val_main_v0 NtXent.stack
  by_cases h : r.val < 4096
  · rw [dif_pos h]
    exact concatenate_pair_apply_left (0 : Fin S8192x128.rank) x0 x1 _ (ix2 r d) rfl (ix2 ⟨r.val, h⟩ d)
      (fun b => by match b with | ⟨0, _⟩ => rfl | ⟨1, _⟩ => rfl)
  · rw [dif_neg h]
    exact concatenate_pair_apply_right (0 : Fin S8192x128.rank) x0 x1 _ (ix2 r d) rfl rfl (ix2 ⟨r.val - 4096, by omega⟩ d)
      (fun b hb => by match b with | ⟨0, _⟩ => exact absurd rfl hb | ⟨1, _⟩ => rfl)
      (by show (r.val - 4096) + 4096 = r.val; omega)

/-- The index of row r's floored length, of its sum of squares, and of the k-th term of that sum. -/
theorem idx_v4 (r : Fin 8192) (d : Fin 128) : idx_main_v4 (ix2 r d) = ix2 r (0 : Fin 1) :=
  funext fun a => by match a with | ⟨0, _⟩ => rfl | ⟨1, _⟩ => rfl
theorem idx_call0_v2 (r : Fin 8192) (z : Fin 1) : idx_main_call0_v2 (ix2 r z) = ix1 r :=
  funext fun a => by match a with | ⟨0, _⟩ => rfl
theorem idx_call0_v1 (r : Fin 8192) (k : Fin 128) : idx_main_call0_v1 (ix1 r) k = ix2 r k :=
  funext fun a => by match a with | ⟨0, _⟩ => rfl | ⟨1, _⟩ => rfl

/-- Row r's floored length. -/
theorem v3_apply (x0 x1 : (⟨S4096x128, .f32⟩ : BufTy).Contents (Elt Ideal)) (r : Fin 8192) :
    val_main_v3 (F := Ideal) x0 x1 (ix2 r (0 : Fin 1)) = NtXent.nrm (NtXent.stack (argRows x0) (argRows x1)) r := by
  rw [val_main_v3_apply, val_main_v1_apply, val_main_call0_v2_apply, idx_call0_v2, val_main_call0_v1_apply,
    val_main_v2_apply, val_main_cst_apply, val_main_call0_cst_apply]
  simp only [Ideal.maximumf_def, Ideal.hostUnary_sqrt_def, Ideal.ofBits_def, Ideal.ofBits_zero_f32, zero_add]
  unfold NtXent.nrm NtXent.sq NtXent.eps
  refine congrArg (fun s => max (Ideal.sqrt s) _) (Finset.sum_congr rfl fun k _ => ?_)
  rw [idx_call0_v1, val_main_call0_v0_apply, Ideal.mulf_def, v0_apply]

/-- The normalized array at (r, d). -/
theorem v5_apply (x0 x1 : (⟨S4096x128, .f32⟩ : BufTy).Contents (Elt Ideal)) (r : Fin 8192) (d : Fin 128) :
    val_main_v5 (F := Ideal) x0 x1 (ix2 r d) = NtXent.zn (NtXent.stack (argRows x0) (argRows x1)) r d := by
  rw [val_main_v5_apply, val_main_v4_apply, idx_v4, v3_apply, v0_apply, Ideal.hostDivf_def]
  rfl

end Cert.ReferenceIdeal.RefValue

end
-- ==== Proof.RefValueB.lean ====
/-
  The second stage of the whole-matrix program, read at an entry: the inner product of two normalized rows divided by
  one half, with the row's own entry masked.

  The inner product is the contraction over the 128 columns of both operands.  The mask compares the two coordinates
  as 32-bit words; coordinates below 8192 are equal as words exactly when they are equal.  The masking constant is the
  pattern of −∞, which is the bottom of the extended reals.
-/
import proofs.«129541_j23081154249195_1_alg».proof.Proof.RefValueRead
import proofs.«129541_j23081154249195_1_alg».proof.Proof.Spec

noncomputable section

namespace Cert.ReferenceIdeal.RefValue

open Cert.ReferenceIdeal Cert.ReferenceIdeal.Gen Cert.ReferenceIdeal.ReadP Idealize.ShloMosaic Idealize.ShloMosaic.ValueIdx

/-- The pattern of −∞ is the bottom element. -/
theorem ofBits_neg_inf : Ideal.ofBits .f32 0xFF800000#32 = ⊥ := by simp [Ideal.ofBits, Ideal.ieee]

theorem lidx_v6 (r c : Fin 8192) (k : Fin 128) : lidx_main_v6 (ix2 r c) k = ix2 r k :=
  funext fun a => by match a with | ⟨0, _⟩ => rfl | ⟨1, _⟩ => rfl
theorem ridx_v6 (r c : Fin 8192) (k : Fin 128) : ridx_main_v6 (ix2 r c) k = ix2 c k :=
  funext fun a => by match a with | ⟨0, _⟩ => rfl | ⟨1, _⟩ => rfl

/-- Two coordinates below 8192 are the same 32-bit word exactly when they are the same coordinate. -/
theorem ofNat_eq_iff (r c : Fin 8192) : BitVec.ofNat 32 r.val = BitVec.ofNat 32 c.val ↔ r = c := by
  constructor
  · intro h
    have := congrArg BitVec.toNat h
    simp only [BitVec.toNat_ofNat] at this
    have hr := r.isLt; have hc := c.isLt
    exact Fin.ext (by omega)
  · rintro rfl; rfl

/-- The mask at (r, c): set exactly on the diagonal. -/
theorem v13_apply (r c : Fin 8192) :
    val_main_v13 (F := Ideal) (ix2 r c) = if r = c then 1#1 else 0#1 := by
  rw [val_main_v13_apply, val_main_v12_apply, val_main_v9_apply, val_main_v10_apply, val_main_v11_apply, val_main_c_apply]
  show IntOp.cmpi .eq (IntOp.addi (BitVec.ofNat 32 r.val) 0#32) (BitVec.ofNat 32 c.val) = _
  have h0 : IntOp.addi (BitVec.ofNat 32 r.val) 0#32 = BitVec.ofNat 32 r.val := by
    show BitVec.ofNat 32 r.val + 0#32 = _
    exact BitVec.add_zero _
  rw [h0]
  by_cases h : r = c
  · rw [if_pos h]; exact IntOp.cmpi_eq.mpr ((ofNat_eq_iff r c).mpr h)
  · rw [if_neg h]
    exact eq_zero_of_ne_one (fun h1 => h ((ofNat_eq_iff r c).mp (IntOp.cmpi_eq.mp h1)))

/-- The masked scores at (r, c), as a function of the normalized array. -/
theorem v14_apply (x0 x1 : (⟨S4096x128, .f32⟩ : BufTy).Contents (Elt Ideal)) (r c : Fin 8192) :
    val_main_v14 (F := Ideal) x0 x1 (ix2 r c)
      = NtXent.simDiv (fun r d => val_main_v5 (F := Ideal) x0 x1 (ix2 r d)) r c := by
  rw [val_main_v14_apply, v13_apply]
  unfold NtXent.simDiv
  by_cases h : r = c
  · rw [if_pos h, if_pos h, select_one, val_main_call1_v1_apply, val_main_call1_v0_apply, val_main_cst_1_apply]
    exact ofBits_neg_inf
  · rw [if_neg h, if_neg h, select_zero, val_main_v8_apply, val_main_v7_apply, val_main_cst_0_apply, val_main_v6_apply,
      Ideal.hostDivf_def]
    unfold NtXent.dot NtXent.half
    refine congrArg (fun s => Ideal.div s _) (Finset.sum_congr rfl fun k _ => ?_)
    rw [lidx_v6, ridx_v6]

end Cert.ReferenceIdeal.RefValue

end
-- ==== Proof.RefValueD.lean ====
/-
  The fourth stage of the whole-matrix program, read at an entry: the row-wise log-softmax of the masked scores.

  The row's maximum is a fold of max from the bottom element over the row's 8192 entries, taken once more against the
  bottom element: that is the supremum of the row.  The shifted scores are exponentiated and summed over the row from
  the value of the pattern of 0.0; the logarithm of the sum, broadcast along the row, is subtracted from the shifted
  score.
-/
import proofs.«129541_j23081154249195_1_alg».proof.Proof.RefValueRead
import proofs.«129541_j23081154249195_1_alg».proof.Proof.Spec
import proofs.«129541_j23081154249195_1_alg».proof.Proof.RefValueB

noncomputable section

namespace Cert.ReferenceIdeal.RefValue

open Cert.ReferenceIdeal Cert.ReferenceIdeal.Gen Cert.ReferenceIdeal.ReadP Idealize.ShloMosaic Idealize.ShloMosaic.ValueIdx

theorem idx_call2_v4 (r c : Fin 8192) : idx_main_call2_v4 (ix2 r c) = ix2 r (0 : Fin 1) :=
  funext fun a => by match a with | ⟨0, _⟩ => rfl | ⟨1, _⟩ => rfl
theorem idx_call2_v3 (r : Fin 8192) (z : Fin 1) : idx_main_call2_v3 (ix2 r z) = ix1 r :=
  funext fun a => by match a with | ⟨0, _⟩ => rfl
theorem idx_call2_v10 (r c : Fin 8192) : idx_main_call2_v10 (ix2 r c) = ix2 r (0 : Fin 1) :=
  funext fun a => by match a with | ⟨0, _⟩ => rfl | ⟨1, _⟩ => rfl
theorem idx_call2_v8 (r : Fin 8192) (z : Fin 1) : idx_main_call2_v8 (ix2 r z) = ix1 r :=
  funext fun a => by match a with | ⟨0, _⟩ => rfl
theorem idx_call2_v7 (r : Fin 8192) (k : Fin 8192) : idx_main_call2_v7 (ix1 r) k = ix2 r k :=
  funext fun a => by match a with | ⟨0, _⟩ => rfl | ⟨1, _⟩ => rfl

/-- Putting coordinate k back on the second axis of row r gives the entry (r, k). -/
theorem lift_row (h : S8192x8192.Reduces [1] S8192) (r : Fin 8192) (k : Fin 8192) :
    h.lift (ix1 r) k = ix2 r k :=
  funext fun d => Fin.ext (by match d with | ⟨0, _⟩ => rfl | ⟨1, _⟩ => rfl)

/-- A fold of max from the bottom element is the supremum. -/
theorem fold_max_bot {ι : Type} (s : Finset ι) (f : ι → EReal) : s.fold max ⊥ f = s.sup f := rfl

/-- The row's maximum, as the program takes it, is the supremum of the row. -/
theorem call2_v2_apply (x0 x1 : (⟨S4096x128, .f32⟩ : BufTy).Contents (Elt Ideal)) (r : Fin 8192) :
    val_main_call2_v2 (F := Ideal) x0 x1 (ix1 r)
      = Finset.univ.sup fun c : Fin 8192 => val_main_v14 (F := Ideal) x0 x1 (ix2 r c) := by
  rw [val_main_call2_v2_apply, val_main_call2_v1_apply, val_main_call2_cst_0_apply]
  unfold val_main_call2_v0
  generalize val_main_v14 (F := Ideal) x0 x1 = y
  have H : S8192x8192.Reduces [1] S8192 := by decide
  refine (congrArg (FloatOps.maximumf (F := Ideal) (FloatOps.ofBits .f32 0xFF800000#32))
    (Host.reduce_eq_fold_single (FloatOps.maximumf (F := Ideal) (φ := .f32)) y (val_main_call2_cst (F := Ideal))
      reducesTo_S8192x8192_S8192_d1 H h_S_ (ix1 r))).trans ?_
  have hfun : (y ∘ H.lift (ix1 r)) = fun c : Fin 8192 => y (ix2 r c) := funext fun k => congrArg y (lift_row H r k)
  rw [hfun, val_main_call2_cst_apply]
  show max (Ideal.ofBits .f32 0xFF800000#32) (Finset.univ.fold max (Ideal.ofBits .f32 0xFF800000#32) fun c : Fin 8192 => y (ix2 r c)) = _
  rw [ofBits_neg_inf, fold_max_bot, max_eq_right bot_le]

/-- The shifted score at (r, c). -/
theorem call2_v5_apply' (x0 x1 : (⟨S4096x128, .f32⟩ : BufTy).Contents (Elt Ideal)) (r c : Fin 8192) :
    val_main_call2_v5 (F := Ideal) x0 x1 (ix2 r c)
      = val_main_v14 (F := Ideal) x0 x1 (ix2 r c)
        - Finset.univ.sup fun c : Fin 8192 => val_main_v14 (F := Ideal) x0 x1 (ix2 r c) := by
  rw [val_main_call2_v5_apply, val_main_call2_v4_apply, idx_call2_v4, val_main_call2_v3_apply, idx_call2_v3,
    call2_v2_apply, Ideal.subf_def]

/-- The log-softmax at (r, c). -/
theorem v20_apply (x0 x1 : (⟨S4096x128, .f32⟩ : BufTy).Contents (Elt Ideal)) (r c : Fin 8192) :
    val_main_v20 (F := Ideal) x0 x1 (ix2 r c)
      = NtXent.rowWhole (fun c => val_main_v14 (F := Ideal) x0 x1 (ix2 r c)) c := by
  rw [val_main_v20_apply, call2_v5_apply', val_main_call2_v10_apply, idx_call2_v10, val_main_call2_v9_apply,
    val_main_call2_v8_apply, idx_call2_v8, val_main_call2_v7_apply, val_main_call2_cst_1_apply,
    Ideal.subf_def, Ideal.hostUnary_log_def, Ideal.ofBits_def, Ideal.ofBits_zero_f32, zero_add]
  unfold NtXent.rowWhole
  refine congrArg (fun s => _ - Ideal.log s) (Finset.sum_congr rfl fun k _ => ?_)
  rw [idx_call2_v7, val_main_call2_v6_apply, call2_v5_apply', Ideal.hostUnary_exp_def]

end Cert.ReferenceIdeal.RefValue

end
-- ==== Proof.RefValueE.lean ====
/-
  The last stage of the whole-matrix program: the log-softmax entry at each row's partner label, and minus the mean.

  The labels are 4096 + i for the first 4096 rows and i − 4096 for the rest: row r's label is its partner
  (r + 4096) mod 8192, a 32-bit word below 8192.  Such a word read signed is the number itself, so the "negative
  index" correction leaves it alone, the in-range mask is set on every row, and the gather's clamp to [0, 8191] does
  nothing: row r reads its log-softmax row at column partner r.  The sum over the [8192, 1] array is the sum over the
  rows; it is divided by the row count and negated.
-/
import proofs.«129541_j23081154249195_1_alg».proof.Proof.RefValueRead
import proofs.«129541_j23081154249195_1_alg».proof.Proof.Spec

noncomputable section

namespace Cert.ReferenceIdeal.RefValue

open Cert.ReferenceIdeal Cert.ReferenceIdeal.Gen Cert.ReferenceIdeal.ReadP Idealize.ShloMosaic Idealize.ShloMosaic.ValueIdx

/-! ## The labels -/

/-- A word below 8192 read signed is the number. -/
theorem toInt_ofNat_small (n : Nat) (h : n < 8192) : (BitVec.ofNat 32 n).toInt = (n : Int) := by
  have hn : (BitVec.ofNat 32 n).toNat = n := by rw [BitVec.toNat_ofNat]; exact Nat.mod_eq_of_lt (by omega)
  rw [BitVec.toInt_eq_toNat_of_lt (by rw [hn]; omega), hn]

/-- Row r's label: its partner, as a word. -/
theorem v19_apply (r : Fin 8192) :
    val_main_v19 (F := Ideal) (ix1 r) = BitVec.ofNat 32 (NtXent.partner r).val := by
  unfold val_main_v19
  by_cases h : r.val < 4096
  · refine (concatenate_pair_apply_left (0 : Fin S8192.rank) (val_main_v17 (F := Ideal)) (val_main_v18 (F := Ideal)) _ (ix1 r) rfl
      (ix1 ⟨r.val, h⟩) (fun b => by match b with | ⟨0, _⟩ => rfl)).trans ?_
    rw [val_main_v17_apply, val_main_v16_apply, val_main_c_2_apply, val_main_v15_apply]
    show (4096#32 : BitVec 32) + BitVec.ofNat 32 r.val = BitVec.ofNat 32 ((r.val + 4096) % 8192)
    have e : (r.val + 4096) % 8192 = 4096 + r.val := by omega
    rw [e, BitVec.ofNat_add]
  · refine (concatenate_pair_apply_right (0 : Fin S8192.rank) (val_main_v17 (F := Ideal)) (val_main_v18 (F := Ideal)) _ (ix1 r) rfl rfl
      (ix1 ⟨r.val - 4096, by omega⟩) (fun b hb => by match b with | ⟨0, _⟩ => exact absurd rfl hb)
      (by show (r.val - 4096) + 4096 = r.val; omega)).trans ?_
    rw [val_main_v18_apply]
    show BitVec.ofNat 32 (r.val - 4096) = BitVec.ofNat 32 ((r.val + 4096) % 8192)
    have e : (r.val + 4096) % 8192 = r.val - 4096 := by have := r.isLt; omega
    rw [e]

theorem idx_v21 (r : Fin 8192) (z : Fin 1) : idx_main_v21 (ix2 r z) = ix1 r :=
  funext fun a => by match a with | ⟨0, _⟩ => rfl

/-- The label after the negative-index correction: unchanged. -/
theorem call3_v4_apply (r : Fin 8192) (z : Fin 1) :
    val_main_call3_v4 (F := Ideal) (ix2 r z) = BitVec.ofNat 32 (NtXent.partner r).val := by
  have hp : (NtXent.partner r).val < 8192 := (NtXent.partner r).isLt
  have h21 : val_main_v21 (F := Ideal) (ix2 r z) = BitVec.ofNat 32 (NtXent.partner r).val := by
    rw [val_main_v21_apply, idx_v21, v19_apply]
  have h1 : val_main_call3_v1 (F := Ideal) (ix2 r z) = 0#1 := by
    rw [val_main_call3_v1_apply, h21, val_main_call3_v0_apply, val_main_call3_c_apply]
    refine eq_zero_of_ne_one fun h => ?_
    have := IntOp.cmpi_slt.mp h
    rw [toInt_ofNat_small _ hp] at this
    have h0 : (0#32 : BitVec 32).toInt = 0 := by decide
    omega
  rw [val_main_call3_v4_apply, h1, select_zero, h21]

theorem idx_call3_v5 (r : Fin 8192) (a b : Fin 1) : idx_main_call3_v5 (ix3 r a b) = ix2 r (0 : Fin 1) :=
  funext fun d => by
    match d with
    | ⟨0, _⟩ => exact Fin.ext (by show ((r.val * 1 + a.val) * 1 + b.val) / 1 = r.val; have := a.isLt; have := b.isLt; omega)
    | ⟨1, _⟩ => rfl

/-- The start index of row r: its partner, as a word. -/
theorem call3_v5_apply (r : Fin 8192) (a b : Fin 1) :
    val_main_call3_v5 (F := Ideal) (ix3 r a b) = BitVec.ofNat 32 (NtXent.partner r).val := by
  rw [val_main_call3_v5_apply, idx_call3_v5, call3_v4_apply]

/-! ## The in-range mask is set everywhere -/

theorem call3_v11_ix (r : Fin 8192) (a b : Fin 1) : val_main_call3_v11 (F := Ideal) (ix3 r a b) = 1#1 := by
  have hp : (NtXent.partner r).val < 8192 := (NtXent.partner r).isLt
  rw [val_main_call3_v11_apply, val_main_call3_v7_apply, val_main_call3_v10_apply, call3_v5_apply,
    val_main_call3_v6_apply, val_main_call3_c_2_apply, val_main_call3_v9_apply, val_main_call3_v8_apply,
    val_main_call3_c_1_apply]
  have h0 : (0#32 : BitVec 32).toInt = 0 := by decide
  have h1 : (8191#32 : BitVec 32).toInt = 8191 := by decide
  refine IntOp.andi_eq_one.mpr ⟨IntOp.cmpi_sge.mpr ?_, IntOp.cmpi_sle.mpr ?_⟩
  · rw [toInt_ofNat_small _ hp, h0]; omega
  · rw [toInt_ofNat_small _ hp, h1]; omega

theorem call3_v11_one (i : S8192x1x1.Idx) : val_main_call3_v11 (F := Ideal) i = 1#1 :=
  (congrArg (val_main_call3_v11 (F := Ideal)) (eq_ix3 i)).trans (call3_v11_ix (i 0) (i 1) (i 2))

/-- A left fold of "and" from 1 over words that are all 1 is 1. -/
theorem foldl_andi_ones {ι : Type} (x : ι → BitVec 1) (hx : ∀ i, x i = 1#1) (l : List ι) :
    l.foldl (fun r i => IntOp.andi r (x i)) 1#1 = 1#1 := by
  induction l with
  | nil => rfl
  | cons a l ih =>
    have e : IntOp.andi (1#1 : BitVec 1) (x a) = 1#1 := by rw [hx a]; decide
    rw [List.foldl_cons, e]; exact ih

theorem call3_v12_one (j : S8192x1.Idx) : val_main_call3_v12 (F := Ideal) j = 1#1 := by
  unfold val_main_call3_v12
  rw [Host.reduce_eq_foldl]
  exact foldl_andi_ones _ call3_v11_one _

/-! ## The gather -/

/-- The gather along a row: entry (r, 0) of the result is the operand's row r at the start index read signed and
    clamped into [0, 8191]. -/
theorem gather_row {α : Type} (x : S8192x8192.Idx → α) (idx : IVec S8192x1x1 32) (r : Fin 8192) (z : Fin 1) :
    Host.gather gather_S8192x8192_S8192x1x1_S8192x1_n_1_0_0_1_2_11 x idx (ix2 r z)
      = x (ix2 r ⟨min (idx (ix3 r z (0 : Fin 1))).toInt.toNat 8191, by omega⟩) := by
  unfold Host.gather
  refine congrArg x (funext fun a => Fin.ext ?_)
  match a with
  | ⟨0, _⟩ =>
    show gather_S8192x8192_S8192x1x1_S8192x1_n_1_0_0_1_2_11.start (ix2 r z) idx 0
        + gather_S8192x8192_S8192x1x1_S8192x1_n_1_0_0_1_2_11.batchCoord (ix2 r z) 0
        + gather_S8192x8192_S8192x1x1_S8192x1_n_1_0_0_1_2_11.offCoord (ix2 r z) 0 = r.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin S8192x8192.rank) ∈ gather_S8192x8192_S8192x1x1_S8192x1_n_1_0_0_1_2_11.operandBatchingDims
      from List.mem_singleton.mpr rfl)]
    simp only [Nat.zero_add, Nat.add_zero]
    rfl
  | ⟨1, _⟩ =>
    show gather_S8192x8192_S8192x1x1_S8192x1_n_1_0_0_1_2_11.start (ix2 r z) idx 1
        + gather_S8192x8192_S8192x1x1_S8192x1_n_1_0_0_1_2_11.batchCoord (ix2 r z) 1
        + gather_S8192x8192_S8192x1x1_S8192x1_n_1_0_0_1_2_11.offCoord (ix2 r z) 1 = min (idx (ix3 r z (0 : Fin 1))).toInt.toNat 8191
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x8192_S8192x1x1_S8192x1_n_1_0_0_1_2_11.startIndexMap from List.mem_singleton.mpr rfl)]
    have hsi : gather_S8192x8192_S8192x1x1_S8192x1_n_1_0_0_1_2_11.siIdx (ix2 r z)
        ⟨List.idxOf (1 : Fin 2) gather_S8192x8192_S8192x1x1_S8192x1_n_1_0_0_1_2_11.startIndexMap,
          List.idxOf_lt_length_iff.2 (List.mem_singleton.mpr rfl)⟩ = ix3 r z (0 : Fin 1) := by
      funext b; refine Fin.ext ?_
      match b with
      | ⟨0, _⟩ => rfl
      | ⟨1, _⟩ => rfl
      | ⟨2, _⟩ => rfl
    rw [hsi]
    rfl

/-- Row r gathers its log-softmax row at its partner. -/
theorem call3_v13_apply (x0 x1 : (⟨S4096x128, .f32⟩ : BufTy).Contents (Elt Ideal)) (r : Fin 8192) (z : Fin 1) :
    val_main_call3_v13 (F := Ideal) x0 x1 (ix2 r z) = val_main_v20 (F := Ideal) x0 x1 (ix2 r (NtXent.partner r)) := by
  unfold val_main_call3_v13
  have hp : (NtXent.partner r).val < 8192 := (NtXent.partner r).isLt
  refine (gather_row _ _ r z).trans (congrArg (fun c => val_main_v20 (F := Ideal) x0 x1 (ix2 r c)) (Fin.ext ?_))
  show min (val_main_call3_v5 (F := Ideal) (ix3 r z (0 : Fin 1))).toInt.toNat 8191 = (NtXent.partner r).val
  rw [call3_v5_apply, toInt_ofNat_small _ hp]
  omega

/-! ## Minus the mean -/

/-- The whole program's result, in terms of the log-softmax array. -/
theorem v25_apply (x0 x1 : (⟨S4096x128, .f32⟩ : BufTy).Contents (Elt Ideal)) (i : S_.Idx) :
    val_main_v25 (F := Ideal) x0 x1 i
      = NtXent.loss fun r => val_main_v20 (F := Ideal) x0 x1 (ix2 r (NtXent.partner r)) := by
  rw [val_main_v25_apply, val_main_v24_apply, val_main_v23_apply, val_main_cst_3_apply, val_main_cst_4_apply,
    Ideal.hostNegf_def, Ideal.negf_def, Ideal.hostDivf_def, Ideal.ofBits_def, Ideal.ofBits_def, Ideal.ofBits_zero_f32, zero_add,
    sum_idx2]
  unfold NtXent.loss NtXent.cnt
  refine congrArg (fun s => -(Ideal.div s _)) (Finset.sum_congr rfl fun r _ => ?_)
  rw [Fin.sum_univ_one, val_main_v22_apply, call3_v12_one, select_one, call3_v13_apply]

end Cert.ReferenceIdeal.RefValue

end
-- ==== Proof.RefValue.lean ====
/-
  The whole-matrix program's run, stated over the shared specification.

  The run ends with the result buffer at the composition of the program's 74 operations applied to the two argument
  arrays (the run module).  Read at its one index, that composition is minus the mean, over the 8192 rows, of the
  log-softmax entry at the row's partner (the last stage); the log-softmax row is the specification's `rowWhole` of the
  row of masked scores (the fourth stage); the masked scores are `simDiv` of the normalized array (the second stage);
  and the normalized array is `zn` of the two batches stacked (the first stage).  No step uses finiteness of the
  inputs: every operation is read at an index as it is.
-/
import proofs.«129541_j23081154249195_1_alg».proof.Proof.RefRun
import proofs.«129541_j23081154249195_1_alg».proof.Proof.RefValueA
import proofs.«129541_j23081154249195_1_alg».proof.Proof.RefValueB
import proofs.«129541_j23081154249195_1_alg».proof.Proof.RefValueD
import proofs.«129541_j23081154249195_1_alg».proof.Proof.RefValueE

noncomputable section

namespace Cert.ReferenceIdeal.RefValue

open Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo

/-- The composition of the program's operations is the specification's whole-matrix loss of the two batches. -/
theorem v25_eq (x0 x1 : (⟨S4096x128, .f32⟩ : BufTy).Contents (Elt Ideal)) :
    val_main_v25 (F := Ideal) x0 x1 = fun _ => NtXent.lossWhole (argRows x0) (argRows x1) := by
  funext i
  rw [v25_apply]
  unfold NtXent.lossWhole
  refine congrArg NtXent.loss (funext fun r => ?_)
  rw [v20_apply]
  refine congrArg (fun s => NtXent.rowWhole s (NtXent.partner r)) (funext fun c => ?_)
  rw [v14_apply]
  exact congrArg (fun y => NtXent.simDiv y r c) (funext fun r' => funext fun d => v5_apply x0 x1 r' d)

/-- On every device, from any memory with zero counters: every weakly fair execution of the whole-matrix program
    terminates with the result buffer at the specification's whole-matrix loss of the two argument arrays, the arguments
    unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25)
        = (fun _ => NtXent.lossWhole (argRows (m ((c.tc : Thread nD τ).loc main_arg0)))
            (argRows (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (v25_eq _ _), (h c).2⟩)
    (Cert.ReferenceIdeal.RefRun.run (F := Ideal) m ρ)

end Cert.ReferenceIdeal.RefValue

end
-- ==== Proof.lean ====
/-
  Two programs compute the NT-Xent loss of two batches of 4096 embeddings of width 128, and their results are
  equal as extended reals whenever every input is finite.

  Both stack the batches into 8192 rows and divide each row by its Euclidean length, floored at a small
  constant.  The tiled program then reads the matrix of scores — inner products of the normalized rows times
  two, a row's own score masked to −∞ — in tiles of 512 × 512, keeping per row a running maximum, a running sum
  of exponentials rescaled whenever the maximum grows, and the score of the row's partner; after the sixteenth
  column tile a row's result is partner score − (maximum + log sum).  The whole-matrix program divides the inner
  products by one half, subtracts the row maximum, subtracts the logarithm of the row's sum of exponentials, and
  picks the partner's column.  Both end with minus the mean of the 8192 row results.

  The two agree because a product with two is a quotient by one half on every extended real; because with finite
  inputs every score is a real number except the one masked entry per row, so that the rescaled running sum is
  exactly the sum of exponentials shifted by the final maximum (rescaling by exp (m − m') is exact on the reals,
  and the masked entry contributes exp (−∞) = 0 throughout); and because for real p, m and l ≥ 1,
  p − (m + log l) = (p − m) − log l.

  The frames: each program terminates without a fault and leaves its argument arrays as launched.  For the
  tiled program this is read off the run of its four segments (host concatenation, two kernel regions, host mean),
  which names the contents of every unscoped buffer at each boundary; the same run at the ideal instance gives
  the value.  The idealized tiled program differs from the printed one only in naming its finite stand-in for −∞.
-/
import proofs.«129541_j23081154249195_1_alg».proof.Defs
import proofs.«129541_j23081154249195_1_alg».proof.Proof.Gen.Kernel
import proofs.«129541_j23081154249195_1_alg».proof.Proof.Gen.KernelIdeal
import proofs.«129541_j23081154249195_1_alg».proof.Proof.Gen.ReferenceIdeal
import proofs.«129541_j23081154249195_1_alg».proof.Proof.Gen.Pre_finite_inputs
import proofs.«129541_j23081154249195_1_alg».proof.Proof.KFrame
import proofs.«129541_j23081154249195_1_alg».proof.Proof.KiFrame
import proofs.«129541_j23081154249195_1_alg».proof.Proof.KiValue
import proofs.«129541_j23081154249195_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The printed tiled program runs and keeps its arguments. -/
theorem frame_p : Cert.frame_Kernel := fun m ρ _ => Cert.Kernel.Hand.frame m ρ

/-- So does its idealization. -/
theorem frame_pi : Cert.frame_KernelIdeal := fun m ρ _ => Cert.KernelIdeal.Hand.frame m ρ

/-- The whole-matrix program is a straight line of host operations: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The one rewrite of the idealization: the large finite negative constant that masks a row's own score is
    named −∞, the bottom of the extended reals. -/
theorem preserves : Cert.preserves_Kernel_KernelIdeal :=
  IdealRules.named_const.statement Cert.KernelIdeal.κ "neg_big" .f32 0xFF333332#32 ⊥ rfl

/-- From memories that agree on the two batches, both programs end at the same loss: the tiled program's run
    ends at the whole-matrix form of the loss of its own arguments (finite by the precondition), and the
    whole-matrix program's run at the same form of arguments that are the same arrays. -/
theorem algebraic : Cert.algebraic_KernelIdeal_ReferenceIdeal := by
  intro m ρ m' ρ' hpre hagree
  refine ⟨fun c => fun _ => NtXent.lossWhole
      (fun r d => m ((c.tc : Thread Cert.KernelIdeal.nD Cert.KernelIdeal.τ).loc Cert.KernelIdeal.main_arg0) (ix2 r d))
      (fun r d => m ((c.tc : Thread Cert.KernelIdeal.nD Cert.KernelIdeal.τ).loc Cert.KernelIdeal.main_arg1) (ix2 r d)),
    Cert.KernelIdeal.Hand.kernel_value m ρ hpre, ?_⟩
  refine (θ_run Cert.ReferenceIdeal.defs _ _).mono (fun _ h c => ⟨(h c).1.trans ?_, (h c).2⟩)
    (Cert.ReferenceIdeal.RefValue.run_spec m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
